-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192 : Shape := ⟨2, ![2048, 8192]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  main_v38

def fn_part1 {F : FTy → Type} [FloatOps F] (main_arg4 : FVec F S2048x8192 .f32) (main_arg5 : FVec F S8192 .f32) (main_arg6 : FVec F S2048x8192 .f32) (main_arg7 : FVec F S8192 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S2048x8192 .f32 := Host.absf main_arg6
  let main_cst_10 : FVec F S_ .f32 := constant S_ .f32 0x7F800000#32
  let main_v30 : FVec F S2048x8192 .f32 := broadcastInDim S2048x8192 ![] bcast_S_S2048x8192 main_cst_10
  let main_v31 : IVec S2048x8192 1 := cmpf .olt main_v29 main_v30
  let main_c_11 : IVec S_ 1 := constantI S_ 1 1#1
  let main_v32 : IVec S_ 1 := (fun x v => Host.reduce IntOp.andi x v reducesTo_S2048x8192_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S2048x8192 .f32) (main_arg5 : FVec F S8192 .f32) (main_arg6 : FVec F S2048x8192 .f32) (main_arg7 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S2048x8192 : Shape := ⟨2, ![2048, 8192]⟩
abbrev S8192 : Shape := ⟨1, ![8192]⟩
abbrev S2048 : Shape := ⟨1, ![2048]⟩
abbrev S1024x256 : Shape := ⟨2, ![1024, 256]⟩
abbrev S256x512 : Shape := ⟨2, ![256, 512]⟩
abbrev S512 : Shape := ⟨1, ![512]⟩
abbrev S1024x512 : Shape := ⟨2, ![1024, 512]⟩
abbrev S1x512 : Shape := ⟨2, ![1, 512]⟩

abbrev nBuf : Space → Nat
  | .hbm => 19
  | .vmem => 40
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x8192, .f32⟩
  | .hbm, ⟨5, _⟩ => ⟨S8192, .f32⟩
  | .hbm, ⟨6, _⟩ => ⟨S2048x8192, .f32⟩
  | .hbm, ⟨7, _⟩ => ⟨S8192, .f32⟩
  | .hbm, ⟨8, _⟩ => ⟨S2048x8192, .bf16⟩
  | .hbm, ⟨9, _⟩ => ⟨S2048x8192, .bf16⟩
  | .hbm, ⟨10, _⟩ => ⟨S4096x2048, .bf16⟩
  | .hbm, ⟨11, _⟩ => ⟨S4096x2048, .bf16⟩
  | .hbm, ⟨12, _⟩ => ⟨S8192, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S4096x2048, .f32⟩
  | .hbm, ⟨18, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S512, .f32⟩
  | .local _ .vmem, ⟨21, _⟩ => ⟨S512, .f32⟩
  | .local _ .vmem, ⟨22, _⟩ => ⟨S512, .f32⟩
  | .local _ .vmem, ⟨23, _⟩ => ⟨S512, .f32⟩
  | .local _ .vmem, ⟨24, _⟩ => ⟨S512, .f32⟩
  | .local _ .vmem, ⟨25, _⟩ => ⟨S512, .f32⟩
  | .local _ .vmem, ⟨26, _⟩ => ⟨S512, .f32⟩
  | .local _ .vmem, ⟨27, _⟩ => ⟨S512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | .local _ .vmem, ⟨38, _⟩ => ⟨S1024x512, .f32⟩
  | .local _ .vmem, ⟨39, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v55 : BitVec 1 := Scalar.cmpi .eq arg2 c7_i32
  let v56 : BitVec 32 := Scalar.extui v55
  let c0_i32_43 : BitVec 32 := 0#32
  let v57 : BitVec 1 := Scalar.cmpi .ne v56 c0_i32_43
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg2.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg2.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg2.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg2.toNat, v0.toNat]

def cc0_transform_10 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_11 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_12 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_13 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

class Facts₀ : Prop where
  bitsLt_bf16_f32 : FTy.bits .bf16 < FTy.bits .f32
  slices_S8192_S2048_0 : S8192.Slices ![0] S2048
  slices_S8192_S2048_2048 : S8192.Slices ![2048] S2048
  slices_S8192_S2048_4096 : S8192.Slices ![4096] S2048
  slices_S8192_S2048_6144 : S8192.Slices ![6144] S2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S1024x512 : S1x512.Broadcasts S1024x512
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x2048.size a
  hwx0_0 : ∀ i : grid0.Coords, EltTy.bits .bf16 = 32 ∨ (Rect.block (s := S4096x2048) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x2048.size a
  hwx0_1 : ∀ i : grid0.Coords, EltTy.bits .bf16 = 32 ∨ (Rect.block (s := S4096x2048) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x8192.size a
  hwx0_2 : ∀ i : grid0.Coords, EltTy.bits .bf16 = 32 ∨ (Rect.block (s := S2048x8192) S256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2048x8192.size a
  hwx0_3 : ∀ i : grid0.Coords, EltTy.bits .bf16 = 32 ∨ (Rect.block (s := S2048x8192) S256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S2048x8192.size a
  hwx0_4 : ∀ i : grid0.Coords, EltTy.bits .bf16 = 32 ∨ (Rect.block (s := S2048x8192) S256x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S2048x8192.size a
  hwx0_5 : ∀ i : grid0.Coords, EltTy.bits .bf16 = 32 ∨ (Rect.block (s := S2048x8192) S256x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S2048x8192.size a
  hwx0_6 : ∀ i : grid0.Coords, EltTy.bits .bf16 = 32 ∨ (Rect.block (s := S2048x8192) S256x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S2048x8192.size a
  hwx0_7 : ∀ i : grid0.Coords, EltTy.bits .bf16 = 32 ∨ (Rect.block (s := S2048x8192) S256x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S2048x8192.size a
  hwx0_8 : ∀ i : grid0.Coords, EltTy.bits .bf16 = 32 ∨ (Rect.block (s := S2048x8192) S256x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S2048x8192.size a
  hwx0_9 : ∀ i : grid0.Coords, EltTy.bits .bf16 = 32 ∨ (Rect.block (s := S2048x8192) S256x512.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S2048.size a
  hwx0_10 : ∀ i : grid0.Coords, EltTy.bits .f32 = 32 ∨ (Rect.block (s := S2048) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S2048.size a
  hwx0_11 : ∀ i : grid0.Coords, EltTy.bits .f32 = 32 ∨ (Rect.block (s := S2048) S512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S2048.size a
  hwx0_12 : ∀ i : grid0.Coords, EltTy.bits .f32 = 32 ∨ (Rect.block (s := S2048) S512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S2048.size a
  hwx0_13 : ∀ i : grid0.Coords, EltTy.bits .f32 = 32 ∨ (Rect.block (s := S2048) S512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x512.size a ≤ S4096x2048.size a
  hwx0_14 : ∀ i : grid0.Coords, EltTy.bits .f32 = 32 ∨ (Rect.block (s := S4096x2048) S1024x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x512.size a ≤ S4096x2048.size a
  hwx0_15 : ∀ i : grid0.Coords, EltTy.bits .f32 = 32 ∨ (Rect.block (s := S4096x2048) S1024x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x512.size a ≤ S4096x2048.size a
  hwx0_16 : ∀ i : grid0.Coords, EltTy.bits .f32 = 32 ∨ (Rect.block (s := S4096x2048) S1024x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x512.size a ≤ S4096x2048.size a
  hwx0_17 : ∀ i : grid0.Coords, EltTy.bits .f32 = 32 ∨ (Rect.block (s := S4096x2048) S1024x512.size (cc0_transform_17 i) (hinb0_17 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S256x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S256x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1) S256x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5) S512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6) S512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7) S512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8) S512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg0) S1024x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg2) S1024x512.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v9_0) S1024x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v9_1) S1024x512.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k0_cond2 i == 1#1) | 17 => fun i => !(k0_cond2 i == 1#1) | ⟨_ + 18, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x8192, .f32⟩
  | .hbm, ⟨5, _⟩ => ⟨S8192, .f32⟩
  | .hbm, ⟨6, _⟩ => ⟨S2048x8192, .f32⟩
  | .hbm, ⟨7, _⟩ => ⟨S8192, .f32⟩
  | .hbm, ⟨8, _⟩ => ⟨S4096x8192, .f32⟩
  | .hbm, ⟨9, _⟩ => ⟨S1x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S1x8192, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  bcast_S_S4096x2048 : S_.BroadcastsInDim S4096x2048 (![] : Fin 0 → Fin S4096x2048.rank)
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.LibFinTiles.lean ====
import Idealize.ShloMosaic.Lib.ValueIdx

/-! # A sum over `Fin n` taken tile by tile

When `n = a · b`, the positions below `n` are the positions `i · b + p` of `a` consecutive tiles of `b` positions
(division with remainder), so a sum over `Fin n` is the sum over the tiles of the sums over each tile's positions. The
position map `r` is a parameter, known only through its values, so that a caller's own indexing of the tiles can be
used as it stands. Stated for any commutative additive monoid: only commutativity and associativity of addition are
used (so it applies on the extended reals, where nothing may be cancelled). -/

namespace Cert.FinTiles

open scoped BigOperators

/-- A sum over `a · b` positions taken tile by tile. Position `r i p` is `i · b + p`; every position below `a · b` is
`i · b + p` for exactly one tile `i < a` and one offset `p < b`, so the two sides add the same terms. -/
theorem sum_fin_tiles {M : Type} [AddCommMonoid M] (a b n : ℕ) (h : a * b = n) (f : Fin n → M)
    (r : Fin a → Fin b → Fin n) (hr : ∀ i p, (r i p).val = i.val * b + p.val) :
    ∑ x : Fin n, f x = ∑ i : Fin a, ∑ p : Fin b, f (r i p) := by
  subst h
  refine (Equiv.sum_comp (finProdFinEquiv (m := a) (n := b)) f).symm.trans ?_
  rw [Fintype.sum_prod_type]
  refine Finset.sum_congr rfl fun i _ => Finset.sum_congr rfl fun p _ => ?_
  refine congrArg f (Fin.ext ?_)
  rw [hr, finProdFinEquiv_apply_val]
  show p.val + b * i.val = i.val * b + p.val
  rw [Nat.mul_comm, Nat.add_comm]

end Cert.FinTiles
-- ==== Proof.Spec.lean ====
import Idealize.ShloMosaic.PureOps.Ideal
import Idealize.ShloMosaic.Lib.ValueIdx
import proofs.«164712_j12180527251605_2_alg».proof.Proof.LibFinTiles

/-! # The gate cell, as a function of its arguments

Both programs compute, for every row `r` and unit `j`, the cell state
`c = σ(g_i) · tanh(g_u) + σ(g_lf) · lc + σ(g_rf) · rc` and the hidden state `h = tanh c`, where the four gate
pre-activations `g_i, g_lf, g_rf, g_u` are the columns `j, 2048 + j, 4096 + j, 6144 + j` of
`g = lh · Wl + bl + rh · Wr + br`. This file states that function on the extended reals (`pre`, `cell`, `hid`), the
same pre-activation accumulated in eight steps of 256 contraction positions from zero (`step`, `accum`), and the one
law that joins the two arrangements (`accum_pre`). It mentions no program. -/

noncomputable section

open scoped BigOperators

namespace Cert.Spec

open Idealize.ShloMosaic

abbrev SBD : Shape := ⟨2, ![4096, 2048]⟩
abbrev SDG : Shape := ⟨2, ![2048, 8192]⟩
abbrev SG : Shape := ⟨1, ![8192]⟩

/-- column of gate g at unit j in the fused [·, 8192] axis -/
def col (g : Fin 4) (j : Fin 2048) : Fin 8192 := ⟨2048 * g.val + j.val, by omega⟩

section

variable (lc lh rc rh : Fin 4096 → Fin 2048 → EReal) (Wl Wr : Fin 2048 → Fin 8192 → EReal) (bl br : Fin 8192 → EReal)

/-- the pre-activation in the reference's arrangement -/
def pre (r : Fin 4096) (q : Fin 8192) : EReal :=
  (((∑ c : Fin 2048, lh r c * Wl c q) + bl q) + ∑ c : Fin 2048, rh r c * Wr c q) + br q

/-- the logistic function `1 / (1 + e⁻ˣ)` on the extended reals -/
def sig (x : EReal) : EReal := FloatOps.logistic (F := Ideal) (φ := .f32) x

/-- the hyperbolic tangent on the extended reals -/
def th (x : EReal) : EReal := FloatOps.tanh (F := Ideal) (φ := .f32) x

/-- the cell state at row `r`, unit `j` -/
def cell (r : Fin 4096) (j : Fin 2048) : EReal :=
  (sig (pre lh rh Wl Wr bl br r (col 0 j)) * th (pre lh rh Wl Wr bl br r (col 3 j))
      + sig (pre lh rh Wl Wr bl br r (col 1 j)) * lc r j)
    + sig (pre lh rh Wl Wr bl br r (col 2 j)) * rc r j

/-- the hidden state at row `r`, unit `j` -/
def hid (r : Fin 4096) (j : Fin 2048) : EReal := th (cell lc lh rc rh Wl Wr bl br r j)

/-- contraction position c of reduction step k (8 steps of 256) -/
def kpos (k : Fin 8) (c : Fin 256) : Fin 2048 := ⟨256 * k.val + c.val, by omega⟩

/-- what one reduction step adds: both products over the step's 256 positions -/
def step (k : Fin 8) (r : Fin 4096) (q : Fin 8192) : EReal :=
  (∑ c : Fin 256, lh r (kpos k c) * Wl (kpos k c) q) + ∑ c : Fin 256, rh r (kpos k c) * Wr (kpos k c) q

/-- the accumulator after steps 0..n as the kernel adds them: from zero, left to right -/
def accum : (n : ℕ) → n < 8 → Fin 4096 → Fin 8192 → EReal
  | 0, _, r, q => 0 + step lh rh Wl Wr 0 r q
  | n + 1, h, r, q => accum n (by omega) r q + step lh rh Wl Wr ⟨n + 1, h⟩ r q

/-- The eight steps, written out: the accumulator after the last step is zero plus the eight step terms, added left to
right. -/
theorem accum_seven (r : Fin 4096) (q : Fin 8192) :
    accum lh rh Wl Wr 7 (by omega) r q
      = 0 + step lh rh Wl Wr 0 r q + step lh rh Wl Wr 1 r q + step lh rh Wl Wr 2 r q + step lh rh Wl Wr 3 r q
          + step lh rh Wl Wr 4 r q + step lh rh Wl Wr 5 r q + step lh rh Wl Wr 6 r q + step lh rh Wl Wr 7 r q := rfl

/-- A contraction over the 2048 positions is the sum of its eight tiles of 256 positions. -/
theorem sum_tiles (f : Fin 2048 → EReal) : (∑ c : Fin 2048, f c) = ∑ k : Fin 8, ∑ c : Fin 256, f (kpos k c) :=
  Cert.FinTiles.sum_fin_tiles 8 256 2048 (by norm_num) f kpos (fun k c => by
    show 256 * k.val + c.val = k.val * 256 + c.val
    rw [Nat.mul_comm])

/-- THE LAW joining the two sides: only commutativity and associativity of + on EReal (an AddCommMonoid), and a sum
over 2048 = 8·256 positions taken in 8 tiles; no finiteness needed. -/
theorem accum_pre (r : Fin 4096) (q : Fin 8192) :
    accum lh rh Wl Wr 7 (by omega) r q + (bl q + br q) = pre lh rh Wl Wr bl br r q := by
  rw [accum_seven, pre, sum_tiles (fun c => lh r c * Wl c q), sum_tiles (fun c => rh r c * Wr c q),
    Fin.sum_univ_eight, Fin.sum_univ_eight]
  simp only [step, zero_add]
  abel

end

/-- the cell state as an array, from the argument arrays (an array is a function of its index; at the ideal reading an
f32 element is an extended real) -/
def cellArr (lc lh rc rh : FVec Ideal SBD .f32) (Wl : FVec Ideal SDG .f32) (bl : FVec Ideal SG .f32)
    (Wr : FVec Ideal SDG .f32) (br : FVec Ideal SG .f32) : FVec Ideal SBD .f32 := fun i =>
  cell (fun r c => lc (ValueIdx.ix2 r c)) (fun r c => lh (ValueIdx.ix2 r c)) (fun r c => rc (ValueIdx.ix2 r c))
    (fun r c => rh (ValueIdx.ix2 r c)) (fun a b => Wl (ValueIdx.ix2 a b)) (fun a b => Wr (ValueIdx.ix2 a b))
    (fun q => bl (ValueIdx.ix1 q)) (fun q => br (ValueIdx.ix1 q)) (i 0) (i 1)

/-- the hidden state as an array, from the argument arrays -/
def hidArr (lc lh rc rh : FVec Ideal SBD .f32) (Wl : FVec Ideal SDG .f32) (bl : FVec Ideal SG .f32)
    (Wr : FVec Ideal SDG .f32) (br : FVec Ideal SG .f32) : FVec Ideal SBD .f32 := fun i =>
  hid (fun r c => lc (ValueIdx.ix2 r c)) (fun r c => lh (ValueIdx.ix2 r c)) (fun r c => rc (ValueIdx.ix2 r c))
    (fun r c => rh (ValueIdx.ix2 r c)) (fun a b => Wl (ValueIdx.ix2 a b)) (fun a b => Wr (ValueIdx.ix2 a b))
    (fun q => bl (ValueIdx.ix1 q)) (fun q => br (ValueIdx.ix1 q)) (i 0) (i 1)

theorem cellArr_apply (lc lh rc rh : FVec Ideal SBD .f32) (Wl : FVec Ideal SDG .f32) (bl : FVec Ideal SG .f32)
    (Wr : FVec Ideal SDG .f32) (br : FVec Ideal SG .f32) (r : Fin 4096) (j : Fin 2048) :
    cellArr lc lh rc rh Wl bl Wr br (ValueIdx.ix2 r j)
      = cell (fun r c => lc (ValueIdx.ix2 r c)) (fun r c => lh (ValueIdx.ix2 r c)) (fun r c => rc (ValueIdx.ix2 r c))
          (fun r c => rh (ValueIdx.ix2 r c)) (fun a b => Wl (ValueIdx.ix2 a b)) (fun a b => Wr (ValueIdx.ix2 a b))
          (fun q => bl (ValueIdx.ix1 q)) (fun q => br (ValueIdx.ix1 q)) r j := rfl

theorem hidArr_apply (lc lh rc rh : FVec Ideal SBD .f32) (Wl : FVec Ideal SDG .f32) (bl : FVec Ideal SG .f32)
    (Wr : FVec Ideal SDG .f32) (br : FVec Ideal SG .f32) (r : Fin 4096) (j : Fin 2048) :
    hidArr lc lh rc rh Wl bl Wr br (ValueIdx.ix2 r j)
      = hid (fun r c => lc (ValueIdx.ix2 r c)) (fun r c => lh (ValueIdx.ix2 r c)) (fun r c => rc (ValueIdx.ix2 r c))
          (fun r c => rh (ValueIdx.ix2 r c)) (fun a b => Wl (ValueIdx.ix2 a b)) (fun a b => Wr (ValueIdx.ix2 a b))
          (fun q => bl (ValueIdx.ix1 q)) (fun q => br (ValueIdx.ix1 q)) r j := rfl

end Cert.Spec

end
-- ==== Proof.RefSpec.lean ====
import proofs.«164712_j12180527251605_2_alg».proof.Defs
import proofs.«164712_j12180527251605_2_alg».proof.Proof.Gen.ReferenceIdeal.Read
import proofs.«164712_j12180527251605_2_alg».proof.Proof.Gen.Pre_finite_inputs
import proofs.«164712_j12180527251605_2_alg».proof.Proof.Spec
import Idealize.ShloMosaic.Lib.IdealHost

/-! # The reference computes the gate cell

The reference program's two results, read index by index on the extended reals, are the arrays `Cert.Spec.cellArr` and
`Cert.Spec.hidArr` of its eight arguments: the two contractions are sums over the 2048 contraction positions, a bias
broadcast along the rows reads the bias at the column, the four column slices of the pre-activation read the columns
`2048 · g + j`, the literal `1.0` is the real one, and `1 / (1 + exp (-x))` is the logistic function. -/

noncomputable section

open scoped BigOperators

namespace Cert.ReferenceIdeal.RefSpec

open Cert.ReferenceIdeal Cert.ReferenceIdeal.Gen Cert.ReferenceIdeal.Read Idealize.ShloMosaic Idealize.ShloMosaic.TcCoe
  Idealize.SL.Sem Idealize.ShloMosaic.ValueIdx

/-! ## The layout operations' index maps at coordinates -/

theorem lidx0 (r : Fin 4096) (q : Fin 8192) (k : Fin 2048) : lidx_main_v0 (ix2 r q) k = ix2 r k := by
  funext a; match a with | ⟨0, _⟩ => rfl | ⟨1, _⟩ => rfl
theorem ridx0 (r : Fin 4096) (q : Fin 8192) (k : Fin 2048) : ridx_main_v0 (ix2 r q) k = ix2 k q := by
  funext a; match a with | ⟨0, _⟩ => rfl | ⟨1, _⟩ => rfl
theorem lidx4 (r : Fin 4096) (q : Fin 8192) (k : Fin 2048) : lidx_main_v4 (ix2 r q) k = ix2 r k := by
  funext a; match a with | ⟨0, _⟩ => rfl | ⟨1, _⟩ => rfl
theorem ridx4 (r : Fin 4096) (q : Fin 8192) (k : Fin 2048) : ridx_main_v4 (ix2 r q) k = ix2 k q := by
  funext a; match a with | ⟨0, _⟩ => rfl | ⟨1, _⟩ => rfl
theorem bidx5 (r : Fin 4096) (q : Fin 8192) : idx_main_v1 (idx_main_v2 (ix2 r q)) = ix1 q := by
  funext a; match a with | ⟨0, _⟩ => rfl
theorem bidx7 (r : Fin 4096) (q : Fin 8192) : idx_main_v6 (idx_main_v7 (ix2 r q)) = ix1 q := by
  funext a; match a with | ⟨0, _⟩ => rfl
theorem sidx9 (r : Fin 4096) (j : Fin 2048) : idx_main_v9 (ix2 r j) = ix2 r (Cert.Spec.col 0 j) := by
  funext a; match a with
  | ⟨0, _⟩ => rfl
  | ⟨1, _⟩ => exact Fin.ext (show j.val = 2048 * 0 + j.val by omega)
theorem sidx16 (r : Fin 4096) (j : Fin 2048) : idx_main_v16 (ix2 r j) = ix2 r (Cert.Spec.col 1 j) := by
  funext a; match a with
  | ⟨0, _⟩ => rfl
  | ⟨1, _⟩ => exact Fin.ext (show 2048 + j.val = 2048 * 1 + j.val by omega)
theorem sidx23 (r : Fin 4096) (j : Fin 2048) : idx_main_v23 (ix2 r j) = ix2 r (Cert.Spec.col 2 j) := by
  funext a; match a with
  | ⟨0, _⟩ => rfl
  | ⟨1, _⟩ => exact Fin.ext (show 4096 + j.val = 2048 * 2 + j.val by omega)
theorem sidx30 (r : Fin 4096) (j : Fin 2048) : idx_main_v30 (ix2 r j) = ix2 r (Cert.Spec.col 3 j) := by
  funext a; match a with
  | ⟨0, _⟩ => rfl
  | ⟨1, _⟩ => exact Fin.ext (show 6144 + j.val = 2048 * 3 + j.val by omega)

/-! ## The pre-activation -/

/-- The fused pre-activation at row `r`, column `q`: the two contractions as sums, the two biases at the column, added in
the reference's order. -/
theorem pre_eq (x1 x3 : FVec Ideal S4096x2048 .f32) (x4 : FVec Ideal S2048x8192 .f32) (x5 : FVec Ideal S8192 .f32) (x6 : FVec Ideal S2048x8192 .f32) (x7 : FVec Ideal S8192 .f32) (r : Fin 4096) (q : Fin 8192) :
    val_main_v8 (F := Ideal) x1 x3 x4 x5 x6 x7 (ix2 r q) = Cert.Spec.pre (fun r c => x1 (ix2 r c)) (fun r c => x3 (ix2 r c)) (fun a b => x4 (ix2 a b)) (fun a b => x6 (ix2 a b)) (fun q => x5 (ix1 q)) (fun q => x7 (ix1 q)) r q := by
  rw [val_main_v8_apply, val_main_v5_apply, val_main_v3_apply, val_main_v0_apply, val_main_v4_apply, val_main_v2_apply,
    val_main_v1_apply, val_main_v7_apply, val_main_v6_apply, bidx5, bidx7]
  simp only [lidx0, ridx0, lidx4, ridx4]
  rfl

/-! ## The logistic function as the reference spells it -/

/-- `1 / (1 + exp (-x))` with the literal `1.0`, in the host's operations, is the logistic function. -/
theorem host_sig (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Cert.Spec.sig x := by
  rw [Ideal.ofBits_def, Ideal.ofBits_one_f32]
  rfl

/-! ## The two results -/

/-- The reference's first result at row `r`, unit `j`: each slice reads the pre-activation at its gate's column, three gates
pass through the logistic function and one through tanh, and the products are added in the reference's order. -/
theorem cell_eq (x0 x1 x2 x3 : FVec Ideal S4096x2048 .f32) (x4 : FVec Ideal S2048x8192 .f32) (x5 : FVec Ideal S8192 .f32) (x6 : FVec Ideal S2048x8192 .f32) (x7 : FVec Ideal S8192 .f32) (r : Fin 4096) (j : Fin 2048) :
    val_main_v36 (F := Ideal) x0 x1 x2 x3 x4 x5 x6 x7 (ix2 r j) = Cert.Spec.cell (fun r c => x0 (ix2 r c)) (fun r c => x1 (ix2 r c)) (fun r c => x2 (ix2 r c)) (fun r c => x3 (ix2 r c)) (fun a b => x4 (ix2 a b)) (fun a b => x6 (ix2 a b)) (fun q => x5 (ix1 q)) (fun q => x7 (ix1 q)) r j := by
  rw [val_main_v36_apply, val_main_v34_apply, val_main_v35_apply, val_main_v32_apply, val_main_v33_apply,
    val_main_v15_apply, val_main_v22_apply, val_main_v29_apply, val_main_v31_apply,
    val_main_v14_apply, val_main_v21_apply, val_main_v28_apply, val_main_cst_0_apply, val_main_cst_2_apply,
    val_main_cst_4_apply,
    val_main_v13_apply, val_main_v20_apply, val_main_v27_apply, val_main_v12_apply, val_main_v19_apply,
    val_main_v26_apply, val_main_cst_apply, val_main_cst_1_apply, val_main_cst_3_apply,
    val_main_v11_apply, val_main_v18_apply, val_main_v25_apply, val_main_v10_apply, val_main_v17_apply,
    val_main_v24_apply, val_main_v9_apply, val_main_v16_apply, val_main_v23_apply, val_main_v30_apply,
    sidx9, sidx16, sidx23, sidx30, pre_eq, pre_eq, pre_eq, pre_eq, host_sig, host_sig, host_sig]
  rfl

/-- The reference's second result at row `r`, unit `j` is tanh of the first. -/
theorem hid_eq (x0 x1 x2 x3 : FVec Ideal S4096x2048 .f32) (x4 : FVec Ideal S2048x8192 .f32) (x5 : FVec Ideal S8192 .f32) (x6 : FVec Ideal S2048x8192 .f32) (x7 : FVec Ideal S8192 .f32) (r : Fin 4096) (j : Fin 2048) :
    val_main_v37 (F := Ideal) x0 x1 x2 x3 x4 x5 x6 x7 (ix2 r j) = Cert.Spec.hid (fun r c => x0 (ix2 r c)) (fun r c => x1 (ix2 r c)) (fun r c => x2 (ix2 r c)) (fun r c => x3 (ix2 r c)) (fun a b => x4 (ix2 a b)) (fun a b => x6 (ix2 a b)) (fun q => x5 (ix1 q)) (fun q => x7 (ix1 q)) r j := by
  rw [val_main_v37_apply, cell_eq]
  rfl

/-- The reference's first result is the cell-state array of its arguments. -/
theorem result36_eq (x0 x1 x2 x3 : FVec Ideal S4096x2048 .f32) (x4 : FVec Ideal S2048x8192 .f32) (x5 : FVec Ideal S8192 .f32) (x6 : FVec Ideal S2048x8192 .f32) (x7 : FVec Ideal S8192 .f32) :
    val_main_v36 (F := Ideal) x0 x1 x2 x3 x4 x5 x6 x7 = Cert.Spec.cellArr x0 x1 x2 x3 x4 x5 x6 x7 := by
  funext i
  obtain ⟨r, j, rfl⟩ : ∃ (r : Fin 4096) (j : Fin 2048), i = ix2 r j := ⟨i 0, i 1, eq_ix2 i⟩
  exact (cell_eq x0 x1 x2 x3 x4 x5 x6 x7 r j).trans (Cert.Spec.cellArr_apply x0 x1 x2 x3 x4 x5 x6 x7 r j).symm

/-- The reference's second result is the hidden-state array of its arguments. -/
theorem result37_eq (x0 x1 x2 x3 : FVec Ideal S4096x2048 .f32) (x4 : FVec Ideal S2048x8192 .f32) (x5 : FVec Ideal S8192 .f32) (x6 : FVec Ideal S2048x8192 .f32) (x7 : FVec Ideal S8192 .f32) :
    val_main_v37 (F := Ideal) x0 x1 x2 x3 x4 x5 x6 x7 = Cert.Spec.hidArr x0 x1 x2 x3 x4 x5 x6 x7 := by
  funext i
  obtain ⟨r, j, rfl⟩ : ∃ (r : Fin 4096) (j : Fin 2048), i = ix2 r j := ⟨i 0, i 1, eq_ix2 i⟩
  exact (hid_eq x0 x1 x2 x3 x4 x5 x6 x7 r j).trans (Cert.Spec.hidArr_apply x0 x1 x2 x3 x4 x5 x6 x7 r j).symm

/-! ## The run -/

/-- From any memory with zero counters the reference terminates with its two results the cell-state and hidden-state
arrays of its arguments' launch contents, and the arguments unchanged. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v36) = Cert.Spec.cellArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v37) = Cert.Spec.hidArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run (Cert.ReferenceIdeal.defs (F := Ideal)) _ _).mono (fun _ h c =>
      ⟨(h c).1.trans ((val_main_v36_eq _ _ _ _ _ _ _ _).trans (result36_eq _ _ _ _ _ _ _ _)),
        (h c).2.1.trans ((val_main_v37_eq _ _ _ _ _ _ _ _).trans (result37_eq _ _ _ _ _ _ _ _)), (h c).2.2⟩)
    (Cert.ReferenceIdeal.Value.run (F := Ideal) m' ρ')

/-- The reference runs and leaves its arguments unchanged: the same run with the results dropped. -/
theorem frame_ri : Cert.frame_ReferenceIdeal := fun m ρ _ =>
  (θ_run (Cert.ReferenceIdeal.defs (F := Ideal)) _ _).mono (fun _ h c => (h c).2.2)
    (Cert.ReferenceIdeal.Value.run (F := Ideal) m ρ)

end Cert.ReferenceIdeal.RefSpec

end
-- ==== Proof.KI.Setup.lean ====
/-
  What every later module of this program's frame is stated over: the buffer contents when the region is
  entered (the launch memory after the nine host operations: four casts to bf16, the sum of the two bias
  vectors and its four slices), each window's block at a grid point, the two conditions the body branches
  on (the first and the last step of the reduction axis) in closed form over the 128 points, where the two
  output windows are idle, and the body's memrefs at a point.
-/
import proofs.«164712_j12180527251605_2_alg».proof.Proof.Gen.KernelIdeal.Launch
import proofs.«164712_j12180527251605_2_alg».proof.Proof.Gen.KernelIdeal.Skeleton
import proofs.«164712_j12180527251605_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffer contents when the region is entered: the launch memory after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the entry contents that leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over the entry contents that leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over the entry contents that leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over the entry contents that leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over the entry contents that leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over the entry contents that leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its block index has not moved), for any proof data over the entry contents that leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its block index has not moved), for any proof data over the entry contents that leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is not
    fetched its block index has not moved), for any proof data over the entry contents that leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (where it is not
    fetched its block index has not moved), for any proof data over the entry contents that leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (where it is not
    fetched its block index has not moved), for any proof data over the entry contents that leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (where it is not
    fetched its block index has not moved), for any proof data over the entry contents that leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not (where it is not
    fetched its block index has not moved), for any proof data over the entry contents that leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not (where it is not
    fetched its block index has not moved), for any proof data over the entry contents that leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not (where it is not
    fetched its block index has not moved), for any proof data over the entry contents that leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not (where it is not
    fetched its block index has not moved), for any proof data over the entry contents that leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition: the reduction coordinate is 0 (the accumulators are reset). -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second condition: the reduction coordinate is 7 (the gates are applied and the outputs stored). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
/-- Away from the last reduction step output 16 is idle and not written back; at it the window is live. -/
theorem idleAt0_16 : ∀ t : Fin cfg0.N, ¬cond0_1 (grid0.coords t) → cfg0.idle 16 (grid0.coords t) = true := by decide +kernel
theorem noFlush0_16 : ∀ t : Fin cfg0.N, ¬cond0_1 (grid0.coords t) → (cfg0.win 16).flush t = false := by decide +kernel
theorem liveAt0_16 : ∀ t : Fin cfg0.N, cond0_1 (grid0.coords t) → cfg0.idle 16 (grid0.coords t) = false := by decide +kernel
/-- Away from the last reduction step output 17 is idle and not written back; at it the window is live. -/
theorem idleAt0_17 : ∀ t : Fin cfg0.N, ¬cond0_1 (grid0.coords t) → cfg0.idle 17 (grid0.coords t) = true := by decide +kernel
theorem noFlush0_17 : ∀ t : Fin cfg0.N, ¬cond0_1 (grid0.coords t) → (cfg0.win 17).flush t = false := by decide +kernel
theorem liveAt0_17 : ∀ t : Fin cfg0.N, cond0_1 (grid0.coords t) → cfg0.idle 17 (grid0.coords t) = false := by decide +kernel

/-! ## The body's memrefs at a point -/

/-- One staging buffer of each output window, through which its contents are stated. -/
abbrev VO0_16 : View sig .tc .vmem S1024x512 .f32 := (Memref.whole cc0_stg16_0 : Memref sig .tc .vmem S1024x512 .f32).view
abbrev VO0_17 : View sig .tc .vmem S1024x512 .f32 := (Memref.whole cc0_stg17_0 : Memref sig .tc .vmem S1024x512 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x512 .f32 := win0_17.stage (cfg0.slots t 17)
abbrev hs0_17 (t : Fin cfg0.N) : (ms0_17 t).IsWhole := hstage0_17 ((cfg0.slots t 17).cast nbuf0_17)
/-- Accumulator 0: a whole scoped buffer of the kernel's own, carried between points. -/
abbrev scM0_0 : Memref sig .tc .vmem S1024x512 .f32 := Memref.whole cc0_scratch0
abbrev VS0_0 : View sig .tc .vmem S1024x512 .f32 := scM0_0.view
/-- Accumulator 1: a whole scoped buffer of the kernel's own, carried between points. -/
abbrev scM0_1 : Memref sig .tc .vmem S1024x512 .f32 := Memref.whole cc0_scratch1
abbrev VS0_1 : View sig .tc .vmem S1024x512 .f32 := scM0_1.view
/-- Accumulator 2: a whole scoped buffer of the kernel's own, carried between points. -/
abbrev scM0_2 : Memref sig .tc .vmem S1024x512 .f32 := Memref.whole cc0_scratch2
abbrev VS0_2 : View sig .tc .vmem S1024x512 .f32 := scM0_2.view
/-- Accumulator 3: a whole scoped buffer of the kernel's own, carried between points. -/
abbrev scM0_3 : Memref sig .tc .vmem S1024x512 .f32 := Memref.whole cc0_scratch3
abbrev VS0_3 : View sig .tc .vmem S1024x512 .f32 := scM0_3.view

/-- The class invariant with the four accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.RunA.lean ====
/-
  The kernel body run whole at the first reduction step (the accumulators are reset, then the step's products added): on whole staging memrefs, the sixteen inputs at
  their contents and handed back as they were, both outputs' buffers handed back untouched, the four accumulators
  at anything and left with the pieces the body stores (last store first). The pieces are found by the run itself.
-/
import proofs.«164712_j12180527251605_2_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's triple at the first reduction step (the accumulators are reset, then the step's products added). -/
noncomputable def kernelRun0_A (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (arg24 : Memref sig .tc .vmem S1024x512 .f32) (harg24 : arg24.IsWhole) (hc0 : cond0_0 i) (hc1 : ¬cond0_1 i)
    (x0 : Vec F S1024x256 .bf16) (x1 : Vec F S1024x256 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S512 .f32) (x11 : Vec F S512 .f32) (x12 : Vec F S512 .f32) (x13 : Vec F S512 .f32) (x14 : Vec F S1024x512 .f32) (x15 : Vec F S1024x512 .f32)  :
    Σ' (LS0 LS1 LS2 : List (View.Piece (Elt F) S1024x512 .f32)), { LS3 : List (View.Piece (Elt F) S1024x512 .f32) //
      ∀ (xi16 xi17 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare xi16 ∗ owns (c : Thread nD τ) arg20 fullShare xi17 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare xi16 ∗ owns (c : Thread nD τ) arg20 fullShare xi17 ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun xi16 xi17 E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
/-
  The kernel body run whole at a middle reduction step (the step's products added to the accumulators): on whole staging memrefs, the sixteen inputs at
  their contents and handed back as they were, both outputs' buffers handed back untouched, the four accumulators
  at the contents the step before left and left with the pieces the body stores (last store first). The pieces are found by the run itself.
-/
import proofs.«164712_j12180527251605_2_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's triple at a middle reduction step (the step's products added to the accumulators). -/
noncomputable def kernelRun0_B (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (arg24 : Memref sig .tc .vmem S1024x512 .f32) (harg24 : arg24.IsWhole) (hc0 : ¬cond0_0 i) (hc1 : ¬cond0_1 i)
    (x0 : Vec F S1024x256 .bf16) (x1 : Vec F S1024x256 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S512 .f32) (x11 : Vec F S512 .f32) (x12 : Vec F S512 .f32) (x13 : Vec F S512 .f32) (x14 : Vec F S1024x512 .f32) (x15 : Vec F S1024x512 .f32) (xs0 xs1 xs2 xs3 : Vec F S1024x512 .f32) :
    Σ' (LS0 LS1 LS2 : List (View.Piece (Elt F) S1024x512 .f32)), { LS3 : List (View.Piece (Elt F) S1024x512 .f32) //
      ∀ (xi16 xi17 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare xi16 ∗ owns (c : Thread nD τ) arg20 fullShare xi17 ∗ owns (c : Thread nD τ) arg21 fullShare xs0 ∗ owns (c : Thread nD τ) arg22 fullShare xs1 ∗ owns (c : Thread nD τ) arg23 fullShare xs2 ∗ owns (c : Thread nD τ) arg24 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare xi16 ∗ owns (c : Thread nD τ) arg20 fullShare xi17 ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun xi16 xi17 E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hfs0; obtain rfl := harg22.eq_unread hfs1; obtain rfl := harg23.eq_unread hfs2; obtain rfl := harg24.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [HS0]; · iexists _; iexact HS0
    isplitl [HS1]; · iexists _; iexact HS1
    isplitl [HS2]; · iexists _; iexact HS2
    iexists _; iexact HS3

end Cert.KernelIdeal.Hand

end
-- ==== Proof.KI.RunC.lean ====
/-
  The kernel body run whole at the last reduction step (the products added, the gates applied, both outputs stored): on whole staging memrefs, the sixteen inputs at
  their contents and handed back as they were, both outputs' buffers at anything and left with the pieces the body stores, the four accumulators
  at the contents the step before left and left with the pieces the body stores (last store first). The pieces are found by the run itself.
-/
import proofs.«164712_j12180527251605_2_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's triple at the last reduction step (the products added, the gates applied, both outputs stored). -/
noncomputable def kernelRun0_C (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (arg24 : Memref sig .tc .vmem S1024x512 .f32) (harg24 : arg24.IsWhole) (hc0 : ¬cond0_0 i) (hc1 : cond0_1 i)
    (x0 : Vec F S1024x256 .bf16) (x1 : Vec F S1024x256 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S512 .f32) (x11 : Vec F S512 .f32) (x12 : Vec F S512 .f32) (x13 : Vec F S512 .f32) (x14 : Vec F S1024x512 .f32) (x15 : Vec F S1024x512 .f32) (xs0 xs1 xs2 xs3 : Vec F S1024x512 .f32) :
    Σ' (L16 L17 LS0 LS1 LS2 : List (View.Piece (Elt F) S1024x512 .f32)), { LS3 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ owns (c : Thread nD τ) arg23 fullShare xs2 ∗ owns (c : Thread nD τ) arg24 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f L17) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, fun E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg21.eq_unread hfs0; obtain rfl := harg22.eq_unread hfs1; obtain rfl := harg23.eq_unread hfs2; obtain rfl := harg24.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]; · iexists _; iexact H16
    isplitl [H17]; · iexists _; iexact H17
    isplitl [HS0]; · iexists _; iexact HS0
    isplitl [HS1]; · iexists _; iexact HS1
    isplitl [HS2]; · iexists _; iexact HS2
    iexists _; iexact HS3

end Cert.KernelIdeal.Hand

end
-- ==== Proof.KI.Data.lean ====
/-
  What the accumulators and the two outputs hold after the body at each grid point, and the proof data built on it.
  A point of the 4×4×8 grid is (i, d, k) with k the reduction step; consecutive points run k = 0..7 for one
  output tile. At k = 0 the body resets the four accumulators and adds the step's products; at 0 < k < 7 it adds
  the step's products to what the step before left; at k = 7 it adds, applies the gates in place and stores the
  cell and hidden tiles. The outputs are written back only at k = 7 and are idle elsewhere.
-/
import proofs.«164712_j12180527251605_2_alg».proof.Proof.KI.RunA
import proofs.«164712_j12180527251605_2_alg».proof.Proof.KI.RunB
import proofs.«164712_j12180527251605_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (q : Fin cfg0.W → PosShare TreeShare)

/-! ## The three runs at a grid point, on the point's memrefs and input blocks -/

/-- The run of the first reduction step at point `t`. -/
abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
/-- The run of a middle reduction step at point `t`, the accumulators at `xs`. -/
abbrev runB (c : Dev nD) (t : Fin cfg0.N) (h0 : ¬t.val % 8 = 0) (h1 : ¬t.val % 8 = 7) (xs : Vec F S1024x512 .f32 × Vec F S1024x512 .f32 × Vec F S1024x512 .f32 × Vec F S1024x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs.1 xs.2.1 xs.2.2.1 xs.2.2.2
/-- The run of the last reduction step at point `t`, the accumulators at `xs`. -/
abbrev runC (c : Dev nD) (t : Fin cfg0.N) (h0 : ¬t.val % 8 = 0) (h1 : t.val % 8 = 7) (xs : Vec F S1024x512 .f32 × Vec F S1024x512 .f32 × Vec F S1024x512 .f32 × Vec F S1024x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs.1 xs.2.1 xs.2.2.1 xs.2.2.2

/-! ## What each run leaves: its pieces cover the buffer, and read back over anything -/

theorem scoverA_0 (c : Dev nD) (t : Fin cfg0.N) (h0 : t.val % 8 = 0) (h1 : ¬t.val % 8 = 7) (y : S1024x512.Idx) :
    ∃ pc ∈ (runA m c t h0 h1).1, y ∈ pc.1.set :=
  View.cover_of_tiledL (runA m c t h0 h1).1 S1024x512.size (by sl_kernel_rfl) y
def soutA_0 (c : Dev nD) (t : Fin cfg0.N) (h0 : t.val % 8 = 0) (h1 : ¬t.val % 8 = 7) : Vec F S1024x512 .f32 :=
  VS0_0.read (Elt F) (VS0_0.writes (Elt F) VS0_0.junk (runA m c t h0 h1).1)
theorem scoverB_0 (c : Dev nD) (t : Fin cfg0.N) (h0 : ¬t.val % 8 = 0) (h1 : ¬t.val % 8 = 7) (xs : Vec F S1024x512 .f32 × Vec F S1024x512 .f32 × Vec F S1024x512 .f32 × Vec F S1024x512 .f32) (y : S1024x512.Idx) :
    ∃ pc ∈ (runB m c t h0 h1 xs).1, y ∈ pc.1.set :=
  View.cover_of_tiledL (runB m c t h0 h1 xs).1 S1024x512.size (by sl_kernel_rfl) y
def soutB_0 (c : Dev nD) (t : Fin cfg0.N) (h0 : ¬t.val % 8 = 0) (h1 : ¬t.val % 8 = 7) (xs : Vec F S1024x512 .f32 × Vec F S1024x512 .f32 × Vec F S1024x512 .f32 × Vec F S1024x512 .f32) : Vec F S1024x512 .f32 :=
  VS0_0.read (Elt F) (VS0_0.writes (Elt F) VS0_0.junk (runB m c t h0 h1 xs).1)
theorem scoverC_0 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).2.2.1, y ∈ pc.1.set :=
  View.cover_of_tiledL (runC m c t h0 h1 xs).2.2.1 S1024x512.size (by sl_kernel_rfl) y
def soutC_0 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VS0_0.read (Elt F) (VS0_0.writes (Elt F) VS0_0.junk (runC m c t h0 h1 xs).2.2.1)
theorem scoverA_1 (c : Dev nD) (t : Fin cfg0.N) (h0 : t.val % 8 = 0) (h1 : ¬t.val % 8 = 7) (y : S1024x512.Idx) :
    ∃ pc ∈ (runA m c t h0 h1).2.1, y ∈ pc.1.set :=
  View.cover_of_tiledL (runA m c t h0 h1).2.1 S1024x512.size (by sl_kernel_rfl) y
def soutA_1 (c : Dev nD) (t : Fin cfg0.N) (h0 : t.val % 8 = 0) (h1 : ¬t.val % 8 = 7) : Vec F S1024x512 .f32 :=
  VS0_1.read (Elt F) (VS0_1.writes (Elt F) VS0_1.junk (runA m c t h0 h1).2.1)
theorem scoverB_1 (c : Dev nD) (t : Fin cfg0.N) (h0 : ¬t.val % 8 = 0) (h1 : ¬t.val % 8 = 7) (xs : Vec F S1024x512 .f32 × Vec F S1024x512 .f32 × Vec F S1024x512 .f32 × Vec F S1024x512 .f32) (y : S1024x512.Idx) :
    ∃ pc ∈ (runB m c t h0 h1 xs).2.1, y ∈ pc.1.set :=
  View.cover_of_tiledL (runB m c t h0 h1 xs).2.1 S1024x512.size (by sl_kernel_rfl) y
def soutB_1 (c : Dev nD) (t : Fin cfg0.N) (h0 : ¬t.val % 8 = 0) (h1 : ¬t.val % 8 = 7) (xs : Vec F S1024x512 .f32 × Vec F S1024x512 .f32 × Vec F S1024x512 .f32 × Vec F S1024x512 .f32) : Vec F S1024x512 .f32 :=
  VS0_1.read (Elt F) (VS0_1.writes (Elt F) VS0_1.junk (runB m c t h0 h1 xs).2.1)
theorem scoverC_1 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).2.2.2.1, y ∈ pc.1.set :=
  View.cover_of_tiledL (runC m c t h0 h1 xs).2.2.2.1 S1024x512.size (by sl_kernel_rfl) y
def soutC_1 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VS0_1.read (Elt F) (VS0_1.writes (Elt F) VS0_1.junk (runC m c t h0 h1 xs).2.2.2.1)
theorem scoverA_2 (c : Dev nD) (t : Fin cfg0.N) (h0 : t.val % 8 = 0) (h1 : ¬t.val % 8 = 7) (y : S1024x512.Idx) :
    ∃ pc ∈ (runA m c t h0 h1).2.2.1, y ∈ pc.1.set :=
  View.cover_of_tiledL (runA m c t h0 h1).2.2.1 S1024x512.size (by sl_kernel_rfl) y
def soutA_2 (c : Dev nD) (t : Fin cfg0.N) (h0 : t.val % 8 = 0) (h1 : ¬t.val % 8 = 7) : Vec F S1024x512 .f32 :=
  VS0_2.read (Elt F) (VS0_2.writes (Elt F) VS0_2.junk (runA m c t h0 h1).2.2.1)
theorem scoverB_2 (c : Dev nD) (t : Fin cfg0.N) (h0 : ¬t.val % 8 = 0) (h1 : ¬t.val % 8 = 7) (xs : Vec F S1024x512 .f32 × Vec F S1024x512 .f32 × Vec F S1024x512 .f32 × Vec F S1024x512 .f32) (y : S1024x512.Idx) :
    ∃ pc ∈ (runB m c t h0 h1 xs).2.2.1, y ∈ pc.1.set :=
  View.cover_of_tiledL (runB m c t h0 h1 xs).2.2.1 S1024x512.size (by sl_kernel_rfl) y
def soutB_2 (c : Dev nD) (t : Fin cfg0.N) (h0 : ¬t.val % 8 = 0) (h1 : ¬t.val % 8 = 7) (xs : Vec F S1024x512 .f32 × Vec F S1024x512 .f32 × Vec F S1024x512 .f32 × Vec F S1024x512 .f32) : Vec F S1024x512 .f32 :=
  VS0_2.read (Elt F) (VS0_2.writes (Elt F) VS0_2.junk (runB m c t h0 h1 xs).2.2.1)
theorem scoverC_2 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).2.2.2.2.1, y ∈ pc.1.set :=
  View.cover_of_tiledL (runC m c t h0 h1 xs).2.2.2.2.1 S1024x512.size (by sl_kernel_rfl) y
def soutC_2 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VS0_2.read (Elt F) (VS0_2.writes (Elt F) VS0_2.junk (runC m c t h0 h1 xs).2.2.2.2.1)
theorem scoverA_3 (c : Dev nD) (t : Fin cfg0.N) (h0 : t.val % 8 = 0) (h1 : ¬t.val % 8 = 7) (y : S1024x512.Idx) :
    ∃ pc ∈ (runA m c t h0 h1).2.2.2.1, y ∈ pc.1.set :=
  View.cover_of_tiledL (runA m c t h0 h1).2.2.2.1 S1024x512.size (by sl_kernel_rfl) y
def soutA_3 (c : Dev nD) (t : Fin cfg0.N) (h0 : t.val % 8 = 0) (h1 : ¬t.val % 8 = 7) : Vec F S1024x512 .f32 :=
  VS0_3.read (Elt F) (VS0_3.writes (Elt F) VS0_3.junk (runA m c t h0 h1).2.2.2.1)
theorem scoverB_3 (c : Dev nD) (t : Fin cfg0.N) (h0 : ¬t.val % 8 = 0) (h1 : ¬t.val % 8 = 7) (xs : Vec F S1024x512 .f32 × Vec F S1024x512 .f32 × Vec F S1024x512 .f32 × Vec F S1024x512 .f32) (y : S1024x512.Idx) :
    ∃ pc ∈ (runB m c t h0 h1 xs).2.2.2.1, y ∈ pc.1.set :=
  View.cover_of_tiledL (runB m c t h0 h1 xs).2.2.2.1 S1024x512.size (by sl_kernel_rfl) y
def soutB_3 (c : Dev nD) (t : Fin cfg0.N) (h0 : ¬t.val % 8 = 0) (h1 : ¬t.val % 8 = 7) (xs : Vec F S1024x512 .f32 × Vec F S1024x512 .f32 × Vec F S1024x512 .f32 × Vec F S1024x512 .f32) : Vec F S1024x512 .f32 :=
  VS0_3.read (Elt F) (VS0_3.writes (Elt F) VS0_3.junk (runB m c t h0 h1 xs).2.2.2.1)
theorem scoverC_3 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).2.2.2.2.2.1, y ∈ pc.1.set :=
  View.cover_of_tiledL (runC m c t h0 h1 xs).2.2.2.2.2.1 S1024x512.size (by sl_kernel_rfl) y
def soutC_3 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VS0_3.read (Elt F) (VS0_3.writes (Elt F) VS0_3.junk (runC m c t h0 h1 xs).2.2.2.2.2.1)
theorem coverC_16 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).1, y ∈ pc.1.set :=
  View.cover_of_tiledL (runC m c t h0 h1 xs).1 S1024x512.size (by sl_kernel_rfl) y
def outC_16 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VO0_16.read (Elt F) (VO0_16.writes (Elt F) VO0_16.junk (runC m c t h0 h1 xs).1)
theorem coverC_17 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).2.1, y ∈ pc.1.set :=
  View.cover_of_tiledL (runC m c t h0 h1 xs).2.1 S1024x512.size (by sl_kernel_rfl) y
def outC_17 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VO0_17.read (Elt F) (VO0_17.writes (Elt F) VO0_17.junk (runC m c t h0 h1 xs).2.1)

/-- What one point leaves: the two outputs' tiles (at a point that stores none, a placeholder nothing consults: the
    window is idle there and not written back), then the four accumulators. -/
def stepA (c : Dev nD) (t : Fin cfg0.N) (h0 : t.val % 8 = 0) (h1 : ¬t.val % 8 = 7) : Vec F S1024x512 .f32 × Vec F S1024x512 .f32 × Vec F S1024x512 .f32 × Vec F S1024x512 .f32 × Vec F S1024x512 .f32 × Vec F S1024x512 .f32 :=
  (k0_pay11 (F := F), k0_pay11 (F := F), soutA_0 m c t h0 h1, soutA_1 m c t h0 h1, soutA_2 m c t h0 h1, soutA_3 m c t h0 h1)
def stepB (c : Dev nD) (t : Fin cfg0.N) (h0 : ¬t.val % 8 = 0) (h1 : ¬t.val % 8 = 7) (xs : Vec F S1024x512 .f32 × Vec F S1024x512 .f32 × Vec F S1024x512 .f32 × Vec F S1024x512 .f32) : Vec F S1024x512 .f32 × Vec F S1024x512 .f32 × Vec F S1024x512 .f32 × Vec F S1024x512 .f32 × Vec F S1024x512 .f32 × Vec F S1024x512 .f32 :=
  (k0_pay11 (F := F), k0_pay11 (F := F), soutB_0 m c t h0 h1 xs, soutB_1 m c t h0 h1 xs, soutB_2 m c t h0 h1 xs, soutB_3 m c t h0 h1 xs)
def stepC (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 × Vec F S1024x512 .f32 × Vec F S1024x512 .f32 × Vec F S1024x512 .f32 × Vec F S1024x512 .f32 × Vec F S1024x512 .f32 :=
  (outC_16 m c t h0 h1 xs, outC_17 m c t h0 h1 xs, soutC_0 m c t h0 h1 xs, soutC_1 m c t h0 h1 xs, soutC_2 m c t h0 h1 xs, soutC_3 m c t h0 h1 xs)

/-! ## Point by point -/

/-- THE ACCUMULATION: what the outputs' staging buffers and the four accumulators hold after the body at
    position `n`, by recursion on the position: the case the closed forms select, the accumulators it reads at
    what position `n - 1` left. -/
def outsAt0 (c : Dev nD) : (n : ℕ) → n < cfg0.N → Vec F S1024x512 .f32 × Vec F S1024x512 .f32 × Vec F S1024x512 .f32 × Vec F S1024x512 .f32 × Vec F S1024x512 .f32 × Vec F S1024x512 .f32
  | 0, hn => stepA m c ⟨0, hn⟩ (Nat.zero_mod _) (by intro h; (try dsimp only at h); omega)
  | n + 1, hn =>
    if h0 : (n + 1) % 8 = 0 then
      if h1 : (n + 1) % 8 = 7 then False.elim (by omega)
      else stepA m c ⟨n + 1, hn⟩ h0 h1
    else
      if h1 : (n + 1) % 8 = 7 then stepC m c ⟨n + 1, hn⟩ h0 h1 (outsAt0 c n (Nat.lt_of_succ_lt hn)).2.2
      else stepB m c ⟨n + 1, hn⟩ h0 h1 (outsAt0 c n (Nat.lt_of_succ_lt hn)).2.2

theorem outsAt0_A (c : Dev nD) (t : Fin cfg0.N) (h0 : t.val % 8 = 0) (h1 : ¬t.val % 8 = 7) :
    outsAt0 m c t.val t.isLt = stepA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stepB m c t h0 h1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stepC m c t h0 h1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The accumulators after position `n`, each owned at what the recursion names. -/
def scrAt (c : Dev nD) (n : ℕ) (hn : n < cfg0.N) : sProp 𝕄 :=
  iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2))

/-- The region invariant before position `n`: before the first point the class's (every accumulator at anything);
    afterwards the accumulators at what the point before left, and the generator register at some state. -/
def PhiS (c : Dev nD) : (n : ℕ) → n ≤ cfg0.N → sProp 𝕄
  | 0, _ => Pipeline.ΦA spec0 c
  | n + 1, hn => iprop(scrAt m c n hn ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(scrAt m c n hn ∗ (∃ r, prngReg c r)) := rfl
theorem PhiS_pos (c : Dev nD) (n : ℕ) (h : n ≤ cfg0.N) (hz : n ≠ 0) :
    PhiS m c n h = iprop(scrAt m c (n - 1) (by omega) ∗ (∃ r, prngReg c r)) := by
  cases n with
  | zero => exact absurd rfl hz
  | succ n => rfl

/-! ## The proof data -/

/-- The proof data on core `c`: the arrays as the region finds them; after the body at point `t` each input's
    buffer at its block and the outputs' at the recursion's tiles; the invariant above; nothing owed; the input
    shares `q` (the weight arrays are each read through four windows). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨_ + 18, h⟩ => absurd h (Nat.not_lt.2 (Nat.le_add_left _ _))
  Φ t := PhiS m c t.val (Nat.le_of_lt_succ t.isLt)
  q := q
  owed _ := 0

theorem A_eq (c : Dev nD) (w : Fin cfg0.W) : (dats m q 0 c).A w = V m c (Pipeline.arrRef spec0 w) := by
  dsimp only [dats]
theorem q_eq (c : Dev nD) (w : Fin cfg0.W) : (dats m q 0 c).q w = q w := by
  dsimp only [dats]
theorem PhiS_castSucc (c : Dev nD) (t : Fin cfg0.N) :
    (dats m q 0 c).Φ t.castSucc = PhiS m c t.val (Nat.le_of_lt t.isLt) := by
  dsimp only [dats]; simp only [Fin.coe_castSucc]
theorem after0_0 (c : Dev nD) (t : Fin cfg0.N) : (dats m q 0 c).after 0 t = iblk m c 0 t := by dsimp only [dats]
theorem after0_1 (c : Dev nD) (t : Fin cfg0.N) : (dats m q 0 c).after 1 t = iblk m c 1 t := by dsimp only [dats]
theorem after0_2 (c : Dev nD) (t : Fin cfg0.N) : (dats m q 0 c).after 2 t = iblk m c 2 t := by dsimp only [dats]
theorem after0_3 (c : Dev nD) (t : Fin cfg0.N) : (dats m q 0 c).after 3 t = iblk m c 3 t := by dsimp only [dats]
theorem after0_4 (c : Dev nD) (t : Fin cfg0.N) : (dats m q 0 c).after 4 t = iblk m c 4 t := by dsimp only [dats]
theorem after0_5 (c : Dev nD) (t : Fin cfg0.N) : (dats m q 0 c).after 5 t = iblk m c 5 t := by dsimp only [dats]
theorem after0_6 (c : Dev nD) (t : Fin cfg0.N) : (dats m q 0 c).after 6 t = iblk m c 6 t := by dsimp only [dats]
theorem after0_7 (c : Dev nD) (t : Fin cfg0.N) : (dats m q 0 c).after 7 t = iblk m c 7 t := by dsimp only [dats]
theorem after0_8 (c : Dev nD) (t : Fin cfg0.N) : (dats m q 0 c).after 8 t = iblk m c 8 t := by dsimp only [dats]
theorem after0_9 (c : Dev nD) (t : Fin cfg0.N) : (dats m q 0 c).after 9 t = iblk m c 9 t := by dsimp only [dats]
theorem after0_10 (c : Dev nD) (t : Fin cfg0.N) : (dats m q 0 c).after 10 t = iblk m c 10 t := by dsimp only [dats]
theorem after0_11 (c : Dev nD) (t : Fin cfg0.N) : (dats m q 0 c).after 11 t = iblk m c 11 t := by dsimp only [dats]
theorem after0_12 (c : Dev nD) (t : Fin cfg0.N) : (dats m q 0 c).after 12 t = iblk m c 12 t := by dsimp only [dats]
theorem after0_13 (c : Dev nD) (t : Fin cfg0.N) : (dats m q 0 c).after 13 t = iblk m c 13 t := by dsimp only [dats]
theorem after0_14 (c : Dev nD) (t : Fin cfg0.N) : (dats m q 0 c).after 14 t = iblk m c 14 t := by dsimp only [dats]
theorem after0_15 (c : Dev nD) (t : Fin cfg0.N) : (dats m q 0 c).after 15 t = iblk m c 15 t := by dsimp only [dats]
theorem after0_16 (c : Dev nD) (t : Fin cfg0.N) : (dats m q 0 c).after 16 t = (outsAt0 m c t.val t.isLt).1 := by dsimp only [dats]
theorem after0_17 (c : Dev nD) (t : Fin cfg0.N) : (dats m q 0 c).after 17 t = (outsAt0 m c t.val t.isLt).2.1 := by dsimp only [dats]
theorem before0_0 (c : Dev nD) (t : Fin cfg0.N) (d) : (dats m q 0 c).before 0 t d = iblk m c 0 t :=
  before0_0_of m (dats m q 0 c) (A_eq m q c 0) (after0_0 m q c) t d
theorem before0_1 (c : Dev nD) (t : Fin cfg0.N) (d) : (dats m q 0 c).before 1 t d = iblk m c 1 t :=
  before0_1_of m (dats m q 0 c) (A_eq m q c 1) (after0_1 m q c) t d
theorem before0_2 (c : Dev nD) (t : Fin cfg0.N) (d) : (dats m q 0 c).before 2 t d = iblk m c 2 t :=
  before0_2_of m (dats m q 0 c) (A_eq m q c 2) (after0_2 m q c) t d
theorem before0_3 (c : Dev nD) (t : Fin cfg0.N) (d) : (dats m q 0 c).before 3 t d = iblk m c 3 t :=
  before0_3_of m (dats m q 0 c) (A_eq m q c 3) (after0_3 m q c) t d
theorem before0_4 (c : Dev nD) (t : Fin cfg0.N) (d) : (dats m q 0 c).before 4 t d = iblk m c 4 t :=
  before0_4_of m (dats m q 0 c) (A_eq m q c 4) (after0_4 m q c) t d
theorem before0_5 (c : Dev nD) (t : Fin cfg0.N) (d) : (dats m q 0 c).before 5 t d = iblk m c 5 t :=
  before0_5_of m (dats m q 0 c) (A_eq m q c 5) (after0_5 m q c) t d
theorem before0_6 (c : Dev nD) (t : Fin cfg0.N) (d) : (dats m q 0 c).before 6 t d = iblk m c 6 t :=
  before0_6_of m (dats m q 0 c) (A_eq m q c 6) (after0_6 m q c) t d
theorem before0_7 (c : Dev nD) (t : Fin cfg0.N) (d) : (dats m q 0 c).before 7 t d = iblk m c 7 t :=
  before0_7_of m (dats m q 0 c) (A_eq m q c 7) (after0_7 m q c) t d
theorem before0_8 (c : Dev nD) (t : Fin cfg0.N) (d) : (dats m q 0 c).before 8 t d = iblk m c 8 t :=
  before0_8_of m (dats m q 0 c) (A_eq m q c 8) (after0_8 m q c) t d
theorem before0_9 (c : Dev nD) (t : Fin cfg0.N) (d) : (dats m q 0 c).before 9 t d = iblk m c 9 t :=
  before0_9_of m (dats m q 0 c) (A_eq m q c 9) (after0_9 m q c) t d
theorem before0_10 (c : Dev nD) (t : Fin cfg0.N) (d) : (dats m q 0 c).before 10 t d = iblk m c 10 t :=
  before0_10_of m (dats m q 0 c) (A_eq m q c 10) (after0_10 m q c) t d
theorem before0_11 (c : Dev nD) (t : Fin cfg0.N) (d) : (dats m q 0 c).before 11 t d = iblk m c 11 t :=
  before0_11_of m (dats m q 0 c) (A_eq m q c 11) (after0_11 m q c) t d
theorem before0_12 (c : Dev nD) (t : Fin cfg0.N) (d) : (dats m q 0 c).before 12 t d = iblk m c 12 t :=
  before0_12_of m (dats m q 0 c) (A_eq m q c 12) (after0_12 m q c) t d
theorem before0_13 (c : Dev nD) (t : Fin cfg0.N) (d) : (dats m q 0 c).before 13 t d = iblk m c 13 t :=
  before0_13_of m (dats m q 0 c) (A_eq m q c 13) (after0_13 m q c) t d
theorem before0_14 (c : Dev nD) (t : Fin cfg0.N) (d) : (dats m q 0 c).before 14 t d = iblk m c 14 t :=
  before0_14_of m (dats m q 0 c) (A_eq m q c 14) (after0_14 m q c) t d
theorem before0_15 (c : Dev nD) (t : Fin cfg0.N) (d) : (dats m q 0 c).before 15 t d = iblk m c 15 t :=
  before0_15_of m (dats m q 0 c) (A_eq m q c 15) (after0_15 m q c) t d

end Cert.KernelIdeal.Hand

end
-- ==== Proof.KI.Body.lean ====
/-
  The body obligation: at every grid point, from the invariant and every window's current buffer at what it then
  holds, the kernel body runs to the invariant of the next point and every buffer at what the proof data say it
  leaves. The point's reduction step selects the run; the inputs hold their blocks; the accumulators are handed
  over at what the step before left (at anything before the very first point) and taken back at this step's
  contents; the two outputs' buffers come back untouched except at the last step, which stores them whole.
-/
import proofs.«164712_j12180527251605_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (q : Fin cfg0.W → PosShare TreeShare)

/-- What the body is called with at point `t`, the windows one by one, -/
def bodyPre (c : Dev nD) (t : Fin cfg0.N) : sProp 𝕄 :=
  iprop((dats m q 0 c).Φ t.castSucc ∗ (dats m q 0 c).owesAt () t.castSucc
    ∗ (∃ d, owns (c : Thread nD τ) (ms0_0 t) fullShare ((dats m q 0 c).before 0 t d))
    ∗ (∃ d, owns (c : Thread nD τ) (ms0_1 t) fullShare ((dats m q 0 c).before 1 t d))
    ∗ (∃ d, owns (c : Thread nD τ) (ms0_2 t) fullShare ((dats m q 0 c).before 2 t d))
    ∗ (∃ d, owns (c : Thread nD τ) (ms0_3 t) fullShare ((dats m q 0 c).before 3 t d))
    ∗ (∃ d, owns (c : Thread nD τ) (ms0_4 t) fullShare ((dats m q 0 c).before 4 t d))
    ∗ (∃ d, owns (c : Thread nD τ) (ms0_5 t) fullShare ((dats m q 0 c).before 5 t d))
    ∗ (∃ d, owns (c : Thread nD τ) (ms0_6 t) fullShare ((dats m q 0 c).before 6 t d))
    ∗ (∃ d, owns (c : Thread nD τ) (ms0_7 t) fullShare ((dats m q 0 c).before 7 t d))
    ∗ (∃ d, owns (c : Thread nD τ) (ms0_8 t) fullShare ((dats m q 0 c).before 8 t d))
    ∗ (∃ d, owns (c : Thread nD τ) (ms0_9 t) fullShare ((dats m q 0 c).before 9 t d))
    ∗ (∃ d, owns (c : Thread nD τ) (ms0_10 t) fullShare ((dats m q 0 c).before 10 t d))
    ∗ (∃ d, owns (c : Thread nD τ) (ms0_11 t) fullShare ((dats m q 0 c).before 11 t d))
    ∗ (∃ d, owns (c : Thread nD τ) (ms0_12 t) fullShare ((dats m q 0 c).before 12 t d))
    ∗ (∃ d, owns (c : Thread nD τ) (ms0_13 t) fullShare ((dats m q 0 c).before 13 t d))
    ∗ (∃ d, owns (c : Thread nD τ) (ms0_14 t) fullShare ((dats m q 0 c).before 14 t d))
    ∗ (∃ d, owns (c : Thread nD τ) (ms0_15 t) fullShare ((dats m q 0 c).before 15 t d))
    ∗ (∃ d, owns (c : Thread nD τ) (ms0_16 t) fullShare ((dats m q 0 c).before 16 t d))
    ∗ (∃ d, owns (c : Thread nD τ) (ms0_17 t) fullShare ((dats m q 0 c).before 17 t d)))

/-- and what it returns. -/
def bodyPost (c : Dev nD) (t : Fin cfg0.N) : sProp 𝕄 :=
  iprop((dats m q 0 c).Φ t.succ ∗ (dats m q 0 c).owesAt () t.succ
    ∗ (dats m q 0 c).leavesExact 0 t
    ∗ (dats m q 0 c).leavesExact 1 t
    ∗ (dats m q 0 c).leavesExact 2 t
    ∗ (dats m q 0 c).leavesExact 3 t
    ∗ (dats m q 0 c).leavesExact 4 t
    ∗ (dats m q 0 c).leavesExact 5 t
    ∗ (dats m q 0 c).leavesExact 6 t
    ∗ (dats m q 0 c).leavesExact 7 t
    ∗ (dats m q 0 c).leavesExact 8 t
    ∗ (dats m q 0 c).leavesExact 9 t
    ∗ (dats m q 0 c).leavesExact 10 t
    ∗ (dats m q 0 c).leavesExact 11 t
    ∗ (dats m q 0 c).leavesExact 12 t
    ∗ (dats m q 0 c).leavesExact 13 t
    ∗ (dats m q 0 c).leavesExact 14 t
    ∗ (dats m q 0 c).leavesExact 15 t
    ∗ (dats m q 0 c).leavesExact 16 t
    ∗ (dats m q 0 c).leavesExact 17 t)

set_option maxHeartbeats 8000000 in
/-- The body at any point. -/
theorem sound_body (c : Dev nD) (t : Fin cfg0.N) :
    bodyPre m q c t ⊢ wp frame (wpE (defs₀ (F := F)) Variants.none c none) Set.univ (bodyAt0 t) (fun _ => bodyPost m q c t) := by
  unfold bodyPre bodyPost bodyAt0
  simp only [before0_0, before0_1, before0_2, before0_3, before0_4, before0_5, before0_6, before0_7, before0_8, before0_9, before0_10, before0_11, before0_12, before0_13, before0_14, before0_15]
  rw [show (dats m q 0 c).owesAt () t.succ = (dats m q 0 c).owesAt () t.castSucc from rfl]
  rw [show (dats m q 0 c).Φ t.succ = PhiS m c (t.val + 1) t.isLt from rfl, PhiS_succ]
  have hN : t.val < 128 := lt_of_lt_of_eq t.isLt (show cfg0.N = 128 from N_0)
  rw [show (dats m q 0 c).leavesExact 0 t = owns (c : Thread nD τ) (ms0_0 t) fullShare ((dats m q 0 c).after 0 t) from by
    unfold Dat.leavesExact; rw [liveAt0_0 t], after0_0]
  rw [show (dats m q 0 c).leavesExact 1 t = owns (c : Thread nD τ) (ms0_1 t) fullShare ((dats m q 0 c).after 1 t) from by
    unfold Dat.leavesExact; rw [liveAt0_1 t], after0_1]
  rw [show (dats m q 0 c).leavesExact 2 t = owns (c : Thread nD τ) (ms0_2 t) fullShare ((dats m q 0 c).after 2 t) from by
    unfold Dat.leavesExact; rw [liveAt0_2 t], after0_2]
  rw [show (dats m q 0 c).leavesExact 3 t = owns (c : Thread nD τ) (ms0_3 t) fullShare ((dats m q 0 c).after 3 t) from by
    unfold Dat.leavesExact; rw [liveAt0_3 t], after0_3]
  rw [show (dats m q 0 c).leavesExact 4 t = owns (c : Thread nD τ) (ms0_4 t) fullShare ((dats m q 0 c).after 4 t) from by
    unfold Dat.leavesExact; rw [liveAt0_4 t], after0_4]
  rw [show (dats m q 0 c).leavesExact 5 t = owns (c : Thread nD τ) (ms0_5 t) fullShare ((dats m q 0 c).after 5 t) from by
    unfold Dat.leavesExact; rw [liveAt0_5 t], after0_5]
  rw [show (dats m q 0 c).leavesExact 6 t = owns (c : Thread nD τ) (ms0_6 t) fullShare ((dats m q 0 c).after 6 t) from by
    unfold Dat.leavesExact; rw [liveAt0_6 t], after0_6]
  rw [show (dats m q 0 c).leavesExact 7 t = owns (c : Thread nD τ) (ms0_7 t) fullShare ((dats m q 0 c).after 7 t) from by
    unfold Dat.leavesExact; rw [liveAt0_7 t], after0_7]
  rw [show (dats m q 0 c).leavesExact 8 t = owns (c : Thread nD τ) (ms0_8 t) fullShare ((dats m q 0 c).after 8 t) from by
    unfold Dat.leavesExact; rw [liveAt0_8 t], after0_8]
  rw [show (dats m q 0 c).leavesExact 9 t = owns (c : Thread nD τ) (ms0_9 t) fullShare ((dats m q 0 c).after 9 t) from by
    unfold Dat.leavesExact; rw [liveAt0_9 t], after0_9]
  rw [show (dats m q 0 c).leavesExact 10 t = owns (c : Thread nD τ) (ms0_10 t) fullShare ((dats m q 0 c).after 10 t) from by
    unfold Dat.leavesExact; rw [liveAt0_10 t], after0_10]
  rw [show (dats m q 0 c).leavesExact 11 t = owns (c : Thread nD τ) (ms0_11 t) fullShare ((dats m q 0 c).after 11 t) from by
    unfold Dat.leavesExact; rw [liveAt0_11 t], after0_11]
  rw [show (dats m q 0 c).leavesExact 12 t = owns (c : Thread nD τ) (ms0_12 t) fullShare ((dats m q 0 c).after 12 t) from by
    unfold Dat.leavesExact; rw [liveAt0_12 t], after0_12]
  rw [show (dats m q 0 c).leavesExact 13 t = owns (c : Thread nD τ) (ms0_13 t) fullShare ((dats m q 0 c).after 13 t) from by
    unfold Dat.leavesExact; rw [liveAt0_13 t], after0_13]
  rw [show (dats m q 0 c).leavesExact 14 t = owns (c : Thread nD τ) (ms0_14 t) fullShare ((dats m q 0 c).after 14 t) from by
    unfold Dat.leavesExact; rw [liveAt0_14 t], after0_14]
  rw [show (dats m q 0 c).leavesExact 15 t = owns (c : Thread nD τ) (ms0_15 t) fullShare ((dats m q 0 c).after 15 t) from by
    unfold Dat.leavesExact; rw [liveAt0_15 t], after0_15]
  unfold scrAt
  by_cases h0 : t.val % 8 = 0
  · have h1 : ¬t.val % 8 = 7 := by omega
    have hnc1 : ¬cond0_1 (grid0.coords t) := fun h => h1 ((hcond0_1 t).mp h)
    rw [Dat.leavesExact_idle (dats m q 0 c) 16 t (idleAt0_16 t hnc1) (noFlush0_16 t hnc1)]
    rw [Dat.leavesExact_idle (dats m q 0 c) 17 t (idleAt0_17 t hnc1) (noFlush0_17 t hnc1)]
    rw [outsAt0_A m c t h0 h1]
    unfold stepA soutA_0 soutA_1 soutA_2 soutA_3; (try dsimp only)
    by_cases hz : t.val = 0
    · rw [PhiS_castSucc m q c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      iexists _; iexact H17
    · rw [PhiS_castSucc m q c t, PhiS_pos m c _ _ hz]
      unfold scrAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, H12, H13, H14, H15, H16, H17, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      iexists _; iexact H17
  · have hz : t.val ≠ 0 := fun h => h0 (by rw [h])
    by_cases h1 : t.val % 8 = 7
    · have hc1 : cond0_1 (grid0.coords t) := (hcond0_1 t).mpr h1
      rw [show (dats m q 0 c).leavesExact 16 t = owns (c : Thread nD τ) (ms0_16 t) fullShare ((dats m q 0 c).after 16 t) from by
        unfold Dat.leavesExact; rw [liveAt0_16 t hc1], after0_16]
      rw [show (dats m q 0 c).leavesExact 17 t = owns (c : Thread nD τ) (ms0_17 t) fullShare ((dats m q 0 c).after 17 t) from by
        unfold Dat.leavesExact; rw [liveAt0_17 t hc1], after0_17]
      rw [outsAt0_C m c t h0 h1]
      unfold stepC outC_16 outC_17 soutC_0 soutC_1 soutC_2 soutC_3; (try dsimp only)
      rw [PhiS_castSucc m q c t, PhiS_pos m c _ _ hz]
      unfold scrAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runC m c t h0 h1 (outsAt0 m c (t.val - 1) (Nat.lt_of_le_of_lt (Nat.sub_le _ _) t.isLt)).2.2).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, ⟨%e16, H16⟩, ⟨%e17, H17⟩, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverC_0 m c t h0 h1 _)
          isplitl [HS1]
          · unfold owns; iexists _; isplitr
            swap; · iexact HS1
            ipureintro; exact View.read_writes_of_cover _ _ _ _ _ (scoverC_1 m c t h0 h1 _)
          isplitl [HS2]
          · unfold owns; iexists _; isplitr
            swap; · iexact HS2
            ipureintro; exact View.read_writes_of_cover _ _ _ _ _ (scoverC_2 m c t h0 h1 _)
          unfold owns; iexists _; isplitr
          swap; · iexact HS3
          ipureintro; exact View.read_writes_of_cover _ _ _ _ _ (scoverC_3 m c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (coverC_16 m c t h0 h1 _)
      unfold owns; iexists _; isplitr
      swap; · iexact H17
      ipureintro; exact View.read_writes_of_cover _ _ _ _ _ (coverC_17 m c t h0 h1 _)
    · have hnc1 : ¬cond0_1 (grid0.coords t) := fun h => h1 ((hcond0_1 t).mp h)
      rw [Dat.leavesExact_idle (dats m q 0 c) 16 t (idleAt0_16 t hnc1) (noFlush0_16 t hnc1)]
      rw [Dat.leavesExact_idle (dats m q 0 c) 17 t (idleAt0_17 t hnc1) (noFlush0_17 t hnc1)]
      rw [outsAt0_B m c t h0 h1]
      unfold stepB soutB_0 soutB_1 soutB_2 soutB_3; (try dsimp only)
      rw [PhiS_castSucc m q c t, PhiS_pos m c _ _ hz]
      unfold scrAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runB m c t h0 h1 (outsAt0 m c (t.val - 1) (Nat.lt_of_le_of_lt (Nat.sub_le _ _) t.isLt)).2.2).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverB_0 m c t h0 h1 _)
          isplitl [HS1]
          · unfold owns; iexists _; isplitr
            swap; · iexact HS1
            ipureintro; exact View.read_writes_of_cover _ _ _ _ _ (scoverB_1 m c t h0 h1 _)
          isplitl [HS2]
          · unfold owns; iexists _; isplitr
            swap; · iexact HS2
            ipureintro; exact View.read_writes_of_cover _ _ _ _ _ (scoverB_2 m c t h0 h1 _)
          unfold owns; iexists _; isplitr
          swap; · iexact HS3
          ipureintro; exact View.read_writes_of_cover _ _ _ _ _ (scoverB_3 m c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      iexists _; iexact H17

/-- The library's body obligation, at every point. -/
theorem body_obligation (c : Dev nD) : BodyObligation (dats (F := F) m q 0 c) (defs₀ (F := F)) Variants.none () Set.univ := fun t => by
  rw [bigSep_W0, bigSep_W0]
  exact sound_body m q c t

/-- What the launch hands the region is the invariant before the first point. -/
theorem hin (c : Dev nD) : Pipeline.ΦA spec0 c ⊢ (dats m q 0 c).Φ 0 := by
  rw [show (dats m q 0 c).Φ 0 = PhiS m c 0 (Nat.zero_le _) from rfl, PhiS_zero m c 0 _ rfl]
  try exact Idealize.SL.BI.Entails.refl _

/-- After the last point the invariant gives the class's back: the accumulators' contents are forgotten. -/
theorem hout (c : Dev nD) : (dats m q 0 c).Φ (Fin.last cfg0.N) ⊢ Pipeline.ΦA spec0 c := by
  rw [show (dats m q 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  unfold scrAt
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.KernelIdeal.Hand

end
-- ==== Proof.KI.Launch.lean ====
/-
  The launch of this program's one region, whose windows share arrays: the two bf16 weight arrays are each read
  through four input windows (one per gate), so no window holds its array whole. Each of those eight windows is
  given a quarter of its array's full share (`shareOf`); the buffers behind the arrays, whole at the entry contents,
  then make the windows' arrays at entry by splitting the two weight arrays' points-tos in four along the share
  (`arrays_of_bufs`). With that, the run from the launch memory follows from the body obligation (`run_of`), and
  from the run's post every argument of @main is found as launched (`frame_of`).
-/
import proofs.«164712_j12180527251605_2_alg».proof.Proof.KI.Setup
import Idealize.ShloMosaic.Lib.Pipeline.Kit
import Idealize.ShloMosaic.Lib.Pipeline.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each window holds of its array: a quarter for the eight weight windows that share an array four
    ways, the full share otherwise. -/
def shareOf : Fin 18 → PosShare TreeShare := fun
  | 2 => fullShare.left.left | 3 => fullShare.left.right | 4 => fullShare.right.left | 5 => fullShare.right.right
  | 6 => fullShare.left.left | 7 => fullShare.left.right | 8 => fullShare.right.left | 9 => fullShare.right.right
  | _ => fullShare

/-- A whole points-to at the full share is four at its quarters. -/
theorem pointsTo_quarters {ℓ : Loc nD τ sig} (f : Buf (Elt F) ℓ) :
    (ℓ ↦{fullShare} f : sProp 𝕄)
      ⊢ iprop((ℓ ↦{fullShare.left.left} f) ∗ (ℓ ↦{fullShare.left.right} f) ∗ (ℓ ↦{fullShare.right.left} f) ∗ (ℓ ↦{fullShare.right.right} f)) := by
  iintro H
  ihave H := (pointsTo_share (PosShare.mem_left_op_right fullShare)).1 $$ H
  icases H with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  isplitl [HLL]; · iexact HLL
  isplitl [HLR]; · iexact HLR
  isplitl [HRL]; · iexact HRL
  iexact HRR

theorem arrRef_image : Finset.univ.image (Pipeline.arrRef spec0) = [main_v2, main_v3, main_v0, main_v1, main_v5, main_v6, main_v7, main_v8, main_arg0, main_arg2, main_v9_0, main_v9_1].toFinset := by decide

/-- Every window holds its array at `shareOf`: the outputs' full share is theirs there too. -/
theorem share_eq {c : Dev nD} (dat : Dat τ (Elt F) Unit ℕ (UR sig nD τ) ℕ cfg0 c) (hq : ∀ w, dat.q w = shareOf w) :
    ∀ w, dat.share w = shareOf w := fun
  | 0 => hq 0 | 1 => hq 1 | 2 => hq 2 | 3 => hq 3 | 4 => hq 4 | 5 => hq 5 | 6 => hq 6 | 7 => hq 7 | 8 => hq 8 | 9 => hq 9
  | 10 => hq 10 | 11 => hq 11 | 12 => hq 12 | 13 => hq 13 | 14 => hq 14 | 15 => hq 15 | 16 => rfl | 17 => rfl
  | ⟨_ + 18, h⟩ => absurd h (Nat.not_lt.2 (Nat.le_add_left _ _))

/-- The windows' arrays at entry, each whole at its window's share of the entry contents. -/
theorem arrays_entry {c : Dev nD} (dat : Dat τ (Elt F) Unit ℕ (UR sig nD τ) ℕ cfg0 c)
    (hA : ∀ w, dat.A w = V m c (Pipeline.arrRef spec0 w)) (hq : ∀ w, dat.q w = shareOf w) :
    dat.arrays (dat.arrAt · 0)
      = bigSep Finset.univ fun w : Fin 18 => ((((c : Thread nD τ).loc (Pipeline.arrRef spec0 w)) ↦{shareOf w} V m c (Pipeline.arrRef spec0 w)) : sProp 𝕄) := by
  unfold Dat.arrays
  exact bigSep_congr fun w _ => by
    rw [(arr_whole0 w).set_eq_univ, share_eq dat hq w]
    show (_ ↦{shareOf w} dat.A w) = _
    rw [hA w]

/-- The distinct buffers behind the windows' arrays, each whole at the full share at contents `W`, one by one. -/
theorem arrBufs_eq (c : Dev nD) (W : (b : Ref sig .tc) → Buf (Elt F) ((c : Thread nD τ).loc b)) :
    (Pipeline.arrBufs spec0 c W : sProp 𝕄)
      = iprop((((c : Thread nD τ).loc main_v2) ↦{fullShare} W main_v2) ∗ (((c : Thread nD τ).loc main_v3) ↦{fullShare} W main_v3)
          ∗ (((c : Thread nD τ).loc main_v0) ↦{fullShare} W main_v0) ∗ (((c : Thread nD τ).loc main_v1) ↦{fullShare} W main_v1)
          ∗ (((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8)
          ∗ (((c : Thread nD τ).loc main_arg0) ↦{fullShare} W main_arg0) ∗ (((c : Thread nD τ).loc main_arg2) ↦{fullShare} W main_arg2)
          ∗ (((c : Thread nD τ).loc main_v9_0) ↦{fullShare} W main_v9_0) ∗ (((c : Thread nD τ).loc main_v9_1) ↦{fullShare} W main_v9_1)) := by
  unfold Pipeline.arrBufs
  exact bigSep_eq_bigSepL_of_eq _ arrRef_image (by decide) _

/-- The buffers behind the arrays, each whole at the full share at the entry contents, make the windows' arrays at
    entry: the two weight arrays, read through four windows each, are split in quarters, one per window. -/
theorem arrays_of_bufs {c : Dev nD} (dat : Dat τ (Elt F) Unit ℕ (UR sig nD τ) ℕ cfg0 c)
    (hA : ∀ w, dat.A w = V m c (Pipeline.arrRef spec0 w)) (hq : ∀ w, dat.q w = shareOf w) :
    (Pipeline.arrBufs spec0 c (V m c) : sProp 𝕄) ⊢ dat.arrays (dat.arrAt · 0) := by
  rw [arrays_entry m dat hA hq, bigSep_W0, arrBufs_eq]
  iintro ⟨H0, H1, Hv0, Hv1, H10, H11, H12, H13, H14, H15, H16, H17⟩
  ihave Hv0 := pointsTo_quarters (F := F) _ $$ Hv0
  icases Hv0 with ⟨H2, H3, H4, H5⟩
  ihave Hv1 := pointsTo_quarters (F := F) _ $$ Hv1
  icases Hv1 with ⟨H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The run from the launch memory: the body obligation at every point, the proof data's arrays at the entry contents
    and each window's share of its array, nothing owed, and an invariant the class invariant yields before the first
    point and that yields it back after the last. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hA : ∀ c w, (dats 0 c).A w = V m c (Pipeline.arrRef spec0 w))
    (hq : ∀ c w, (dats 0 c).q w = shareOf w)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (Pipeline.FramePost cfgs dats 0 (V m)) := by
  classical
  exact Pipeline.θ_run_region_pf (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m (dats 0 c) (hA c) (hq c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2.2⟩)

/-- After the run every argument holds what it was launched with: arguments 0 and 2 are the arrays of two input
    windows, which no write-back touches; the other six bypass the region, and no host operation writes any of the eight. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 14).trans (((dats 0 c).arrAt_in 14 rfl _).trans ((hA c 14).trans (V_main_arg0 m c))),
      ((h c).2 main_arg1 (Pipeline.mem_restRefs_of main_arg1 (by decide) (by decide))).trans (V_main_arg1 m c),
      ((h c).1 15).trans (((dats 0 c).arrAt_in 15 rfl _).trans ((hA c 15).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

end Cert.KernelIdeal.Hand

end
-- ==== Proof.KI.Frame.lean ====
/-
  The kernel's run and its frame claim. Each of the eight weight windows is given a quarter of its array's share, the
  proof data are read at those shares, and the launch theorem for windows sharing arrays yields the run: the program
  terminates, every window's array holds what the proof data compute from the entry contents, and every buffer that
  bypasses the region is as the region found it. The eight arguments are among those (two as input arrays, six as
  bypassing buffers) and no host operation writes them, so they end as launched.
-/
import proofs.«164712_j12180527251605_2_alg».proof.Proof.KI.Body
import proofs.«164712_j12180527251605_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run from the launch memory, each weight window holding a quarter of its array: the program terminates with
    every window's array at what the proof data compute and every bypassing buffer as the region found it. -/
theorem run_main : θ_run defs (onTc (τ := τ) (main (F := F))) (s₀ m ρ) (Pipeline.FramePost cfgs (dats m shareOf) 0 (V m)) :=
  run_of m ρ (dats m shareOf) (fun c => (body_obligation m shareOf c).loose) (A_eq m shareOf) (q_eq m shareOf) (fun _ _ => rfl)
    (hin m shareOf) (hout m shareOf)

/-- The program runs and leaves its eight arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m shareOf) (A_eq m shareOf) (run_main m ρ)

end Cert.KernelIdeal.Hand

end
-- ==== Proof.KI.Pieces.lean ====
/-
  What the body's stores leave, read back as the payload functions of the point's input blocks.
  At the first reduction step each accumulator is zeroed and then receives the step's products; at a middle step it
  receives them on top of what the step before left; at the last step it receives them, the gate function is applied in
  place, and the cell and hidden tiles are stored from the four gates. Each statement here says which payload, of which
  input blocks, a buffer holds after the body; nothing is computed.
-/
import proofs.«164712_j12180527251605_2_alg».proof.Proof.KI.Data
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The zero offsets of a rank-2 rectangle, as the constant function. -/
theorem off00_zero : (![0, 0] : Fin 2 → Nat) = fun _ => 0 := funext fun a => by fin_cases a <;> rfl

/-- The zero offset of a rank-1 rectangle, as the constant function. -/
theorem off0_zero : (![0] : Fin 1 → Nat) = fun _ => 0 := funext fun a => by fin_cases a; rfl

/-- An accumulator read whole gives back the contents it was handed. -/
theorem rd_acc0 (X : Vec F S1024x512 .f32) :
    View.read (Elt F) (View.whole cc0_scratch0) ((Memref.isWhole_whole cc0_scratch0).unread X) = X :=
  (Memref.isWhole_whole cc0_scratch0).read_unread X
theorem rd_acc1 (X : Vec F S1024x512 .f32) :
    View.read (Elt F) (View.whole cc0_scratch1) ((Memref.isWhole_whole cc0_scratch1).unread X) = X :=
  (Memref.isWhole_whole cc0_scratch1).read_unread X
theorem rd_acc2 (X : Vec F S1024x512 .f32) :
    View.read (Elt F) (View.whole cc0_scratch2) ((Memref.isWhole_whole cc0_scratch2).unread X) = X :=
  (Memref.isWhole_whole cc0_scratch2).read_unread X
theorem rd_acc3 (X : Vec F S1024x512 .f32) :
    View.read (Elt F) (View.whole cc0_scratch3) ((Memref.isWhole_whole cc0_scratch3).unread X) = X :=
  (Memref.isWhole_whole cc0_scratch3).read_unread X

/-! ## The first reduction step: zero, then the step's products -/

/-- Accumulator 0 after the first step: the step's products added to the zero tile. -/
theorem soutA_0_eq (c : Dev nD) (t : Fin cfg0.N) (h0 : t.val % 8 = 0) (h1 : ¬t.val % 8 = 7) :
    soutA_0 m c t h0 h1
      = k0_pay17 (iblk m c 0 t) (iblk m c 1 t) (k0_pay11 (F := F)) (iblk m c 2 t) (iblk m c 6 t) := by
  unfold soutA_0
  rw [View.read_writes_eq_canon _ _ _ (scoverA_0 m c t h0 h1)]
  unfold runA kernelRun0_A
  dsimp only
  sl_unfold_words
  rw [View.canon_cons_unit_zero (S := S1024x512) off00_zero, View.readCov_unit_zero (S := S1024x512) _ off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero]

/-- Accumulator 1 after the first step: the step's products added to the zero tile. -/
theorem soutA_1_eq (c : Dev nD) (t : Fin cfg0.N) (h0 : t.val % 8 = 0) (h1 : ¬t.val % 8 = 7) :
    soutA_1 m c t h0 h1
      = k0_pay1 (k0_pay18 (iblk m c 0 t) (iblk m c 1 t) (k0_pay12 (F := F)) (iblk m c 3 t) (iblk m c 7 t)) := by
  unfold soutA_1
  rw [View.read_writes_eq_canon _ _ _ (scoverA_1 m c t h0 h1)]
  unfold runA kernelRun0_A
  dsimp only
  sl_unfold_words
  rw [View.canon_cons_unit_zero (S := S1024x512) off00_zero, View.readCov_unit_zero (S := S1024x512) _ off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero]

/-- Accumulator 2 after the first step: the step's products added to the zero tile. -/
theorem soutA_2_eq (c : Dev nD) (t : Fin cfg0.N) (h0 : t.val % 8 = 0) (h1 : ¬t.val % 8 = 7) :
    soutA_2 m c t h0 h1
      = k0_pay2 (k0_pay15 (iblk m c 0 t)) (k0_pay16 (iblk m c 1 t)) (k0_pay13 (F := F)) (iblk m c 4 t) (iblk m c 8 t) := by
  unfold soutA_2
  rw [View.read_writes_eq_canon _ _ _ (scoverA_2 m c t h0 h1)]
  unfold runA kernelRun0_A
  dsimp only
  sl_unfold_words
  rw [View.canon_cons_unit_zero (S := S1024x512) off00_zero, View.readCov_unit_zero (S := S1024x512) _ off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero]

/-- Accumulator 3 after the first step: the step's products added to the zero tile. -/
theorem soutA_3_eq (c : Dev nD) (t : Fin cfg0.N) (h0 : t.val % 8 = 0) (h1 : ¬t.val % 8 = 7) :
    soutA_3 m c t h0 h1
      = k0_pay3 (k0_pay15 (iblk m c 0 t)) (k0_pay16 (iblk m c 1 t)) (k0_pay14 (F := F)) (iblk m c 5 t) (iblk m c 9 t) := by
  unfold soutA_3
  rw [View.read_writes_eq_canon _ _ _ (scoverA_3 m c t h0 h1)]
  unfold runA kernelRun0_A
  dsimp only
  sl_unfold_words
  rw [View.canon_cons_unit_zero (S := S1024x512) off00_zero, View.readCov_unit_zero (S := S1024x512) _ off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero]

/-! ## A middle reduction step: the step's products on top of what the accumulator held -/

/-- Accumulator 0 after a middle step: the step's products added to its contents. -/
theorem soutB_0_eq (c : Dev nD) (t : Fin cfg0.N) (h0 : ¬t.val % 8 = 0) (h1 : ¬t.val % 8 = 7)
    (xs : Vec F S1024x512 .f32 × Vec F S1024x512 .f32 × Vec F S1024x512 .f32 × Vec F S1024x512 .f32) :
    soutB_0 m c t h0 h1 xs
      = k0_pay17 (iblk m c 0 t) (iblk m c 1 t) xs.1 (iblk m c 2 t) (iblk m c 6 t) := by
  unfold soutB_0
  rw [View.read_writes_eq_canon _ _ _ (scoverB_0 m c t h0 h1 xs)]
  unfold runB kernelRun0_B
  dsimp only
  sl_unfold_words
  rw [View.canon_unit_zero off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero]

/-- Accumulator 1 after a middle step: the step's products added to its contents. -/
theorem soutB_1_eq (c : Dev nD) (t : Fin cfg0.N) (h0 : ¬t.val % 8 = 0) (h1 : ¬t.val % 8 = 7)
    (xs : Vec F S1024x512 .f32 × Vec F S1024x512 .f32 × Vec F S1024x512 .f32 × Vec F S1024x512 .f32) :
    soutB_1 m c t h0 h1 xs
      = k0_pay1 (k0_pay18 (iblk m c 0 t) (iblk m c 1 t) xs.2.1 (iblk m c 3 t) (iblk m c 7 t)) := by
  unfold soutB_1
  rw [View.read_writes_eq_canon _ _ _ (scoverB_1 m c t h0 h1 xs)]
  unfold runB kernelRun0_B
  dsimp only
  sl_unfold_words
  rw [View.canon_unit_zero off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero]

/-- Accumulator 2 after a middle step: the step's products added to its contents. -/
theorem soutB_2_eq (c : Dev nD) (t : Fin cfg0.N) (h0 : ¬t.val % 8 = 0) (h1 : ¬t.val % 8 = 7)
    (xs : Vec F S1024x512 .f32 × Vec F S1024x512 .f32 × Vec F S1024x512 .f32 × Vec F S1024x512 .f32) :
    soutB_2 m c t h0 h1 xs
      = k0_pay2 (k0_pay15 (iblk m c 0 t)) (k0_pay16 (iblk m c 1 t)) xs.2.2.1 (iblk m c 4 t) (iblk m c 8 t) := by
  unfold soutB_2
  rw [View.read_writes_eq_canon _ _ _ (scoverB_2 m c t h0 h1 xs)]
  unfold runB kernelRun0_B
  dsimp only
  sl_unfold_words
  rw [View.canon_unit_zero off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero]

/-- Accumulator 3 after a middle step: the step's products added to its contents. -/
theorem soutB_3_eq (c : Dev nD) (t : Fin cfg0.N) (h0 : ¬t.val % 8 = 0) (h1 : ¬t.val % 8 = 7)
    (xs : Vec F S1024x512 .f32 × Vec F S1024x512 .f32 × Vec F S1024x512 .f32 × Vec F S1024x512 .f32) :
    soutB_3 m c t h0 h1 xs
      = k0_pay3 (k0_pay15 (iblk m c 0 t)) (k0_pay16 (iblk m c 1 t)) xs.2.2.2 (iblk m c 5 t) (iblk m c 9 t) := by
  unfold soutB_3
  rw [View.read_writes_eq_canon _ _ _ (scoverB_3 m c t h0 h1 xs)]
  unfold runB kernelRun0_B
  dsimp only
  sl_unfold_words
  rw [View.canon_unit_zero off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero]

/-! ## The last reduction step: the products, the gates in place, then the cell and hidden tiles -/

/-- A whole-buffer load after stores of which the LAST went through the whole buffer reads that store's payload. -/
theorem readCov_cons_unit_zero' {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

/-- The same for a [1024, 512] tile with the offsets spelt as the program prints them. -/
theorem readCov_tile {sig' : RefSig} {κ : Kind} {sp : Space} (v : View sig' κ sp S1024x512 .f32)
    (inb : ∀ a, (![0, 0] : Fin 2 → Nat) a + S1024x512.size a ≤ S1024x512.size a) (w : S1024x512.Idx → Elt F .f32)
    (L : List (View.Piece (Elt F) S1024x512 .f32)) :
    v.readCov ((⟨Rect.unit ![0, 0] S1024x512.size inb, w⟩ : View.Piece (Elt F) S1024x512 .f32) :: L)
      (Rect.unit ![0, 0] S1024x512.size inb).toLoadRect = w :=
  readCov_cons_unit_zero' v off00_zero inb w L

/-- Accumulator 0 after the last step: its gate function of the finished pre-activation and the bias. -/
theorem soutC_0_eq (c : Dev nD) (t : Fin cfg0.N) (h0 : ¬t.val % 8 = 0) (h1 : t.val % 8 = 7)
    (xs : Vec F S1024x512 .f32 × Vec F S1024x512 .f32 × Vec F S1024x512 .f32 × Vec F S1024x512 .f32) :
    soutC_0 m c t h0 h1 xs
      = k0_pay7 (k0_pay17 (iblk m c 0 t) (iblk m c 1 t) xs.1 (iblk m c 2 t) (iblk m c 6 t)) (iblk m c 10 t) := by
  unfold soutC_0
  rw [View.read_writes_eq_canon _ _ _ (scoverC_0 m c t h0 h1 xs)]
  unfold runC kernelRun0_C
  dsimp only
  sl_unfold_words
  rw [View.canon_cons_unit_zero (S := S1024x512) off00_zero, View.readCov_unit_zero (S := S1024x512) _ off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero, View.ld_unit_zero (S := S512) off0_zero]

/-- Accumulator 1 after the last step: its gate function of the finished pre-activation and the bias. -/
theorem soutC_1_eq (c : Dev nD) (t : Fin cfg0.N) (h0 : ¬t.val % 8 = 0) (h1 : t.val % 8 = 7)
    (xs : Vec F S1024x512 .f32 × Vec F S1024x512 .f32 × Vec F S1024x512 .f32 × Vec F S1024x512 .f32) :
    soutC_1 m c t h0 h1 xs
      = k0_pay8 (k0_pay1 (k0_pay18 (iblk m c 0 t) (iblk m c 1 t) xs.2.1 (iblk m c 3 t) (iblk m c 7 t))) (iblk m c 11 t) := by
  unfold soutC_1
  rw [View.read_writes_eq_canon _ _ _ (scoverC_1 m c t h0 h1 xs)]
  unfold runC kernelRun0_C
  dsimp only
  sl_unfold_words
  rw [View.canon_cons_unit_zero (S := S1024x512) off00_zero, View.readCov_unit_zero (S := S1024x512) _ off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero, View.ld_unit_zero (S := S512) off0_zero]

/-- Accumulator 2 after the last step: its gate function of the finished pre-activation and the bias. -/
theorem soutC_2_eq (c : Dev nD) (t : Fin cfg0.N) (h0 : ¬t.val % 8 = 0) (h1 : t.val % 8 = 7)
    (xs : Vec F S1024x512 .f32 × Vec F S1024x512 .f32 × Vec F S1024x512 .f32 × Vec F S1024x512 .f32) :
    soutC_2 m c t h0 h1 xs
      = k0_pay9 (k0_pay2 (k0_pay15 (iblk m c 0 t)) (k0_pay16 (iblk m c 1 t)) xs.2.2.1 (iblk m c 4 t) (iblk m c 8 t)) (iblk m c 12 t) := by
  unfold soutC_2
  rw [View.read_writes_eq_canon _ _ _ (scoverC_2 m c t h0 h1 xs)]
  unfold runC kernelRun0_C
  dsimp only
  sl_unfold_words
  rw [View.canon_cons_unit_zero (S := S1024x512) off00_zero, View.readCov_unit_zero (S := S1024x512) _ off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero, View.ld_unit_zero (S := S512) off0_zero]

/-- Accumulator 3 after the last step: its gate function of the finished pre-activation and the bias. -/
theorem soutC_3_eq (c : Dev nD) (t : Fin cfg0.N) (h0 : ¬t.val % 8 = 0) (h1 : t.val % 8 = 7)
    (xs : Vec F S1024x512 .f32 × Vec F S1024x512 .f32 × Vec F S1024x512 .f32 × Vec F S1024x512 .f32) :
    soutC_3 m c t h0 h1 xs
      = k0_pay4 (k0_pay10 (k0_pay3 (k0_pay15 (iblk m c 0 t)) (k0_pay16 (iblk m c 1 t)) xs.2.2.2 (iblk m c 5 t) (iblk m c 9 t)) (iblk m c 13 t)) := by
  unfold soutC_3
  rw [View.read_writes_eq_canon _ _ _ (scoverC_3 m c t h0 h1 xs)]
  unfold runC kernelRun0_C
  dsimp only
  sl_unfold_words
  rw [View.canon_cons_unit_zero (S := S1024x512) off00_zero, View.readCov_unit_zero (S := S1024x512) _ off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero, View.ld_unit_zero (S := S512) off0_zero]

/-- The cell tile stored at the last step: the input gate times the candidate, plus each forget gate times its child's cell. -/
theorem outC_16_eq (c : Dev nD) (t : Fin cfg0.N) (h0 : ¬t.val % 8 = 0) (h1 : t.val % 8 = 7)
    (xs : Vec F S1024x512 .f32 × Vec F S1024x512 .f32 × Vec F S1024x512 .f32 × Vec F S1024x512 .f32) :
    outC_16 m c t h0 h1 xs
      = k0_pay5 (k0_pay7 (k0_pay17 (iblk m c 0 t) (iblk m c 1 t) xs.1 (iblk m c 2 t) (iblk m c 6 t)) (iblk m c 10 t))
          (k0_pay4 (k0_pay10 (k0_pay3 (k0_pay15 (iblk m c 0 t)) (k0_pay16 (iblk m c 1 t)) xs.2.2.2 (iblk m c 5 t) (iblk m c 9 t)) (iblk m c 13 t)))
          (k0_pay8 (k0_pay1 (k0_pay18 (iblk m c 0 t) (iblk m c 1 t) xs.2.1 (iblk m c 3 t) (iblk m c 7 t))) (iblk m c 11 t)) (iblk m c 14 t)
          (k0_pay9 (k0_pay2 (k0_pay15 (iblk m c 0 t)) (k0_pay16 (iblk m c 1 t)) xs.2.2.1 (iblk m c 4 t) (iblk m c 8 t)) (iblk m c 12 t)) (iblk m c 15 t) := by
  unfold outC_16
  rw [View.read_writes_eq_canon _ _ _ (coverC_16 m c t h0 h1 xs)]
  unfold runC kernelRun0_C
  dsimp only
  sl_unfold_words
  rw [View.canon_unit_zero off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero, View.ld_unit_zero (S := S512) off0_zero]
  repeat rw [readCov_tile]

/-- The hidden tile stored at the last step: the hyperbolic tangent of the cell tile. -/
theorem outC_17_eq (c : Dev nD) (t : Fin cfg0.N) (h0 : ¬t.val % 8 = 0) (h1 : t.val % 8 = 7)
    (xs : Vec F S1024x512 .f32 × Vec F S1024x512 .f32 × Vec F S1024x512 .f32 × Vec F S1024x512 .f32) :
    outC_17 m c t h0 h1 xs
      = k0_pay6 (k0_pay5 (k0_pay7 (k0_pay17 (iblk m c 0 t) (iblk m c 1 t) xs.1 (iblk m c 2 t) (iblk m c 6 t)) (iblk m c 10 t))
          (k0_pay4 (k0_pay10 (k0_pay3 (k0_pay15 (iblk m c 0 t)) (k0_pay16 (iblk m c 1 t)) xs.2.2.2 (iblk m c 5 t) (iblk m c 9 t)) (iblk m c 13 t)))
          (k0_pay8 (k0_pay1 (k0_pay18 (iblk m c 0 t) (iblk m c 1 t) xs.2.1 (iblk m c 3 t) (iblk m c 7 t))) (iblk m c 11 t)) (iblk m c 14 t)
          (k0_pay9 (k0_pay2 (k0_pay15 (iblk m c 0 t)) (k0_pay16 (iblk m c 1 t)) xs.2.2.1 (iblk m c 4 t) (iblk m c 8 t)) (iblk m c 12 t)) (iblk m c 15 t)) := by
  unfold outC_17
  rw [View.read_writes_eq_canon _ _ _ (coverC_17 m c t h0 h1 xs)]
  unfold runC kernelRun0_C
  dsimp only
  sl_unfold_words
  rw [View.canon_unit_zero off00_zero]
  simp only [View.readAt_eq_ld, Memref.IsWhole.read_unread, rd_acc0, rd_acc1, rd_acc2, rd_acc3,
    View.ld_unit_zero (S := S1024x512) off00_zero, View.ld_unit_zero (S := S1024x256) off00_zero,
    View.ld_unit_zero (S := S256x512) off00_zero, View.ld_unit_zero (S := S512) off0_zero]
  repeat rw [readCov_tile]

end Cert.KernelIdeal.Hand

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.KI.Payload.lean ====
/-
  The kernel body's arithmetic, read at an index of the [1024, 512] tile, at the ideal values.
  Each stored value of the body is a short chain of pointwise operations around two matrix products into a zero
  accumulator and a bias row broadcast down the tile; at row p, column q it is the accumulator's entry plus the two
  contractions over the step's 256 positions, or a gate function of an entry plus the bias at q.
-/
import proofs.«164712_j12180527251605_2_alg».proof.Proof.Gen.KernelIdeal.Skeleton
import proofs.«164712_j12180527251605_2_alg».proof.Proof.Spec
import proofs.«164712_j12180527251605_2_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## The zero splats -/

/-- The first accumulator's reset value is zero everywhere. -/
theorem pay11_apply (p : Fin 1024) (qq : Fin 512) : k0_pay11 (F := Ideal) (ix2 p qq) = 0 := by
  unfold k0_pay11
  rw [shapeCast_self]
  exact Ideal.ofBits_zero_f32

/-- The second accumulator's reset value is zero everywhere. -/
theorem pay12_apply (p : Fin 1024) (qq : Fin 512) : k0_pay12 (F := Ideal) (ix2 p qq) = 0 := by
  unfold k0_pay12
  rw [shapeCast_self]
  exact Ideal.ofBits_zero_f32

/-- The third accumulator's reset value is zero everywhere. -/
theorem pay13_apply (p : Fin 1024) (qq : Fin 512) : k0_pay13 (F := Ideal) (ix2 p qq) = 0 := by
  unfold k0_pay13
  rw [shapeCast_self]
  exact Ideal.ofBits_zero_f32

/-- The fourth accumulator's reset value is zero everywhere. -/
theorem pay14_apply (p : Fin 1024) (qq : Fin 512) : k0_pay14 (F := Ideal) (ix2 p qq) = 0 := by
  unfold k0_pay14
  rw [shapeCast_self]
  exact Ideal.ofBits_zero_f32

/-! ## One reduction step -/

/-- The matrix unit's product of a [1024, 256] tile and a [256, 512] tile into a zero accumulator, at (p, q): the
contraction over the 256 positions. -/
theorem mm_apply (A : FVec Ideal S1024x256 .bf16) (B : FVec Ideal S256x512 .bf16) (p : Fin 1024) (qq : Fin 512) :
    matmul dot_S1024x256_S256x512_S1024x512_1_0_0_1_n_n none A B (constant (F := Ideal) S1024x512 .f32 0x00000000#32) (ix2 p qq)
      = ∑ cc : Fin 256, A (ix2 p cc) * B (ix2 cc qq) :=
  Cert.LibDot.matmul_zero_apply (m := 1024) (k := 256) (n := 512)
    Facts₀.dot_S1024x256_S256x512_S1024x512_1_0_0_1_n_n_wf none A B p qq

/-- What one step leaves at (p, q): the accumulator's entry plus the two contractions of the step. -/
def acc_rhs (x0 x1 : FVec Ideal S1024x256 .bf16) (a : FVec Ideal S1024x512 .f32) (wl wr : FVec Ideal S256x512 .bf16)
    (p : Fin 1024) (qq : Fin 512) : EReal :=
  a (ix2 p qq) + ((∑ cc : Fin 256, x0 (ix2 p cc) * wl (ix2 cc qq)) + ∑ cc : Fin 256, x1 (ix2 p cc) * wr (ix2 cc qq))

theorem pay17_apply (x0 x1 : FVec Ideal S1024x256 .bf16) (a : FVec Ideal S1024x512 .f32) (wl wr : FVec Ideal S256x512 .bf16)
    (p : Fin 1024) (qq : Fin 512) : k0_pay17 (F := Ideal) x0 x1 a wl wr (ix2 p qq) = acc_rhs x0 x1 a wl wr p qq := by
  unfold k0_pay17 k0_pay15 k0_pay16 acc_rhs
  simp only [shapeCast_self]
  rw [addf_apply, addf_apply, mm_apply, mm_apply]

theorem pay1_18_apply (x0 x1 : FVec Ideal S1024x256 .bf16) (a : FVec Ideal S1024x512 .f32) (wl wr : FVec Ideal S256x512 .bf16)
    (p : Fin 1024) (qq : Fin 512) :
    k0_pay1 (F := Ideal) (k0_pay18 (F := Ideal) x0 x1 a wl wr) (ix2 p qq) = acc_rhs x0 x1 a wl wr p qq := by
  unfold k0_pay1 k0_pay18 k0_pay15 k0_pay16 acc_rhs
  simp only [shapeCast_self]
  rw [addf_apply, addf_apply, mm_apply, mm_apply]

theorem pay2_apply (x0 x1 : FVec Ideal S1024x256 .bf16) (a : FVec Ideal S1024x512 .f32) (wl wr : FVec Ideal S256x512 .bf16)
    (p : Fin 1024) (qq : Fin 512) :
    k0_pay2 (F := Ideal) (k0_pay15 (F := Ideal) x0) (k0_pay16 (F := Ideal) x1) a wl wr (ix2 p qq) = acc_rhs x0 x1 a wl wr p qq := by
  unfold k0_pay2 k0_pay15 k0_pay16 acc_rhs
  simp only [shapeCast_self]
  rw [addf_apply, addf_apply, mm_apply, mm_apply]

theorem pay3_apply (x0 x1 : FVec Ideal S1024x256 .bf16) (a : FVec Ideal S1024x512 .f32) (wl wr : FVec Ideal S256x512 .bf16)
    (p : Fin 1024) (qq : Fin 512) :
    k0_pay3 (F := Ideal) (k0_pay15 (F := Ideal) x0) (k0_pay16 (F := Ideal) x1) a wl wr (ix2 p qq) = acc_rhs x0 x1 a wl wr p qq := by
  unfold k0_pay3 k0_pay15 k0_pay16 acc_rhs
  simp only [shapeCast_self]
  rw [addf_apply, addf_apply, mm_apply, mm_apply]

/-! ## The gates -/

/-- The bias vector laid as a row and repeated down the 1024 rows reads, at (p, q), the bias at q. -/
theorem bias_apply (b : FVec Ideal S512 .f32) (p : Fin 1024) (qq : Fin 512) :
    broadcastTo S1024x512 (shapeCast S1x512 (shapeCast S512 b Facts₀.shapeCasts_S512_S512) Facts₀.shapeCasts_S512_S1x512)
      Facts₀.broadcasts_S1x512_S1024x512 (ix2 p qq) = b (ix1 qq) := by
  rw [shapeCast_self]
  refine (broadcastTo_1b_ab_apply (a := 1024) (b := 512) _ Facts₀.broadcasts_S1x512_S1024x512 p qq).trans ?_
  exact shapeCast_a_1a_apply (a := 512) b Facts₀.shapeCasts_S512_S1x512 0 qq

theorem pay7_apply (a : FVec Ideal S1024x512 .f32) (b : FVec Ideal S512 .f32) (p : Fin 1024) (qq : Fin 512) :
    k0_pay7 (F := Ideal) a b (ix2 p qq) = Cert.Spec.sig (a (ix2 p qq) + b (ix1 qq)) := by
  unfold k0_pay7
  rw [shapeCast_self]
  show FloatOps.logistic (F := Ideal) (φ := .f32) (a (ix2 p qq) + _) = _
  rw [bias_apply]
  rfl

theorem pay8_apply (a : FVec Ideal S1024x512 .f32) (b : FVec Ideal S512 .f32) (p : Fin 1024) (qq : Fin 512) :
    k0_pay8 (F := Ideal) a b (ix2 p qq) = Cert.Spec.sig (a (ix2 p qq) + b (ix1 qq)) := by
  unfold k0_pay8
  rw [shapeCast_self]
  show FloatOps.logistic (F := Ideal) (φ := .f32) (a (ix2 p qq) + _) = _
  rw [bias_apply]
  rfl

theorem pay9_apply (a : FVec Ideal S1024x512 .f32) (b : FVec Ideal S512 .f32) (p : Fin 1024) (qq : Fin 512) :
    k0_pay9 (F := Ideal) a b (ix2 p qq) = Cert.Spec.sig (a (ix2 p qq) + b (ix1 qq)) := by
  unfold k0_pay9
  rw [shapeCast_self]
  show FloatOps.logistic (F := Ideal) (φ := .f32) (a (ix2 p qq) + _) = _
  rw [bias_apply]
  rfl

theorem pay4_10_apply (a : FVec Ideal S1024x512 .f32) (b : FVec Ideal S512 .f32) (p : Fin 1024) (qq : Fin 512) :
    k0_pay4 (F := Ideal) (k0_pay10 (F := Ideal) a b) (ix2 p qq) = Cert.Spec.th (a (ix2 p qq) + b (ix1 qq)) := by
  unfold k0_pay4 k0_pay10
  rw [shapeCast_self]
  show FloatOps.tanh (F := Ideal) (φ := .f32) (a (ix2 p qq) + _) = _
  rw [bias_apply]
  rfl

/-! ## The cell and the hidden state -/

theorem pay5_apply (v98 v99 v101 v102 v105 v106 : FVec Ideal S1024x512 .f32) (p : Fin 1024) (qq : Fin 512) :
    k0_pay5 (F := Ideal) v98 v99 v101 v102 v105 v106 (ix2 p qq)
      = (v98 (ix2 p qq) * v99 (ix2 p qq) + v101 (ix2 p qq) * v102 (ix2 p qq)) + v105 (ix2 p qq) * v106 (ix2 p qq) := rfl

theorem pay6_apply (v : FVec Ideal S1024x512 .f32) (p : Fin 1024) (qq : Fin 512) :
    k0_pay6 (F := Ideal) v (ix2 p qq) = Cert.Spec.th (v (ix2 p qq)) := by
  unfold k0_pay6
  rw [shapeCast_self]
  rfl

end Cert.KernelIdeal.Hand

end
-- ==== Proof.KI.Blocks.lean ====
/-
  The windows' blocks as entries of the argument arrays. Each of the 128 grid points (i, d, k) — row block i of the
  4096 rows, column block d of the 2048 hidden columns, block k of the 2048-long contraction — sees: a 1024×256 block of
  each of the two hidden-state arrays, a 256×512 block of each gate's columns of the two weight arrays, a 512-long block
  of each gate's slice of the summed bias, and a 1024×512 block of each of the two cell-state arrays. Here every such
  block is read, entry by entry, off the arrays the program was launched with (the host's casts are the identity on
  extended reals, its bias sum is the sum, its slices shift the index), and each of the two output arrays after the run
  is recovered from what the points of the last contraction step write back: their 1024×512 blocks tile the array.
-/
import proofs.«164712_j12180527251605_2_alg».proof.Proof.KI.Setup
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable (m : (ℓ : Loc nD τ sig) → Buf (Elt Ideal) ℓ)

/-! ## The launched arrays -/

/-- The left cell state, as launched. -/
abbrev A0 (c : Dev nD) : S4096x2048.Idx → EReal := m ((c : Thread nD τ).loc main_arg0)
/-- The left hidden state, as launched. -/
abbrev A1 (c : Dev nD) : S4096x2048.Idx → EReal := m ((c : Thread nD τ).loc main_arg1)
/-- The right cell state, as launched. -/
abbrev A2 (c : Dev nD) : S4096x2048.Idx → EReal := m ((c : Thread nD τ).loc main_arg2)
/-- The right hidden state, as launched. -/
abbrev A3 (c : Dev nD) : S4096x2048.Idx → EReal := m ((c : Thread nD τ).loc main_arg3)
/-- The left weights, as launched. -/
abbrev A4 (c : Dev nD) : S2048x8192.Idx → EReal := m ((c : Thread nD τ).loc main_arg4)
/-- The left bias, as launched. -/
abbrev A5 (c : Dev nD) : S8192.Idx → EReal := m ((c : Thread nD τ).loc main_arg5)
/-- The right weights, as launched. -/
abbrev A6 (c : Dev nD) : S2048x8192.Idx → EReal := m ((c : Thread nD τ).loc main_arg6)
/-- The right bias, as launched. -/
abbrev A7 (c : Dev nD) : S8192.Idx → EReal := m ((c : Thread nD τ).loc main_arg7)

/-! ## The grid point's coordinates -/

/-- The grid has 128 points. -/
theorem pt_lt (t : Fin cfg0.N) : t.val < 128 := lt_of_lt_of_eq t.isLt N_0

/-- The three coordinates of point `t`: row block `t / 32`, column block `t / 8 % 4`, contraction block `t % 8`. -/
theorem coords_val : ∀ t : Fin cfg0.N, (grid0.coords t 0).val = t.val / 32 ∧ (grid0.coords t 1).val = t.val / 8 % 4 ∧ (grid0.coords t 2).val = t.val % 8 :=
  (by decide +kernel : ∀ t : Fin grid0.N, _)

/-- Row `p` of row block `t / 32`, of the 4096 rows. -/
abbrev rowAt (t : Fin cfg0.N) (p : Fin 1024) : Fin 4096 := ⟨1024 * (t.val / 32) + p.val, by have := pt_lt t; omega⟩
/-- Entry `k` of contraction block `t % 8`, of the 2048 contracted entries. -/
abbrev redAt (t : Fin cfg0.N) (k : Fin 256) : Fin 2048 := ⟨256 * (t.val % 8) + k.val, by have := pt_lt t; omega⟩
/-- Column `q` of column block `t / 8 % 4`, of the 2048 hidden columns. -/
abbrev colAt (t : Fin cfg0.N) (q : Fin 512) : Fin 2048 := ⟨512 * (t.val / 8 % 4) + q.val, by have := pt_lt t; omega⟩
/-- The same column within gate `g`'s 2048 columns of the 8192 gate columns. -/
abbrev gcolAt (g : ℕ) (t : Fin cfg0.N) (q : Fin 512) (hg : g < 4 := by decide) : Fin 8192 :=
  ⟨2048 * g + 512 * (t.val / 8 % 4) + q.val, by have := pt_lt t; omega⟩

/-! ## Where each window's block sits: the printed index maps, decided over the 128 points -/

/-- Hidden-state window 0: row block and contraction block. -/
theorem idx_w0 : ∀ t : Fin cfg0.N, win0_0.index t (0 : Fin 2) = t.val / 32 ∧ win0_0.index t (1 : Fin 2) = t.val % 8 :=
  (by decide +kernel : ∀ t : Fin grid0.N, _)
/-- Hidden-state window 1: row block and contraction block. -/
theorem idx_w1 : ∀ t : Fin cfg0.N, win0_1.index t (0 : Fin 2) = t.val / 32 ∧ win0_1.index t (1 : Fin 2) = t.val % 8 :=
  (by decide +kernel : ∀ t : Fin grid0.N, _)
/-- Weight window 2 (gate 0): contraction block, and column block within the gate's columns. -/
theorem idx_w2 : ∀ t : Fin cfg0.N, win0_2.index t (0 : Fin 2) = t.val % 8 ∧ win0_2.index t (1 : Fin 2) = 0 + t.val / 8 % 4 :=
  (by decide +kernel : ∀ t : Fin grid0.N, _)
/-- Weight window 3 (gate 1): contraction block, and column block within the gate's columns. -/
theorem idx_w3 : ∀ t : Fin cfg0.N, win0_3.index t (0 : Fin 2) = t.val % 8 ∧ win0_3.index t (1 : Fin 2) = 4 + t.val / 8 % 4 :=
  (by decide +kernel : ∀ t : Fin grid0.N, _)
/-- Weight window 4 (gate 2): contraction block, and column block within the gate's columns. -/
theorem idx_w4 : ∀ t : Fin cfg0.N, win0_4.index t (0 : Fin 2) = t.val % 8 ∧ win0_4.index t (1 : Fin 2) = 8 + t.val / 8 % 4 :=
  (by decide +kernel : ∀ t : Fin grid0.N, _)
/-- Weight window 5 (gate 3): contraction block, and column block within the gate's columns. -/
theorem idx_w5 : ∀ t : Fin cfg0.N, win0_5.index t (0 : Fin 2) = t.val % 8 ∧ win0_5.index t (1 : Fin 2) = 12 + t.val / 8 % 4 :=
  (by decide +kernel : ∀ t : Fin grid0.N, _)
/-- Weight window 6 (gate 0): contraction block, and column block within the gate's columns. -/
theorem idx_w6 : ∀ t : Fin cfg0.N, win0_6.index t (0 : Fin 2) = t.val % 8 ∧ win0_6.index t (1 : Fin 2) = 0 + t.val / 8 % 4 :=
  (by decide +kernel : ∀ t : Fin grid0.N, _)
/-- Weight window 7 (gate 1): contraction block, and column block within the gate's columns. -/
theorem idx_w7 : ∀ t : Fin cfg0.N, win0_7.index t (0 : Fin 2) = t.val % 8 ∧ win0_7.index t (1 : Fin 2) = 4 + t.val / 8 % 4 :=
  (by decide +kernel : ∀ t : Fin grid0.N, _)
/-- Weight window 8 (gate 2): contraction block, and column block within the gate's columns. -/
theorem idx_w8 : ∀ t : Fin cfg0.N, win0_8.index t (0 : Fin 2) = t.val % 8 ∧ win0_8.index t (1 : Fin 2) = 8 + t.val / 8 % 4 :=
  (by decide +kernel : ∀ t : Fin grid0.N, _)
/-- Weight window 9 (gate 3): contraction block, and column block within the gate's columns. -/
theorem idx_w9 : ∀ t : Fin cfg0.N, win0_9.index t (0 : Fin 2) = t.val % 8 ∧ win0_9.index t (1 : Fin 2) = 12 + t.val / 8 % 4 :=
  (by decide +kernel : ∀ t : Fin grid0.N, _)
/-- Bias window 10 (gate 0): column block. -/
theorem idx_w10 : ∀ t : Fin cfg0.N, win0_10.index t (0 : Fin 1) = t.val / 8 % 4 :=
  (by decide +kernel : ∀ t : Fin grid0.N, _)
/-- Bias window 11 (gate 1): column block. -/
theorem idx_w11 : ∀ t : Fin cfg0.N, win0_11.index t (0 : Fin 1) = t.val / 8 % 4 :=
  (by decide +kernel : ∀ t : Fin grid0.N, _)
/-- Bias window 12 (gate 2): column block. -/
theorem idx_w12 : ∀ t : Fin cfg0.N, win0_12.index t (0 : Fin 1) = t.val / 8 % 4 :=
  (by decide +kernel : ∀ t : Fin grid0.N, _)
/-- Bias window 13 (gate 3): column block. -/
theorem idx_w13 : ∀ t : Fin cfg0.N, win0_13.index t (0 : Fin 1) = t.val / 8 % 4 :=
  (by decide +kernel : ∀ t : Fin grid0.N, _)
/-- Cell-state window 14: row block and column block. -/
theorem idx_w14 : ∀ t : Fin cfg0.N, win0_14.index t (0 : Fin 2) = t.val / 32 ∧ win0_14.index t (1 : Fin 2) = t.val / 8 % 4 :=
  (by decide +kernel : ∀ t : Fin grid0.N, _)
/-- Cell-state window 15: row block and column block. -/
theorem idx_w15 : ∀ t : Fin cfg0.N, win0_15.index t (0 : Fin 2) = t.val / 32 ∧ win0_15.index t (1 : Fin 2) = t.val / 8 % 4 :=
  (by decide +kernel : ∀ t : Fin grid0.N, _)
/-- Output window 16: row block and column block. -/
theorem idx_w16 : ∀ t : Fin cfg0.N, win0_16.index t (0 : Fin 2) = t.val / 32 ∧ win0_16.index t (1 : Fin 2) = t.val / 8 % 4 :=
  (by decide +kernel : ∀ t : Fin grid0.N, _)
/-- Output window 17: row block and column block. -/
theorem idx_w17 : ∀ t : Fin cfg0.N, win0_17.index t (0 : Fin 2) = t.val / 32 ∧ win0_17.index t (1 : Fin 2) = t.val / 8 % 4 :=
  (by decide +kernel : ∀ t : Fin grid0.N, _)

/-! ## The arrays the host writes before the region, read off the launched arrays -/

/-- The left weight array's change of format is the identity on extended reals. -/
theorem V_main_v0 (c : Dev nD) : (V m c main_v0 : S2048x8192.Idx → EReal) = A4 m c := by
  dsimp only [V, hostOps0]; after_results; rfl

/-- The right weight array's change of format is the identity on extended reals. -/
theorem V_main_v1 (c : Dev nD) : (V m c main_v1 : S2048x8192.Idx → EReal) = A6 m c := by
  dsimp only [V, hostOps0]; after_results; rfl

/-- The left hidden-state array's change of format is the identity on extended reals. -/
theorem V_main_v2 (c : Dev nD) : (V m c main_v2 : S4096x2048.Idx → EReal) = A1 m c := by
  dsimp only [V, hostOps0]; after_results; rfl

/-- The right hidden-state array's change of format is the identity on extended reals. -/
theorem V_main_v3 (c : Dev nD) : (V m c main_v3 : S4096x2048.Idx → EReal) = A3 m c := by
  dsimp only [V, hostOps0]; after_results; rfl

/-- Gate 0's slice of the summed bias at `j` is the two biases' entries `0 + j` added. -/
theorem V_main_v5_apply (c : Dev nD) (j : Fin 2048) (k : Fin 8192) (hk : k.val = 0 + j.val) :
    (V m c main_v5 : S2048.Idx → EReal) (ix1 j) = A5 m c (ix1 k) + A7 m c (ix1 k) := by
  have e : @Eq (S2048.Idx → EReal) (V m c main_v5)
      (extractStridedSlice (α := EReal) S2048 ![0] (addf (F := Ideal) (s := S8192) (φ := .f32) (A5 m c) (A7 m c)) Facts₀.slices_S8192_S2048_0) := by
    dsimp only [V, hostOps0]; after_results
  rw [e]
  exact extractStridedSlice_apply ![0] _ _ (ix1 j) (ix1 k) fun a => by
    match a with
    | ⟨0, _⟩ => exact hk

/-- Gate 1's slice of the summed bias at `j` is the two biases' entries `2048 + j` added. -/
theorem V_main_v6_apply (c : Dev nD) (j : Fin 2048) (k : Fin 8192) (hk : k.val = 2048 + j.val) :
    (V m c main_v6 : S2048.Idx → EReal) (ix1 j) = A5 m c (ix1 k) + A7 m c (ix1 k) := by
  have e : @Eq (S2048.Idx → EReal) (V m c main_v6)
      (extractStridedSlice (α := EReal) S2048 ![2048] (addf (F := Ideal) (s := S8192) (φ := .f32) (A5 m c) (A7 m c)) Facts₀.slices_S8192_S2048_2048) := by
    dsimp only [V, hostOps0]; after_results
  rw [e]
  exact extractStridedSlice_apply ![2048] _ _ (ix1 j) (ix1 k) fun a => by
    match a with
    | ⟨0, _⟩ => exact hk

/-- Gate 2's slice of the summed bias at `j` is the two biases' entries `4096 + j` added. -/
theorem V_main_v7_apply (c : Dev nD) (j : Fin 2048) (k : Fin 8192) (hk : k.val = 4096 + j.val) :
    (V m c main_v7 : S2048.Idx → EReal) (ix1 j) = A5 m c (ix1 k) + A7 m c (ix1 k) := by
  have e : @Eq (S2048.Idx → EReal) (V m c main_v7)
      (extractStridedSlice (α := EReal) S2048 ![4096] (addf (F := Ideal) (s := S8192) (φ := .f32) (A5 m c) (A7 m c)) Facts₀.slices_S8192_S2048_4096) := by
    dsimp only [V, hostOps0]; after_results
  rw [e]
  exact extractStridedSlice_apply ![4096] _ _ (ix1 j) (ix1 k) fun a => by
    match a with
    | ⟨0, _⟩ => exact hk

/-- Gate 3's slice of the summed bias at `j` is the two biases' entries `6144 + j` added. -/
theorem V_main_v8_apply (c : Dev nD) (j : Fin 2048) (k : Fin 8192) (hk : k.val = 6144 + j.val) :
    (V m c main_v8 : S2048.Idx → EReal) (ix1 j) = A5 m c (ix1 k) + A7 m c (ix1 k) := by
  have e : @Eq (S2048.Idx → EReal) (V m c main_v8)
      (extractStridedSlice (α := EReal) S2048 ![6144] (addf (F := Ideal) (s := S8192) (φ := .f32) (A5 m c) (A7 m c)) Facts₀.slices_S8192_S2048_6144) := by
    dsimp only [V, hostOps0]; after_results
  rw [e]
  exact extractStridedSlice_apply ![6144] _ _ (ix1 j) (ix1 k) fun a => by
    match a with
    | ⟨0, _⟩ => exact hk

/-! ## Each input window's block, entry by entry -/

/-- Window 0: the left hidden state's rows of row block `t / 32`, contracted entries of block `t % 8`. -/
theorem blk0 (c : Dev nD) (t : Fin cfg0.N) (p : Fin 1024) (k : Fin 256) :
    (iblk m c 0 t : S1024x256.Idx → EReal) (ix2 p k) = A1 m c (ix2 (rowAt t p) (redAt t k)) := by
  unfold iblk
  rw [View.read_apply]
  show (V m c main_v2 : S4096x2048.Idx → EReal) _ = _
  rw [V_main_v2]
  refine congrArg _ ?_
  funext a; apply Fin.ext
  obtain ⟨e0, e1⟩ := idx_w0 t
  match a with
  | ⟨0, _⟩ => show win0_0.index t (0 : Fin 2) * 1024 + 1 * p.val = 1024 * (t.val / 32) + p.val; rw [e0]; omega
  | ⟨1, _⟩ => show win0_0.index t (1 : Fin 2) * 256 + 1 * k.val = 256 * (t.val % 8) + k.val; rw [e1]; omega

/-- Window 1: the right hidden state's rows of row block `t / 32`, contracted entries of block `t % 8`. -/
theorem blk1 (c : Dev nD) (t : Fin cfg0.N) (p : Fin 1024) (k : Fin 256) :
    (iblk m c 1 t : S1024x256.Idx → EReal) (ix2 p k) = A3 m c (ix2 (rowAt t p) (redAt t k)) := by
  unfold iblk
  rw [View.read_apply]
  show (V m c main_v3 : S4096x2048.Idx → EReal) _ = _
  rw [V_main_v3]
  refine congrArg _ ?_
  funext a; apply Fin.ext
  obtain ⟨e0, e1⟩ := idx_w1 t
  match a with
  | ⟨0, _⟩ => show win0_1.index t (0 : Fin 2) * 1024 + 1 * p.val = 1024 * (t.val / 32) + p.val; rw [e0]; omega
  | ⟨1, _⟩ => show win0_1.index t (1 : Fin 2) * 256 + 1 * k.val = 256 * (t.val % 8) + k.val; rw [e1]; omega

/-- Window 2: the left weights' contracted entries of block `t % 8`, gate 0's columns of column block `t / 8 % 4`. -/
theorem blk2 (c : Dev nD) (t : Fin cfg0.N) (k : Fin 256) (q : Fin 512) :
    (iblk m c 2 t : S256x512.Idx → EReal) (ix2 k q) = A4 m c (ix2 (redAt t k) (gcolAt 0 t q)) := by
  unfold iblk
  rw [View.read_apply]
  show (V m c main_v0 : S2048x8192.Idx → EReal) _ = _
  rw [V_main_v0]
  refine congrArg _ ?_
  funext a; apply Fin.ext
  obtain ⟨e0, e1⟩ := idx_w2 t
  match a with
  | ⟨0, _⟩ => show win0_2.index t (0 : Fin 2) * 256 + 1 * k.val = 256 * (t.val % 8) + k.val; rw [e0]; omega
  | ⟨1, _⟩ => show win0_2.index t (1 : Fin 2) * 512 + 1 * q.val = 2048 * 0 + 512 * (t.val / 8 % 4) + q.val; rw [e1]; omega

/-- Window 3: the left weights' contracted entries of block `t % 8`, gate 1's columns of column block `t / 8 % 4`. -/
theorem blk3 (c : Dev nD) (t : Fin cfg0.N) (k : Fin 256) (q : Fin 512) :
    (iblk m c 3 t : S256x512.Idx → EReal) (ix2 k q) = A4 m c (ix2 (redAt t k) (gcolAt 1 t q)) := by
  unfold iblk
  rw [View.read_apply]
  show (V m c main_v0 : S2048x8192.Idx → EReal) _ = _
  rw [V_main_v0]
  refine congrArg _ ?_
  funext a; apply Fin.ext
  obtain ⟨e0, e1⟩ := idx_w3 t
  match a with
  | ⟨0, _⟩ => show win0_3.index t (0 : Fin 2) * 256 + 1 * k.val = 256 * (t.val % 8) + k.val; rw [e0]; omega
  | ⟨1, _⟩ => show win0_3.index t (1 : Fin 2) * 512 + 1 * q.val = 2048 * 1 + 512 * (t.val / 8 % 4) + q.val; rw [e1]; omega

/-- Window 4: the left weights' contracted entries of block `t % 8`, gate 2's columns of column block `t / 8 % 4`. -/
theorem blk4 (c : Dev nD) (t : Fin cfg0.N) (k : Fin 256) (q : Fin 512) :
    (iblk m c 4 t : S256x512.Idx → EReal) (ix2 k q) = A4 m c (ix2 (redAt t k) (gcolAt 2 t q)) := by
  unfold iblk
  rw [View.read_apply]
  show (V m c main_v0 : S2048x8192.Idx → EReal) _ = _
  rw [V_main_v0]
  refine congrArg _ ?_
  funext a; apply Fin.ext
  obtain ⟨e0, e1⟩ := idx_w4 t
  match a with
  | ⟨0, _⟩ => show win0_4.index t (0 : Fin 2) * 256 + 1 * k.val = 256 * (t.val % 8) + k.val; rw [e0]; omega
  | ⟨1, _⟩ => show win0_4.index t (1 : Fin 2) * 512 + 1 * q.val = 2048 * 2 + 512 * (t.val / 8 % 4) + q.val; rw [e1]; omega

/-- Window 5: the left weights' contracted entries of block `t % 8`, gate 3's columns of column block `t / 8 % 4`. -/
theorem blk5 (c : Dev nD) (t : Fin cfg0.N) (k : Fin 256) (q : Fin 512) :
    (iblk m c 5 t : S256x512.Idx → EReal) (ix2 k q) = A4 m c (ix2 (redAt t k) (gcolAt 3 t q)) := by
  unfold iblk
  rw [View.read_apply]
  show (V m c main_v0 : S2048x8192.Idx → EReal) _ = _
  rw [V_main_v0]
  refine congrArg _ ?_
  funext a; apply Fin.ext
  obtain ⟨e0, e1⟩ := idx_w5 t
  match a with
  | ⟨0, _⟩ => show win0_5.index t (0 : Fin 2) * 256 + 1 * k.val = 256 * (t.val % 8) + k.val; rw [e0]; omega
  | ⟨1, _⟩ => show win0_5.index t (1 : Fin 2) * 512 + 1 * q.val = 2048 * 3 + 512 * (t.val / 8 % 4) + q.val; rw [e1]; omega

/-- Window 6: the right weights' contracted entries of block `t % 8`, gate 0's columns of column block `t / 8 % 4`. -/
theorem blk6 (c : Dev nD) (t : Fin cfg0.N) (k : Fin 256) (q : Fin 512) :
    (iblk m c 6 t : S256x512.Idx → EReal) (ix2 k q) = A6 m c (ix2 (redAt t k) (gcolAt 0 t q)) := by
  unfold iblk
  rw [View.read_apply]
  show (V m c main_v1 : S2048x8192.Idx → EReal) _ = _
  rw [V_main_v1]
  refine congrArg _ ?_
  funext a; apply Fin.ext
  obtain ⟨e0, e1⟩ := idx_w6 t
  match a with
  | ⟨0, _⟩ => show win0_6.index t (0 : Fin 2) * 256 + 1 * k.val = 256 * (t.val % 8) + k.val; rw [e0]; omega
  | ⟨1, _⟩ => show win0_6.index t (1 : Fin 2) * 512 + 1 * q.val = 2048 * 0 + 512 * (t.val / 8 % 4) + q.val; rw [e1]; omega

/-- Window 7: the right weights' contracted entries of block `t % 8`, gate 1's columns of column block `t / 8 % 4`. -/
theorem blk7 (c : Dev nD) (t : Fin cfg0.N) (k : Fin 256) (q : Fin 512) :
    (iblk m c 7 t : S256x512.Idx → EReal) (ix2 k q) = A6 m c (ix2 (redAt t k) (gcolAt 1 t q)) := by
  unfold iblk
  rw [View.read_apply]
  show (V m c main_v1 : S2048x8192.Idx → EReal) _ = _
  rw [V_main_v1]
  refine congrArg _ ?_
  funext a; apply Fin.ext
  obtain ⟨e0, e1⟩ := idx_w7 t
  match a with
  | ⟨0, _⟩ => show win0_7.index t (0 : Fin 2) * 256 + 1 * k.val = 256 * (t.val % 8) + k.val; rw [e0]; omega
  | ⟨1, _⟩ => show win0_7.index t (1 : Fin 2) * 512 + 1 * q.val = 2048 * 1 + 512 * (t.val / 8 % 4) + q.val; rw [e1]; omega

/-- Window 8: the right weights' contracted entries of block `t % 8`, gate 2's columns of column block `t / 8 % 4`. -/
theorem blk8 (c : Dev nD) (t : Fin cfg0.N) (k : Fin 256) (q : Fin 512) :
    (iblk m c 8 t : S256x512.Idx → EReal) (ix2 k q) = A6 m c (ix2 (redAt t k) (gcolAt 2 t q)) := by
  unfold iblk
  rw [View.read_apply]
  show (V m c main_v1 : S2048x8192.Idx → EReal) _ = _
  rw [V_main_v1]
  refine congrArg _ ?_
  funext a; apply Fin.ext
  obtain ⟨e0, e1⟩ := idx_w8 t
  match a with
  | ⟨0, _⟩ => show win0_8.index t (0 : Fin 2) * 256 + 1 * k.val = 256 * (t.val % 8) + k.val; rw [e0]; omega
  | ⟨1, _⟩ => show win0_8.index t (1 : Fin 2) * 512 + 1 * q.val = 2048 * 2 + 512 * (t.val / 8 % 4) + q.val; rw [e1]; omega

/-- Window 9: the right weights' contracted entries of block `t % 8`, gate 3's columns of column block `t / 8 % 4`. -/
theorem blk9 (c : Dev nD) (t : Fin cfg0.N) (k : Fin 256) (q : Fin 512) :
    (iblk m c 9 t : S256x512.Idx → EReal) (ix2 k q) = A6 m c (ix2 (redAt t k) (gcolAt 3 t q)) := by
  unfold iblk
  rw [View.read_apply]
  show (V m c main_v1 : S2048x8192.Idx → EReal) _ = _
  rw [V_main_v1]
  refine congrArg _ ?_
  funext a; apply Fin.ext
  obtain ⟨e0, e1⟩ := idx_w9 t
  match a with
  | ⟨0, _⟩ => show win0_9.index t (0 : Fin 2) * 256 + 1 * k.val = 256 * (t.val % 8) + k.val; rw [e0]; omega
  | ⟨1, _⟩ => show win0_9.index t (1 : Fin 2) * 512 + 1 * q.val = 2048 * 3 + 512 * (t.val / 8 % 4) + q.val; rw [e1]; omega

/-- Window 10: gate 0's summed bias on the columns of column block `t / 8 % 4`. -/
theorem blk10 (c : Dev nD) (t : Fin cfg0.N) (q : Fin 512) :
    (iblk m c 10 t : S512.Idx → EReal) (ix1 q) = A5 m c (ix1 (gcolAt 0 t q)) + A7 m c (ix1 (gcolAt 0 t q)) := by
  unfold iblk
  rw [View.read_apply]
  show (V m c main_v5 : S2048.Idx → EReal) _ = _
  have he : ((cfg0.win 10).blk t).view.emb (ix1 q) = (ix1 (colAt t q) : S2048.Idx) := by
    funext a; apply Fin.ext
    have e0 := idx_w10 t
    match a with
    | ⟨0, _⟩ => show win0_10.index t (0 : Fin 1) * 512 + 1 * q.val = 512 * (t.val / 8 % 4) + q.val; rw [e0]; omega
  refine (congrArg (V m c main_v5 : S2048.Idx → EReal) he).trans ?_
  exact V_main_v5_apply m c (colAt t q) (gcolAt 0 t q) (by show 2048 * 0 + 512 * (t.val / 8 % 4) + q.val = 0 + (512 * (t.val / 8 % 4) + q.val); omega)

/-- Window 11: gate 1's summed bias on the columns of column block `t / 8 % 4`. -/
theorem blk11 (c : Dev nD) (t : Fin cfg0.N) (q : Fin 512) :
    (iblk m c 11 t : S512.Idx → EReal) (ix1 q) = A5 m c (ix1 (gcolAt 1 t q)) + A7 m c (ix1 (gcolAt 1 t q)) := by
  unfold iblk
  rw [View.read_apply]
  show (V m c main_v6 : S2048.Idx → EReal) _ = _
  have he : ((cfg0.win 11).blk t).view.emb (ix1 q) = (ix1 (colAt t q) : S2048.Idx) := by
    funext a; apply Fin.ext
    have e0 := idx_w11 t
    match a with
    | ⟨0, _⟩ => show win0_11.index t (0 : Fin 1) * 512 + 1 * q.val = 512 * (t.val / 8 % 4) + q.val; rw [e0]; omega
  refine (congrArg (V m c main_v6 : S2048.Idx → EReal) he).trans ?_
  exact V_main_v6_apply m c (colAt t q) (gcolAt 1 t q) (by show 2048 * 1 + 512 * (t.val / 8 % 4) + q.val = 2048 + (512 * (t.val / 8 % 4) + q.val); omega)

/-- Window 12: gate 2's summed bias on the columns of column block `t / 8 % 4`. -/
theorem blk12 (c : Dev nD) (t : Fin cfg0.N) (q : Fin 512) :
    (iblk m c 12 t : S512.Idx → EReal) (ix1 q) = A5 m c (ix1 (gcolAt 2 t q)) + A7 m c (ix1 (gcolAt 2 t q)) := by
  unfold iblk
  rw [View.read_apply]
  show (V m c main_v7 : S2048.Idx → EReal) _ = _
  have he : ((cfg0.win 12).blk t).view.emb (ix1 q) = (ix1 (colAt t q) : S2048.Idx) := by
    funext a; apply Fin.ext
    have e0 := idx_w12 t
    match a with
    | ⟨0, _⟩ => show win0_12.index t (0 : Fin 1) * 512 + 1 * q.val = 512 * (t.val / 8 % 4) + q.val; rw [e0]; omega
  refine (congrArg (V m c main_v7 : S2048.Idx → EReal) he).trans ?_
  exact V_main_v7_apply m c (colAt t q) (gcolAt 2 t q) (by show 2048 * 2 + 512 * (t.val / 8 % 4) + q.val = 4096 + (512 * (t.val / 8 % 4) + q.val); omega)

/-- Window 13: gate 3's summed bias on the columns of column block `t / 8 % 4`. -/
theorem blk13 (c : Dev nD) (t : Fin cfg0.N) (q : Fin 512) :
    (iblk m c 13 t : S512.Idx → EReal) (ix1 q) = A5 m c (ix1 (gcolAt 3 t q)) + A7 m c (ix1 (gcolAt 3 t q)) := by
  unfold iblk
  rw [View.read_apply]
  show (V m c main_v8 : S2048.Idx → EReal) _ = _
  have he : ((cfg0.win 13).blk t).view.emb (ix1 q) = (ix1 (colAt t q) : S2048.Idx) := by
    funext a; apply Fin.ext
    have e0 := idx_w13 t
    match a with
    | ⟨0, _⟩ => show win0_13.index t (0 : Fin 1) * 512 + 1 * q.val = 512 * (t.val / 8 % 4) + q.val; rw [e0]; omega
  refine (congrArg (V m c main_v8 : S2048.Idx → EReal) he).trans ?_
  exact V_main_v8_apply m c (colAt t q) (gcolAt 3 t q) (by show 2048 * 3 + 512 * (t.val / 8 % 4) + q.val = 6144 + (512 * (t.val / 8 % 4) + q.val); omega)

/-- Window 14: the left cell state's rows of row block `t / 32`, columns of column block `t / 8 % 4`. -/
theorem blk14 (c : Dev nD) (t : Fin cfg0.N) (p : Fin 1024) (q : Fin 512) :
    (iblk m c 14 t : S1024x512.Idx → EReal) (ix2 p q) = A0 m c (ix2 (rowAt t p) (colAt t q)) := by
  unfold iblk
  rw [View.read_apply]
  show (V m c main_arg0 : S4096x2048.Idx → EReal) _ = _
  rw [V_main_arg0]
  refine congrArg _ ?_
  funext a; apply Fin.ext
  obtain ⟨e0, e1⟩ := idx_w14 t
  match a with
  | ⟨0, _⟩ => show win0_14.index t (0 : Fin 2) * 1024 + 1 * p.val = 1024 * (t.val / 32) + p.val; rw [e0]; omega
  | ⟨1, _⟩ => show win0_14.index t (1 : Fin 2) * 512 + 1 * q.val = 512 * (t.val / 8 % 4) + q.val; rw [e1]; omega

/-- Window 15: the right cell state's rows of row block `t / 32`, columns of column block `t / 8 % 4`. -/
theorem blk15 (c : Dev nD) (t : Fin cfg0.N) (p : Fin 1024) (q : Fin 512) :
    (iblk m c 15 t : S1024x512.Idx → EReal) (ix2 p q) = A2 m c (ix2 (rowAt t p) (colAt t q)) := by
  unfold iblk
  rw [View.read_apply]
  show (V m c main_arg2 : S4096x2048.Idx → EReal) _ = _
  rw [V_main_arg2]
  refine congrArg _ ?_
  funext a; apply Fin.ext
  obtain ⟨e0, e1⟩ := idx_w15 t
  match a with
  | ⟨0, _⟩ => show win0_15.index t (0 : Fin 2) * 1024 + 1 * p.val = 1024 * (t.val / 32) + p.val; rw [e0]; omega
  | ⟨1, _⟩ => show win0_15.index t (1 : Fin 2) * 512 + 1 * q.val = 512 * (t.val / 8 % 4) + q.val; rw [e1]; omega

/-! ## The two output arrays from their blocks -/

/-- The point of the last contraction step whose block holds entry `(r, j)`. -/
theorem exists_last_pt (r : Fin 4096) (j : Fin 2048) : ∃ t : Fin cfg0.N, t.val = (r.val / 1024 * 4 + j.val / 512) * 8 + 7 :=
  ⟨⟨(r.val / 1024 * 4 + j.val / 512) * 8 + 7, by rw [show cfg0.N = 128 from N_0]; omega⟩, rfl⟩

/-- The first output array after the run is any `G` whose 1024×512 blocks the points of the last contraction step
    (`t % 8 = 7`, the only ones that write back) leave in the output's staging buffer: those blocks tile the array. -/
theorem final16_of {c : Dev nD} (dat : Dat τ (Elt Ideal) Unit ℕ (UR sig nD τ) ℕ cfg0 c) (G : S4096x2048.Idx → EReal)
    (hG : ∀ t : Fin cfg0.N, t.val % 8 = 7 → ∀ (p : Fin 1024) (q : Fin 512),
      (dat.after 16 t : S1024x512.Idx → EReal) (ix2 p q) = G (ix2 (rowAt t p) (colAt t q))) :
    dat.arrAt 16 cfg0.N = G := by
  refine dat.arrAt_eq_of_cover 16 G (fun t hf => ?_) (fun i => ?_)
  · have h7 := (flush0_16 t).mp hf
    obtain ⟨e0, e1⟩ := idx_w16 t
    funext j
    rw [View.read_apply]
    show (dat.after 16 t : S1024x512.Idx → EReal) j = G (((cfg0.win 16).blk t).view.emb j)
    obtain ⟨p, q, rfl⟩ : ∃ (p : Fin 1024) (q : Fin 512), j = ix2 p q := ⟨j 0, j 1, eq_ix2 j⟩
    rw [hG t h7 p q]
    refine congrArg G ?_
    funext a; apply Fin.ext
    match a with
    | ⟨0, _⟩ => show 1024 * (t.val / 32) + p.val = win0_16.index t (0 : Fin 2) * 1024 + 1 * p.val; rw [e0]; omega
    | ⟨1, _⟩ => show 512 * (t.val / 8 % 4) + q.val = win0_16.index t (1 : Fin 2) * 512 + 1 * q.val; rw [e1]; omega
  · have hr : ((i : S4096x2048.Idx) 0).val < 4096 := idx2_lt0 (i : S4096x2048.Idx)
    have hj : ((i : S4096x2048.Idx) 1).val < 2048 := idx2_lt1 (i : S4096x2048.Idx)
    obtain ⟨t, ht⟩ := exists_last_pt ⟨_, hr⟩ ⟨_, hj⟩
    obtain ⟨e0, e1⟩ := idx_w16 t
    refine ⟨t, (flush0_16 t).mpr (by rw [ht]; omega), ?_⟩
    show i ∈ ((View.whole main_v9_0).slice (win0_16.rect t)).set
    rw [View.set_slice_whole, Rect.mem_set_unit]
    intro a
    match a with
    | ⟨0, _⟩ => show win0_16.index t (0 : Fin 2) * 1024 ≤ ((i : S4096x2048.Idx) 0).val ∧ ((i : S4096x2048.Idx) 0).val < win0_16.index t (0 : Fin 2) * 1024 + 1024
                rw [e0, ht]; dsimp only; omega
    | ⟨1, _⟩ => show win0_16.index t (1 : Fin 2) * 512 ≤ ((i : S4096x2048.Idx) 1).val ∧ ((i : S4096x2048.Idx) 1).val < win0_16.index t (1 : Fin 2) * 512 + 512
                rw [e1, ht]; dsimp only; omega

/-- The second output array after the run is any `G` whose 1024×512 blocks the points of the last contraction step
    (`t % 8 = 7`, the only ones that write back) leave in the output's staging buffer: those blocks tile the array. -/
theorem final17_of {c : Dev nD} (dat : Dat τ (Elt Ideal) Unit ℕ (UR sig nD τ) ℕ cfg0 c) (G : S4096x2048.Idx → EReal)
    (hG : ∀ t : Fin cfg0.N, t.val % 8 = 7 → ∀ (p : Fin 1024) (q : Fin 512),
      (dat.after 17 t : S1024x512.Idx → EReal) (ix2 p q) = G (ix2 (rowAt t p) (colAt t q))) :
    dat.arrAt 17 cfg0.N = G := by
  refine dat.arrAt_eq_of_cover 17 G (fun t hf => ?_) (fun i => ?_)
  · have h7 := (flush0_17 t).mp hf
    obtain ⟨e0, e1⟩ := idx_w17 t
    funext j
    rw [View.read_apply]
    show (dat.after 17 t : S1024x512.Idx → EReal) j = G (((cfg0.win 17).blk t).view.emb j)
    obtain ⟨p, q, rfl⟩ : ∃ (p : Fin 1024) (q : Fin 512), j = ix2 p q := ⟨j 0, j 1, eq_ix2 j⟩
    rw [hG t h7 p q]
    refine congrArg G ?_
    funext a; apply Fin.ext
    match a with
    | ⟨0, _⟩ => show 1024 * (t.val / 32) + p.val = win0_17.index t (0 : Fin 2) * 1024 + 1 * p.val; rw [e0]; omega
    | ⟨1, _⟩ => show 512 * (t.val / 8 % 4) + q.val = win0_17.index t (1 : Fin 2) * 512 + 1 * q.val; rw [e1]; omega
  · have hr : ((i : S4096x2048.Idx) 0).val < 4096 := idx2_lt0 (i : S4096x2048.Idx)
    have hj : ((i : S4096x2048.Idx) 1).val < 2048 := idx2_lt1 (i : S4096x2048.Idx)
    obtain ⟨t, ht⟩ := exists_last_pt ⟨_, hr⟩ ⟨_, hj⟩
    obtain ⟨e0, e1⟩ := idx_w17 t
    refine ⟨t, (flush0_17 t).mpr (by rw [ht]; omega), ?_⟩
    show i ∈ ((View.whole main_v9_1).slice (win0_17.rect t)).set
    rw [View.set_slice_whole, Rect.mem_set_unit]
    intro a
    match a with
    | ⟨0, _⟩ => show win0_17.index t (0 : Fin 2) * 1024 ≤ ((i : S4096x2048.Idx) 0).val ∧ ((i : S4096x2048.Idx) 0).val < win0_17.index t (0 : Fin 2) * 1024 + 1024
                rw [e0, ht]; dsimp only; omega
    | ⟨1, _⟩ => show win0_17.index t (1 : Fin 2) * 512 ≤ ((i : S4096x2048.Idx) 1).val ∧ ((i : S4096x2048.Idx) 1).val < win0_17.index t (1 : Fin 2) * 512 + 512
                rw [e1, ht]; dsimp only; omega

end Cert.KernelIdeal.Hand

end
-- ==== Proof.KI.Accum.lean ====
import proofs.«164712_j12180527251605_2_alg».proof.Proof.KI.Data
import proofs.«164712_j12180527251605_2_alg».proof.Proof.KI.Pieces
import proofs.«164712_j12180527251605_2_alg».proof.Proof.KI.Payload
import proofs.«164712_j12180527251605_2_alg».proof.Proof.KI.Blocks
import proofs.«164712_j12180527251605_2_alg».proof.Proof.Spec

/-! # The accumulation over the reduction steps

A point of the 4×4×8 grid is `t = 32·i + 8·d + k`: row tile `i`, unit tile `d`, reduction step `k`. Over the eight
consecutive points of one output tile the four accumulators start from zero and each step adds the step's two
products over its 256 contraction positions, so after step `k` accumulator `g` holds, at row `1024·i + p` and unit
`512·d + qq`, the partial pre-activation `Cert.Spec.accum … k` of gate `g`'s column. At the last step the bias sum is
added and the gates applied: by `Cert.Spec.accum_pre` the gate arguments are the reference's pre-activations, so the two
stored tiles are the cell and hidden states. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The tile arithmetic -/

/-- the row of the fused arrays that row `p` of point `n`'s row tile is -/
def tR (n : ℕ) (hn : n < 128) (p : Fin 1024) : Fin 4096 := ⟨1024 * (n / 32) + p.val, by omega⟩
/-- the contraction position that position `cc` of point `n`'s reduction step is -/
def tK (n : ℕ) (cc : Fin 256) : Fin 2048 := ⟨256 * (n % 8) + cc.val, by omega⟩
/-- the unit that unit `qq` of point `n`'s unit tile is -/
def tJ (n : ℕ) (qq : Fin 512) : Fin 2048 := ⟨512 * (n / 8 % 4) + qq.val, by omega⟩
/-- gate `g`'s column of that unit in the fused `[·, 8192]` axis -/
def tQ (g : ℕ) (hg : g < 4) (n : ℕ) (qq : Fin 512) : Fin 8192 := ⟨2048 * g + 512 * (n / 8 % 4) + qq.val, by omega⟩

theorem tK_eq (n : ℕ) (cc : Fin 256) : tK n cc = Cert.Spec.kpos ⟨n % 8, Nat.mod_lt _ (by norm_num)⟩ cc := rfl
theorem tQ_eq (g : Fin 4) (n : ℕ) (qq : Fin 512) : tQ g.val g.isLt n qq = Cert.Spec.col g (tJ n qq) :=
  Fin.ext (show 2048 * g.val + 512 * (n / 8 % 4) + qq.val = 2048 * g.val + (512 * (n / 8 % 4) + qq.val) by omega)

/-! ## The recursion of the partial pre-activation, with the step number a variable -/

section Pure

variable (lc lh rc rh : Fin 4096 → Fin 2048 → EReal) (Wl Wr : Fin 2048 → Fin 8192 → EReal) (bl br : Fin 8192 → EReal)

theorem accum_first (k : ℕ) (hk : k < 8) (h0 : k = 0) (r : Fin 4096) (q : Fin 8192) :
    Cert.Spec.accum lh rh Wl Wr k hk r q = 0 + Cert.Spec.step lh rh Wl Wr ⟨k, hk⟩ r q := by
  subst h0; rfl

theorem accum_next (k : ℕ) (hk : k < 8) (h0 : k ≠ 0) (r : Fin 4096) (q : Fin 8192) :
    Cert.Spec.accum lh rh Wl Wr k hk r q
      = Cert.Spec.accum lh rh Wl Wr (k - 1) (by omega) r q + Cert.Spec.step lh rh Wl Wr ⟨k, hk⟩ r q := by
  cases k with
  | zero => exact absurd rfl h0
  | succ n => rfl

theorem accum_congr (k k' : ℕ) (hk : k < 8) (hk' : k' < 8) (h : k = k') (r r' : Fin 4096) (hr : r = r')
    (q q' : Fin 8192) (hq : q = q') :
    Cert.Spec.accum lh rh Wl Wr k hk r q = Cert.Spec.accum lh rh Wl Wr k' hk' r' q' := by
  subst h hr hq; rfl

/-- THE INVARIANT, abstractly: a family of values that starts each tile's first step at zero plus the step's term and
at every later step adds the step's term to the value of the point before is the partial pre-activation. -/
theorem accum_of_steps
    (acc : (n : ℕ) → n < 128 → Fin 4 → Fin 1024 → Fin 512 → EReal)
    (hA : ∀ (n : ℕ) (hn : n < 128), n % 8 = 0 → ∀ g p qq, acc n hn g p qq
        = 0 + Cert.Spec.step lh rh Wl Wr ⟨n % 8, Nat.mod_lt _ (by norm_num)⟩ (tR n hn p) (Cert.Spec.col g (tJ n qq)))
    (hB : ∀ (n : ℕ) (hn : n < 128), n % 8 ≠ 0 → n % 8 ≠ 7 → ∀ g p qq, acc n hn g p qq
        = acc (n - 1) (by omega) g p qq
          + Cert.Spec.step lh rh Wl Wr ⟨n % 8, Nat.mod_lt _ (by norm_num)⟩ (tR n hn p) (Cert.Spec.col g (tJ n qq))) :
    ∀ (n : ℕ) (hn : n < 128), n % 8 ≠ 7 → ∀ g p qq, acc n hn g p qq
        = Cert.Spec.accum lh rh Wl Wr (n % 8) (Nat.mod_lt _ (by norm_num)) (tR n hn p) (Cert.Spec.col g (tJ n qq)) := by
  intro n
  induction n using Nat.strong_induction_on with
  | _ n ih =>
    intro hn h7 g p qq
    by_cases h0 : n % 8 = 0
    · rw [hA n hn h0 g p qq, accum_first lh rh Wl Wr (n % 8) _ h0]
    · have hn1 : n - 1 < n := by omega
      have hn1' : n - 1 < 128 := by omega
      have h71 : (n - 1) % 8 ≠ 7 := by omega
      rw [hB n hn h0 h7 g p qq, ih (n - 1) hn1 hn1' h71 g p qq, accum_next lh rh Wl Wr (n % 8) _ h0]
      refine congrArg (· + _) ?_
      have e : (n - 1) % 8 = n % 8 - 1 := by omega
      have eR : tR (n - 1) hn1' p = tR n hn p :=
        Fin.ext (show 1024 * ((n - 1) / 32) + p.val = 1024 * (n / 32) + p.val by omega)
      have eJ : tJ (n - 1) qq = tJ n qq :=
        Fin.ext (show 512 * ((n - 1) / 8 % 4) + qq.val = 512 * (n / 8 % 4) + qq.val by omega)
      exact accum_congr lh rh Wl Wr _ _ _ _ e _ _ eR _ _ (congrArg _ eJ)

/-- At a tile's last step: what the point before left plus the last step's term, plus the two biases, is the
reference's pre-activation. -/
theorem pre_of_last (n : ℕ) (hn : n < 128) (h7 : n % 8 = 7) (r : Fin 4096) (q : Fin 8192) (x : EReal)
    (hx : x = Cert.Spec.accum lh rh Wl Wr ((n - 1) % 8) (Nat.mod_lt _ (by norm_num)) r q) :
    (x + Cert.Spec.step lh rh Wl Wr ⟨n % 8, Nat.mod_lt _ (by norm_num)⟩ r q) + (bl q + br q)
      = Cert.Spec.pre lh rh Wl Wr bl br r q := by
  rw [hx, ← Cert.Spec.accum_pre lh rh Wl Wr bl br r q]
  refine congrArg (· + _) ?_
  have hk0 : n % 8 ≠ 0 := by omega
  have e : n % 8 - 1 = (n - 1) % 8 := by omega
  rw [accum_congr lh rh Wl Wr 7 (n % 8) (by omega) (Nat.mod_lt _ (by norm_num)) h7.symm r r rfl q q rfl,
    accum_next lh rh Wl Wr (n % 8) _ hk0]
  refine congrArg (· + _) ?_
  exact accum_congr lh rh Wl Wr _ _ _ _ e.symm _ _ rfl _ _ rfl

end Pure

/-! ## One step's two products, from the step's four blocks -/

/-- the two products a step adds at row `p`, unit `qq` of the tile: each over the step's 256 contraction positions -/
def kstep (x0 x1 : Vec Ideal S1024x256 .bf16) (wl wr : Vec Ideal S256x512 .bf16) (p : Fin 1024) (qq : Fin 512) : EReal :=
  (∑ cc : Fin 256, x0 (ix2 p cc) * wl (ix2 cc qq)) + ∑ cc : Fin 256, x1 (ix2 p cc) * wr (ix2 cc qq)

/-- When the four blocks read the argument arrays at the step's positions, the two products are the step's term. -/
theorem kstep_eq (x0 x1 : Vec Ideal S1024x256 .bf16) (wl wr : Vec Ideal S256x512 .bf16)
    (lh rh : Fin 4096 → Fin 2048 → EReal) (Wl Wr : Fin 2048 → Fin 8192 → EReal)
    (p : Fin 1024) (qq : Fin 512) (R : Fin 4096) (k : Fin 8) (Q : Fin 8192)
    (h0 : ∀ cc : Fin 256, x0 (ix2 p cc) = lh R (Cert.Spec.kpos k cc))
    (h1 : ∀ cc : Fin 256, x1 (ix2 p cc) = rh R (Cert.Spec.kpos k cc))
    (hl : ∀ cc : Fin 256, wl (ix2 cc qq) = Wl (Cert.Spec.kpos k cc) Q)
    (hr : ∀ cc : Fin 256, wr (ix2 cc qq) = Wr (Cert.Spec.kpos k cc) Q) :
    kstep x0 x1 wl wr p qq = Cert.Spec.step lh rh Wl Wr k R Q := by
  unfold kstep Cert.Spec.step
  refine congrArg₂ (· + ·) (Finset.sum_congr rfl fun cc _ => ?_) (Finset.sum_congr rfl fun cc _ => ?_)
  · rw [h0, hl]
  · rw [h1, hr]

/-! ## The kernel's points -/

section Kernel

variable (m : (ℓ : Loc nD τ sig) → Buf (Elt Ideal) ℓ) (c : Dev nD)
variable (q : Fin cfg0.W → PosShare TreeShare)

theorem tlt (t : Fin cfg0.N) : t.val < 128 := lt_of_lt_of_eq t.isLt N_0
theorem ltN {n : ℕ} (hn : n < 128) : n < cfg0.N := lt_of_lt_of_eq hn N_0.symm

/-- the sixteen input blocks at a point, at their literal vector types -/
abbrev xb0 (t : Fin cfg0.N) : Vec Ideal S1024x256 .bf16 := iblk m c 0 t
abbrev xb1 (t : Fin cfg0.N) : Vec Ideal S1024x256 .bf16 := iblk m c 1 t
abbrev xb2 (t : Fin cfg0.N) : Vec Ideal S256x512 .bf16 := iblk m c 2 t
abbrev xb3 (t : Fin cfg0.N) : Vec Ideal S256x512 .bf16 := iblk m c 3 t
abbrev xb4 (t : Fin cfg0.N) : Vec Ideal S256x512 .bf16 := iblk m c 4 t
abbrev xb5 (t : Fin cfg0.N) : Vec Ideal S256x512 .bf16 := iblk m c 5 t
abbrev xb6 (t : Fin cfg0.N) : Vec Ideal S256x512 .bf16 := iblk m c 6 t
abbrev xb7 (t : Fin cfg0.N) : Vec Ideal S256x512 .bf16 := iblk m c 7 t
abbrev xb8 (t : Fin cfg0.N) : Vec Ideal S256x512 .bf16 := iblk m c 8 t
abbrev xb9 (t : Fin cfg0.N) : Vec Ideal S256x512 .bf16 := iblk m c 9 t
abbrev xb10 (t : Fin cfg0.N) : Vec Ideal S512 .f32 := iblk m c 10 t
abbrev xb11 (t : Fin cfg0.N) : Vec Ideal S512 .f32 := iblk m c 11 t
abbrev xb12 (t : Fin cfg0.N) : Vec Ideal S512 .f32 := iblk m c 12 t
abbrev xb13 (t : Fin cfg0.N) : Vec Ideal S512 .f32 := iblk m c 13 t
abbrev xb14 (t : Fin cfg0.N) : Vec Ideal S1024x512 .f32 := iblk m c 14 t
abbrev xb15 (t : Fin cfg0.N) : Vec Ideal S1024x512 .f32 := iblk m c 15 t

/-- accumulator `g` of the four -/
def accG (g : Fin 4) (xs : Vec Ideal S1024x512 .f32 × Vec Ideal S1024x512 .f32 × Vec Ideal S1024x512 .f32 × Vec Ideal S1024x512 .f32) : Vec Ideal S1024x512 .f32 :=
  match g with
  | ⟨0, _⟩ => xs.1
  | ⟨1, _⟩ => xs.2.1
  | ⟨2, _⟩ => xs.2.2.1
  | ⟨3, _⟩ => xs.2.2.2
/-- gate `g`'s left weight block at a point -/
def wlG (g : Fin 4) (t : Fin cfg0.N) : Vec Ideal S256x512 .bf16 :=
  match g with
  | ⟨0, _⟩ => xb2 m c t
  | ⟨1, _⟩ => xb3 m c t
  | ⟨2, _⟩ => xb4 m c t
  | ⟨3, _⟩ => xb5 m c t
/-- gate `g`'s right weight block at a point -/
def wrG (g : Fin 4) (t : Fin cfg0.N) : Vec Ideal S256x512 .bf16 :=
  match g with
  | ⟨0, _⟩ => xb6 m c t
  | ⟨1, _⟩ => xb7 m c t
  | ⟨2, _⟩ => xb8 m c t
  | ⟨3, _⟩ => xb9 m c t
/-- gate `g`'s bias block at a point -/
def bG (g : Fin 4) (t : Fin cfg0.N) : Vec Ideal S512 .f32 :=
  match g with
  | ⟨0, _⟩ => xb10 m c t
  | ⟨1, _⟩ => xb11 m c t
  | ⟨2, _⟩ => xb12 m c t
  | ⟨3, _⟩ => xb13 m c t

theorem accG_mk0 (h : 0 < 4) (a0 a1 a2 a3 : Vec Ideal S1024x512 .f32) : accG ⟨0, h⟩ (a0, a1, a2, a3) = a0 := rfl
theorem accG_mk1 (h : 1 < 4) (a0 a1 a2 a3 : Vec Ideal S1024x512 .f32) : accG ⟨1, h⟩ (a0, a1, a2, a3) = a1 := rfl
theorem accG_mk2 (h : 2 < 4) (a0 a1 a2 a3 : Vec Ideal S1024x512 .f32) : accG ⟨2, h⟩ (a0, a1, a2, a3) = a2 := rfl
theorem accG_mk3 (h : 3 < 4) (a0 a1 a2 a3 : Vec Ideal S1024x512 .f32) : accG ⟨3, h⟩ (a0, a1, a2, a3) = a3 := rfl

theorem stepC_fst (t : Fin cfg0.N) (h0 : ¬t.val % 8 = 0) (h1 : t.val % 8 = 7) (xs : Vec Ideal S1024x512 .f32 × Vec Ideal S1024x512 .f32 × Vec Ideal S1024x512 .f32 × Vec Ideal S1024x512 .f32) :
    (stepC m c t h0 h1 xs).1 = outC_16 m c t h0 h1 xs := by simp only [stepC]
theorem stepC_snd_fst (t : Fin cfg0.N) (h0 : ¬t.val % 8 = 0) (h1 : t.val % 8 = 7) (xs : Vec Ideal S1024x512 .f32 × Vec Ideal S1024x512 .f32 × Vec Ideal S1024x512 .f32 × Vec Ideal S1024x512 .f32) :
    (stepC m c t h0 h1 xs).2.1 = outC_17 m c t h0 h1 xs := by simp only [stepC]

end Kernel

/-! ## The induction over the points -/

section Main

variable (m : (ℓ : Loc nD τ sig) → Buf (Elt Ideal) ℓ) (c : Dev nD)
variable (q : Fin cfg0.W → PosShare TreeShare)
variable (A0 A1 A2 A3 : FVec Ideal Cert.Spec.SBD .f32) (A4 A6 : FVec Ideal Cert.Spec.SDG .f32) (A5 A7 : FVec Ideal Cert.Spec.SG .f32)
variable
  (hb0 : ∀ (t : Fin cfg0.N) (p : Fin 1024) (cc : Fin 256), xb0 m c t (ix2 p cc) = A1 (ix2 (tR t.val (tlt t) p) (tK t.val cc)))
  (hb1 : ∀ (t : Fin cfg0.N) (p : Fin 1024) (cc : Fin 256), xb1 m c t (ix2 p cc) = A3 (ix2 (tR t.val (tlt t) p) (tK t.val cc)))
  (hb2 : ∀ (t : Fin cfg0.N) (cc : Fin 256) (qq : Fin 512), xb2 m c t (ix2 cc qq) = A4 (ix2 (tK t.val cc) (tQ 0 (by norm_num) t.val qq)))
  (hb3 : ∀ (t : Fin cfg0.N) (cc : Fin 256) (qq : Fin 512), xb3 m c t (ix2 cc qq) = A4 (ix2 (tK t.val cc) (tQ 1 (by norm_num) t.val qq)))
  (hb4 : ∀ (t : Fin cfg0.N) (cc : Fin 256) (qq : Fin 512), xb4 m c t (ix2 cc qq) = A4 (ix2 (tK t.val cc) (tQ 2 (by norm_num) t.val qq)))
  (hb5 : ∀ (t : Fin cfg0.N) (cc : Fin 256) (qq : Fin 512), xb5 m c t (ix2 cc qq) = A4 (ix2 (tK t.val cc) (tQ 3 (by norm_num) t.val qq)))
  (hb6 : ∀ (t : Fin cfg0.N) (cc : Fin 256) (qq : Fin 512), xb6 m c t (ix2 cc qq) = A6 (ix2 (tK t.val cc) (tQ 0 (by norm_num) t.val qq)))
  (hb7 : ∀ (t : Fin cfg0.N) (cc : Fin 256) (qq : Fin 512), xb7 m c t (ix2 cc qq) = A6 (ix2 (tK t.val cc) (tQ 1 (by norm_num) t.val qq)))
  (hb8 : ∀ (t : Fin cfg0.N) (cc : Fin 256) (qq : Fin 512), xb8 m c t (ix2 cc qq) = A6 (ix2 (tK t.val cc) (tQ 2 (by norm_num) t.val qq)))
  (hb9 : ∀ (t : Fin cfg0.N) (cc : Fin 256) (qq : Fin 512), xb9 m c t (ix2 cc qq) = A6 (ix2 (tK t.val cc) (tQ 3 (by norm_num) t.val qq)))
  (hb10 : ∀ (t : Fin cfg0.N) (qq : Fin 512), xb10 m c t (ix1 qq) = A5 (ix1 (tQ 0 (by norm_num) t.val qq)) + A7 (ix1 (tQ 0 (by norm_num) t.val qq)))
  (hb11 : ∀ (t : Fin cfg0.N) (qq : Fin 512), xb11 m c t (ix1 qq) = A5 (ix1 (tQ 1 (by norm_num) t.val qq)) + A7 (ix1 (tQ 1 (by norm_num) t.val qq)))
  (hb12 : ∀ (t : Fin cfg0.N) (qq : Fin 512), xb12 m c t (ix1 qq) = A5 (ix1 (tQ 2 (by norm_num) t.val qq)) + A7 (ix1 (tQ 2 (by norm_num) t.val qq)))
  (hb13 : ∀ (t : Fin cfg0.N) (qq : Fin 512), xb13 m c t (ix1 qq) = A5 (ix1 (tQ 3 (by norm_num) t.val qq)) + A7 (ix1 (tQ 3 (by norm_num) t.val qq)))
  (hb14 : ∀ (t : Fin cfg0.N) (p : Fin 1024) (qq : Fin 512), xb14 m c t (ix2 p qq) = A0 (ix2 (tR t.val (tlt t) p) (tJ t.val qq)))
  (hb15 : ∀ (t : Fin cfg0.N) (p : Fin 1024) (qq : Fin 512), xb15 m c t (ix2 p qq) = A2 (ix2 (tR t.val (tlt t) p) (tJ t.val qq)))
  (EA0 : ∀ (t : Fin cfg0.N) (h0 : t.val % 8 = 0) (h1 : ¬t.val % 8 = 7) (p : Fin 1024) (qq : Fin 512),
    soutA_0 m c t h0 h1 (ix2 p qq) = 0 + kstep (xb0 m c t) (xb1 m c t) (xb2 m c t) (xb6 m c t) p qq)
  (EA1 : ∀ (t : Fin cfg0.N) (h0 : t.val % 8 = 0) (h1 : ¬t.val % 8 = 7) (p : Fin 1024) (qq : Fin 512),
    soutA_1 m c t h0 h1 (ix2 p qq) = 0 + kstep (xb0 m c t) (xb1 m c t) (xb3 m c t) (xb7 m c t) p qq)
  (EA2 : ∀ (t : Fin cfg0.N) (h0 : t.val % 8 = 0) (h1 : ¬t.val % 8 = 7) (p : Fin 1024) (qq : Fin 512),
    soutA_2 m c t h0 h1 (ix2 p qq) = 0 + kstep (xb0 m c t) (xb1 m c t) (xb4 m c t) (xb8 m c t) p qq)
  (EA3 : ∀ (t : Fin cfg0.N) (h0 : t.val % 8 = 0) (h1 : ¬t.val % 8 = 7) (p : Fin 1024) (qq : Fin 512),
    soutA_3 m c t h0 h1 (ix2 p qq) = 0 + kstep (xb0 m c t) (xb1 m c t) (xb5 m c t) (xb9 m c t) p qq)
  (EB0 : ∀ (t : Fin cfg0.N) (h0 : ¬t.val % 8 = 0) (h1 : ¬t.val % 8 = 7) (xs : Vec Ideal S1024x512 .f32 × Vec Ideal S1024x512 .f32 × Vec Ideal S1024x512 .f32 × Vec Ideal S1024x512 .f32) (p : Fin 1024) (qq : Fin 512),
    soutB_0 m c t h0 h1 xs (ix2 p qq) = xs.1 (ix2 p qq) + kstep (xb0 m c t) (xb1 m c t) (xb2 m c t) (xb6 m c t) p qq)
  (EB1 : ∀ (t : Fin cfg0.N) (h0 : ¬t.val % 8 = 0) (h1 : ¬t.val % 8 = 7) (xs : Vec Ideal S1024x512 .f32 × Vec Ideal S1024x512 .f32 × Vec Ideal S1024x512 .f32 × Vec Ideal S1024x512 .f32) (p : Fin 1024) (qq : Fin 512),
    soutB_1 m c t h0 h1 xs (ix2 p qq) = xs.2.1 (ix2 p qq) + kstep (xb0 m c t) (xb1 m c t) (xb3 m c t) (xb7 m c t) p qq)
  (EB2 : ∀ (t : Fin cfg0.N) (h0 : ¬t.val % 8 = 0) (h1 : ¬t.val % 8 = 7) (xs : Vec Ideal S1024x512 .f32 × Vec Ideal S1024x512 .f32 × Vec Ideal S1024x512 .f32 × Vec Ideal S1024x512 .f32) (p : Fin 1024) (qq : Fin 512),
    soutB_2 m c t h0 h1 xs (ix2 p qq) = xs.2.2.1 (ix2 p qq) + kstep (xb0 m c t) (xb1 m c t) (xb4 m c t) (xb8 m c t) p qq)
  (EB3 : ∀ (t : Fin cfg0.N) (h0 : ¬t.val % 8 = 0) (h1 : ¬t.val % 8 = 7) (xs : Vec Ideal S1024x512 .f32 × Vec Ideal S1024x512 .f32 × Vec Ideal S1024x512 .f32 × Vec Ideal S1024x512 .f32) (p : Fin 1024) (qq : Fin 512),
    soutB_3 m c t h0 h1 xs (ix2 p qq) = xs.2.2.2 (ix2 p qq) + kstep (xb0 m c t) (xb1 m c t) (xb5 m c t) (xb9 m c t) p qq)
  (EC16 : ∀ (t : Fin cfg0.N) (h0 : ¬t.val % 8 = 0) (h1 : t.val % 8 = 7) (xs : Vec Ideal S1024x512 .f32 × Vec Ideal S1024x512 .f32 × Vec Ideal S1024x512 .f32 × Vec Ideal S1024x512 .f32) (p : Fin 1024) (qq : Fin 512),
    outC_16 m c t h0 h1 xs (ix2 p qq)
      = (Cert.Spec.sig ((accG 0 xs (ix2 p qq) + kstep (xb0 m c t) (xb1 m c t) (wlG m c 0 t) (wrG m c 0 t) p qq) + bG m c 0 t (ix1 qq)) * Cert.Spec.th ((accG 3 xs (ix2 p qq) + kstep (xb0 m c t) (xb1 m c t) (wlG m c 3 t) (wrG m c 3 t) p qq) + bG m c 3 t (ix1 qq))
          + Cert.Spec.sig ((accG 1 xs (ix2 p qq) + kstep (xb0 m c t) (xb1 m c t) (wlG m c 1 t) (wrG m c 1 t) p qq) + bG m c 1 t (ix1 qq)) * xb14 m c t (ix2 p qq))
        + Cert.Spec.sig ((accG 2 xs (ix2 p qq) + kstep (xb0 m c t) (xb1 m c t) (wlG m c 2 t) (wrG m c 2 t) p qq) + bG m c 2 t (ix1 qq)) * xb15 m c t (ix2 p qq))
  (EC17 : ∀ (t : Fin cfg0.N) (h0 : ¬t.val % 8 = 0) (h1 : t.val % 8 = 7) (xs : Vec Ideal S1024x512 .f32 × Vec Ideal S1024x512 .f32 × Vec Ideal S1024x512 .f32 × Vec Ideal S1024x512 .f32) (p : Fin 1024) (qq : Fin 512),
    outC_17 m c t h0 h1 xs (ix2 p qq) = Cert.Spec.th (outC_16 m c t h0 h1 xs (ix2 p qq)))
  (hfin16 : ∀ (G : FVec Ideal Cert.Spec.SBD .f32), (∀ t : Fin cfg0.N, t.val % 8 = 7 → ∀ (p : Fin 1024) (qq : Fin 512),
      (dats m q 0 c).after 16 t (ix2 p qq) = G (ix2 (tR t.val (tlt t) p) (tJ t.val qq))) → (dats m q 0 c).arrAt 16 cfg0.N = G)
  (hfin17 : ∀ (G : FVec Ideal Cert.Spec.SBD .f32), (∀ t : Fin cfg0.N, t.val % 8 = 7 → ∀ (p : Fin 1024) (qq : Fin 512),
      (dats m q 0 c).after 17 t (ix2 p qq) = G (ix2 (tR t.val (tlt t) p) (tJ t.val qq))) → (dats m q 0 c).arrAt 17 cfg0.N = G)

include hb0 hb1 hb2 hb3 hb4 hb5 hb6 hb7 hb8 hb9 hb10 hb11 hb12 hb13 hb14 hb15 in
/-- gate `g`'s left weight block reads the left weights at the step's positions and the gate's column -/
theorem hbL (g : Fin 4) (t : Fin cfg0.N) (cc : Fin 256) (qq : Fin 512) :
    wlG m c g t (ix2 cc qq) = A4 (ix2 (tK t.val cc) (Cert.Spec.col g (tJ t.val qq))) := by
  rw [← tQ_eq]
  match g with
  | ⟨0, _⟩ => exact hb2 t cc qq
  | ⟨1, _⟩ => exact hb3 t cc qq
  | ⟨2, _⟩ => exact hb4 t cc qq
  | ⟨3, _⟩ => exact hb5 t cc qq

include hb0 hb1 hb2 hb3 hb4 hb5 hb6 hb7 hb8 hb9 hb10 hb11 hb12 hb13 hb14 hb15 in
theorem hbR (g : Fin 4) (t : Fin cfg0.N) (cc : Fin 256) (qq : Fin 512) :
    wrG m c g t (ix2 cc qq) = A6 (ix2 (tK t.val cc) (Cert.Spec.col g (tJ t.val qq))) := by
  rw [← tQ_eq]
  match g with
  | ⟨0, _⟩ => exact hb6 t cc qq
  | ⟨1, _⟩ => exact hb7 t cc qq
  | ⟨2, _⟩ => exact hb8 t cc qq
  | ⟨3, _⟩ => exact hb9 t cc qq

include hb0 hb1 hb2 hb3 hb4 hb5 hb6 hb7 hb8 hb9 hb10 hb11 hb12 hb13 hb14 hb15 in
theorem hbB (g : Fin 4) (t : Fin cfg0.N) (qq : Fin 512) :
    bG m c g t (ix1 qq) = A5 (ix1 (Cert.Spec.col g (tJ t.val qq))) + A7 (ix1 (Cert.Spec.col g (tJ t.val qq))) := by
  rw [← tQ_eq]
  match g with
  | ⟨0, _⟩ => exact hb10 t qq
  | ⟨1, _⟩ => exact hb11 t qq
  | ⟨2, _⟩ => exact hb12 t qq
  | ⟨3, _⟩ => exact hb13 t qq

include hb0 hb1 hb2 hb3 hb4 hb5 hb6 hb7 hb8 hb9 hb10 hb11 hb12 hb13 hb14 hb15 in
/-- The two products of gate `g` at a point are the step's term of the specification. -/
theorem step_at (g : Fin 4) (t : Fin cfg0.N) (p : Fin 1024) (qq : Fin 512) :
    kstep (xb0 m c t) (xb1 m c t) (wlG m c g t) (wrG m c g t) p qq
      = Cert.Spec.step (fun (r : Fin 4096) (j : Fin 2048) => A1 (ix2 r j)) (fun (r : Fin 4096) (j : Fin 2048) => A3 (ix2 r j)) (fun (a : Fin 2048) (b : Fin 8192) => A4 (ix2 a b)) (fun (a : Fin 2048) (b : Fin 8192) => A6 (ix2 a b)) ⟨t.val % 8, Nat.mod_lt _ (by norm_num)⟩ (tR t.val (tlt t) p) (Cert.Spec.col g (tJ t.val qq)) :=
  kstep_eq _ _ _ _ (fun (r : Fin 4096) (j : Fin 2048) => A1 (ix2 r j)) (fun (r : Fin 4096) (j : Fin 2048) => A3 (ix2 r j)) (fun (a : Fin 2048) (b : Fin 8192) => A4 (ix2 a b)) (fun (a : Fin 2048) (b : Fin 8192) => A6 (ix2 a b)) p qq _ _ _ (fun cc => hb0 t p cc) (fun cc => hb1 t p cc)
    (fun cc => hbL m c A0 A1 A2 A3 A4 A6 A5 A7 hb0 hb1 hb2 hb3 hb4 hb5 hb6 hb7 hb8 hb9 hb10 hb11 hb12 hb13 hb14 hb15 g t cc qq) (fun cc => hbR m c A0 A1 A2 A3 A4 A6 A5 A7 hb0 hb1 hb2 hb3 hb4 hb5 hb6 hb7 hb8 hb9 hb10 hb11 hb12 hb13 hb14 hb15 g t cc qq)

include EA0 EA1 EA2 EA3 EB0 EB1 EB2 EB3 EC16 EC17 in
/-- after a tile's first step accumulator `g` is zero plus the step's two products -/
theorem eA (g : Fin 4) (t : Fin cfg0.N) (h0 : t.val % 8 = 0) (h1 : ¬t.val % 8 = 7) (p : Fin 1024) (qq : Fin 512) :
    accG g (stepA m c t h0 h1).2.2 (ix2 p qq) = 0 + kstep (xb0 m c t) (xb1 m c t) (wlG m c g t) (wrG m c g t) p qq := by
  have e : (stepA m c t h0 h1).2.2
      = (soutA_0 m c t h0 h1, soutA_1 m c t h0 h1, soutA_2 m c t h0 h1, soutA_3 m c t h0 h1) := by unfold stepA; rfl
  rw [e]
  match g with
  | ⟨0, _⟩ => rw [accG_mk0]; exact EA0 t h0 h1 p qq
  | ⟨1, _⟩ => rw [accG_mk1]; exact EA1 t h0 h1 p qq
  | ⟨2, _⟩ => rw [accG_mk2]; exact EA2 t h0 h1 p qq
  | ⟨3, _⟩ => rw [accG_mk3]; exact EA3 t h0 h1 p qq

include EA0 EA1 EA2 EA3 EB0 EB1 EB2 EB3 EC16 EC17 in
/-- after a middle step accumulator `g` is what it held plus the step's two products -/
theorem eB (g : Fin 4) (t : Fin cfg0.N) (h0 : ¬t.val % 8 = 0) (h1 : ¬t.val % 8 = 7) (xs : Vec Ideal S1024x512 .f32 × Vec Ideal S1024x512 .f32 × Vec Ideal S1024x512 .f32 × Vec Ideal S1024x512 .f32) (p : Fin 1024) (qq : Fin 512) :
    accG g (stepB m c t h0 h1 xs).2.2 (ix2 p qq)
      = accG g xs (ix2 p qq) + kstep (xb0 m c t) (xb1 m c t) (wlG m c g t) (wrG m c g t) p qq := by
  have e : (stepB m c t h0 h1 xs).2.2
      = (soutB_0 m c t h0 h1 xs, soutB_1 m c t h0 h1 xs, soutB_2 m c t h0 h1 xs, soutB_3 m c t h0 h1 xs) := by
    unfold stepB; rfl
  rw [e]
  match g with
  | ⟨0, _⟩ => rw [accG_mk0]; exact EB0 t h0 h1 xs p qq
  | ⟨1, _⟩ => rw [accG_mk1]; exact EB1 t h0 h1 xs p qq
  | ⟨2, _⟩ => rw [accG_mk2]; exact EB2 t h0 h1 xs p qq
  | ⟨3, _⟩ => rw [accG_mk3]; exact EB3 t h0 h1 xs p qq

include hb0 hb1 hb2 hb3 hb4 hb5 hb6 hb7 hb8 hb9 hb10 hb11 hb12 hb13 hb14 hb15 EA0 EA1 EA2 EA3 EB0 EB1 EB2 EB3 EC16 EC17 in
/-- (I1) THE INVARIANT: away from a tile's last step, accumulator `g` after point `t` holds the partial pre-activation
of gate `g`'s column after step `t % 8`. -/
theorem inv1 (t : Fin cfg0.N) (h7 : t.val % 8 ≠ 7) (g : Fin 4) (p : Fin 1024) (qq : Fin 512) :
    accG g (outsAt0 m c t.val t.isLt).2.2 (ix2 p qq)
      = Cert.Spec.accum (fun (r : Fin 4096) (j : Fin 2048) => A1 (ix2 r j)) (fun (r : Fin 4096) (j : Fin 2048) => A3 (ix2 r j)) (fun (a : Fin 2048) (b : Fin 8192) => A4 (ix2 a b)) (fun (a : Fin 2048) (b : Fin 8192) => A6 (ix2 a b)) (t.val % 8) (Nat.mod_lt _ (by norm_num)) (tR t.val (tlt t) p) (Cert.Spec.col g (tJ t.val qq)) := by
  refine accum_of_steps (fun (r : Fin 4096) (j : Fin 2048) => A1 (ix2 r j)) (fun (r : Fin 4096) (j : Fin 2048) => A3 (ix2 r j)) (fun (a : Fin 2048) (b : Fin 8192) => A4 (ix2 a b)) (fun (a : Fin 2048) (b : Fin 8192) => A6 (ix2 a b))
    (fun n hn g p qq => accG g (outsAt0 m c n (ltN hn)).2.2 (ix2 p qq)) ?_ ?_ t.val (tlt t) h7 g p qq
  · intro n hn h0 g p qq
    have h1 : ¬n % 8 = 7 := by omega
    show accG g (outsAt0 m c n (ltN hn)).2.2 (ix2 p qq) = _
    rw [show outsAt0 m c n (ltN hn) = stepA m c ⟨n, ltN hn⟩ h0 h1 from outsAt0_A m c ⟨n, ltN hn⟩ h0 h1,
      eA m c EA0 EA1 EA2 EA3 EB0 EB1 EB2 EB3 EC16 EC17 g ⟨n, ltN hn⟩ h0 h1 p qq,
      step_at m c A0 A1 A2 A3 A4 A6 A5 A7 hb0 hb1 hb2 hb3 hb4 hb5 hb6 hb7 hb8 hb9 hb10 hb11 hb12 hb13 hb14 hb15 g ⟨n, ltN hn⟩ p qq]
  · intro n hn h0 h1 g p qq
    show accG g (outsAt0 m c n (ltN hn)).2.2 (ix2 p qq) = accG g (outsAt0 m c (n - 1) _).2.2 (ix2 p qq) + _
    rw [show outsAt0 m c n (ltN hn) = stepB m c ⟨n, ltN hn⟩ h0 h1 (outsAt0 m c (n - 1) _).2.2
        from outsAt0_B m c ⟨n, ltN hn⟩ h0 h1,
      eB m c EA0 EA1 EA2 EA3 EB0 EB1 EB2 EB3 EC16 EC17 g ⟨n, ltN hn⟩ h0 h1 _ p qq,
      step_at m c A0 A1 A2 A3 A4 A6 A5 A7 hb0 hb1 hb2 hb3 hb4 hb5 hb6 hb7 hb8 hb9 hb10 hb11 hb12 hb13 hb14 hb15 g ⟨n, ltN hn⟩ p qq]

include hb0 hb1 hb2 hb3 hb4 hb5 hb6 hb7 hb8 hb9 hb10 hb11 hb12 hb13 hb14 hb15 EA0 EA1 EA2 EA3 EB0 EB1 EB2 EB3 EC16 EC17 in
/-- At a tile's last step, what gate `g` is applied to — the accumulator the point before left, plus the step's two
products, plus the summed bias — is the reference's pre-activation at gate `g`'s column. -/
theorem gate_pre (t : Fin cfg0.N) (h7 : t.val % 8 = 7) (g : Fin 4) (p : Fin 1024) (qq : Fin 512) :
    (accG g (outsAt0 m c (t.val - 1) (Nat.lt_of_le_of_lt (Nat.sub_le _ _) t.isLt)).2.2 (ix2 p qq)
        + kstep (xb0 m c t) (xb1 m c t) (wlG m c g t) (wrG m c g t) p qq) + bG m c g t (ix1 qq)
      = Cert.Spec.pre (fun (r : Fin 4096) (j : Fin 2048) => A1 (ix2 r j)) (fun (r : Fin 4096) (j : Fin 2048) => A3 (ix2 r j)) (fun (a : Fin 2048) (b : Fin 8192) => A4 (ix2 a b)) (fun (a : Fin 2048) (b : Fin 8192) => A6 (ix2 a b)) (fun (b : Fin 8192) => A5 (ix1 b)) (fun (b : Fin 8192) => A7 (ix1 b)) (tR t.val (tlt t) p) (Cert.Spec.col g (tJ t.val qq)) := by
  rw [step_at m c A0 A1 A2 A3 A4 A6 A5 A7 hb0 hb1 hb2 hb3 hb4 hb5 hb6 hb7 hb8 hb9 hb10 hb11 hb12 hb13 hb14 hb15 g t p qq, hbB m c A0 A1 A2 A3 A4 A6 A5 A7 hb0 hb1 hb2 hb3 hb4 hb5 hb6 hb7 hb8 hb9 hb10 hb11 hb12 hb13 hb14 hb15 g t qq]
  refine pre_of_last (fun (r : Fin 4096) (j : Fin 2048) => A1 (ix2 r j)) (fun (r : Fin 4096) (j : Fin 2048) => A3 (ix2 r j)) (fun (a : Fin 2048) (b : Fin 8192) => A4 (ix2 a b)) (fun (a : Fin 2048) (b : Fin 8192) => A6 (ix2 a b)) (fun (b : Fin 8192) => A5 (ix1 b)) (fun (b : Fin 8192) => A7 (ix1 b)) t.val (tlt t) h7 _ _ _ ?_
  have hlt : t.val - 1 < cfg0.N := Nat.lt_of_le_of_lt (Nat.sub_le _ _) t.isLt
  have h71 : (t.val - 1) % 8 ≠ 7 := by omega
  have hlt' : t.val - 1 < 128 := lt_of_lt_of_eq hlt N_0
  refine (inv1 m c A0 A1 A2 A3 A4 A6 A5 A7 hb0 hb1 hb2 hb3 hb4 hb5 hb6 hb7 hb8 hb9 hb10 hb11 hb12 hb13 hb14 hb15 EA0 EA1 EA2 EA3 EB0 EB1 EB2 EB3 EC16 EC17 ⟨t.val - 1, hlt⟩ h71 g p qq).trans ?_
  have eR : tR (t.val - 1) hlt' p = tR t.val (tlt t) p :=
    Fin.ext (show 1024 * ((t.val - 1) / 32) + p.val = 1024 * (t.val / 32) + p.val by omega)
  have eJ : tJ (t.val - 1) qq = tJ t.val qq :=
    Fin.ext (show 512 * ((t.val - 1) / 8 % 4) + qq.val = 512 * (t.val / 8 % 4) + qq.val by omega)
  exact accum_congr (fun (r : Fin 4096) (j : Fin 2048) => A1 (ix2 r j)) (fun (r : Fin 4096) (j : Fin 2048) => A3 (ix2 r j)) (fun (a : Fin 2048) (b : Fin 8192) => A4 (ix2 a b)) (fun (a : Fin 2048) (b : Fin 8192) => A6 (ix2 a b)) _ _ _ _ rfl _ _ eR _ _ (congrArg _ eJ)

include hb0 hb1 hb2 hb3 hb4 hb5 hb6 hb7 hb8 hb9 hb10 hb11 hb12 hb13 hb14 hb15 EA0 EA1 EA2 EA3 EB0 EB1 EB2 EB3 EC16 EC17 in
/-- At a tile's last step the stored cell tile is the specification's cell state. -/
theorem cellC (t : Fin cfg0.N) (h0 : ¬t.val % 8 = 0) (h7 : t.val % 8 = 7) (p : Fin 1024) (qq : Fin 512) :
    outC_16 m c t h0 h7 (outsAt0 m c (t.val - 1) (Nat.lt_of_le_of_lt (Nat.sub_le _ _) t.isLt)).2.2 (ix2 p qq)
      = Cert.Spec.cell (fun (r : Fin 4096) (j : Fin 2048) => A0 (ix2 r j)) (fun (r : Fin 4096) (j : Fin 2048) => A1 (ix2 r j)) (fun (r : Fin 4096) (j : Fin 2048) => A2 (ix2 r j)) (fun (r : Fin 4096) (j : Fin 2048) => A3 (ix2 r j)) (fun (a : Fin 2048) (b : Fin 8192) => A4 (ix2 a b)) (fun (a : Fin 2048) (b : Fin 8192) => A6 (ix2 a b)) (fun (b : Fin 8192) => A5 (ix1 b)) (fun (b : Fin 8192) => A7 (ix1 b)) (tR t.val (tlt t) p) (tJ t.val qq) := by
  rw [EC16 t h0 h7 _ p qq, gate_pre m c A0 A1 A2 A3 A4 A6 A5 A7 hb0 hb1 hb2 hb3 hb4 hb5 hb6 hb7 hb8 hb9 hb10 hb11 hb12 hb13 hb14 hb15 EA0 EA1 EA2 EA3 EB0 EB1 EB2 EB3 EC16 EC17 t h7 0 p qq, gate_pre m c A0 A1 A2 A3 A4 A6 A5 A7 hb0 hb1 hb2 hb3 hb4 hb5 hb6 hb7 hb8 hb9 hb10 hb11 hb12 hb13 hb14 hb15 EA0 EA1 EA2 EA3 EB0 EB1 EB2 EB3 EC16 EC17 t h7 1 p qq,
    gate_pre m c A0 A1 A2 A3 A4 A6 A5 A7 hb0 hb1 hb2 hb3 hb4 hb5 hb6 hb7 hb8 hb9 hb10 hb11 hb12 hb13 hb14 hb15 EA0 EA1 EA2 EA3 EB0 EB1 EB2 EB3 EC16 EC17 t h7 2 p qq, gate_pre m c A0 A1 A2 A3 A4 A6 A5 A7 hb0 hb1 hb2 hb3 hb4 hb5 hb6 hb7 hb8 hb9 hb10 hb11 hb12 hb13 hb14 hb15 EA0 EA1 EA2 EA3 EB0 EB1 EB2 EB3 EC16 EC17 t h7 3 p qq, hb14 t p qq, hb15 t p qq]
  rfl

include hb0 hb1 hb2 hb3 hb4 hb5 hb6 hb7 hb8 hb9 hb10 hb11 hb12 hb13 hb14 hb15 EA0 EA1 EA2 EA3 EB0 EB1 EB2 EB3 EC16 EC17 in
/-- (I2) at a tile's last step the first output's tile is the cell state -/
theorem inv2_cell (t : Fin cfg0.N) (h7 : t.val % 8 = 7) (p : Fin 1024) (qq : Fin 512) :
    (outsAt0 m c t.val t.isLt).1 (ix2 p qq) = Cert.Spec.cell (fun (r : Fin 4096) (j : Fin 2048) => A0 (ix2 r j)) (fun (r : Fin 4096) (j : Fin 2048) => A1 (ix2 r j)) (fun (r : Fin 4096) (j : Fin 2048) => A2 (ix2 r j)) (fun (r : Fin 4096) (j : Fin 2048) => A3 (ix2 r j)) (fun (a : Fin 2048) (b : Fin 8192) => A4 (ix2 a b)) (fun (a : Fin 2048) (b : Fin 8192) => A6 (ix2 a b)) (fun (b : Fin 8192) => A5 (ix1 b)) (fun (b : Fin 8192) => A7 (ix1 b)) (tR t.val (tlt t) p) (tJ t.val qq) := by
  have h0 : ¬t.val % 8 = 0 := by omega
  rw [outsAt0_C m c t h0 h7, stepC_fst]
  exact cellC m c A0 A1 A2 A3 A4 A6 A5 A7 hb0 hb1 hb2 hb3 hb4 hb5 hb6 hb7 hb8 hb9 hb10 hb11 hb12 hb13 hb14 hb15 EA0 EA1 EA2 EA3 EB0 EB1 EB2 EB3 EC16 EC17 t h0 h7 p qq

include hb0 hb1 hb2 hb3 hb4 hb5 hb6 hb7 hb8 hb9 hb10 hb11 hb12 hb13 hb14 hb15 EA0 EA1 EA2 EA3 EB0 EB1 EB2 EB3 EC16 EC17 in
/-- (I2) at a tile's last step the second output's tile is the hidden state -/
theorem inv2_hid (t : Fin cfg0.N) (h7 : t.val % 8 = 7) (p : Fin 1024) (qq : Fin 512) :
    (outsAt0 m c t.val t.isLt).2.1 (ix2 p qq) = Cert.Spec.hid (fun (r : Fin 4096) (j : Fin 2048) => A0 (ix2 r j)) (fun (r : Fin 4096) (j : Fin 2048) => A1 (ix2 r j)) (fun (r : Fin 4096) (j : Fin 2048) => A2 (ix2 r j)) (fun (r : Fin 4096) (j : Fin 2048) => A3 (ix2 r j)) (fun (a : Fin 2048) (b : Fin 8192) => A4 (ix2 a b)) (fun (a : Fin 2048) (b : Fin 8192) => A6 (ix2 a b)) (fun (b : Fin 8192) => A5 (ix1 b)) (fun (b : Fin 8192) => A7 (ix1 b)) (tR t.val (tlt t) p) (tJ t.val qq) := by
  have h0 : ¬t.val % 8 = 0 := by omega
  rw [outsAt0_C m c t h0 h7, stepC_snd_fst, EC17 t h0 h7 _ p qq, cellC m c A0 A1 A2 A3 A4 A6 A5 A7 hb0 hb1 hb2 hb3 hb4 hb5 hb6 hb7 hb8 hb9 hb10 hb11 hb12 hb13 hb14 hb15 EA0 EA1 EA2 EA3 EB0 EB1 EB2 EB3 EC16 EC17 t h0 h7 p qq]
  rfl

include hb0 hb1 hb2 hb3 hb4 hb5 hb6 hb7 hb8 hb9 hb10 hb11 hb12 hb13 hb14 hb15 EA0 EA1 EA2 EA3 EB0 EB1 EB2 EB3 EC16 EC17 hfin16 in
/-- (I3) the first output array after the run is the cell-state array of the arguments -/
theorem final16_gen : (dats m q 0 c).arrAt 16 cfg0.N = Cert.Spec.cellArr A0 A1 A2 A3 A4 A5 A6 A7 :=
  hfin16 _ (fun t h7 p qq => by
    rw [after0_16, inv2_cell m c A0 A1 A2 A3 A4 A6 A5 A7 hb0 hb1 hb2 hb3 hb4 hb5 hb6 hb7 hb8 hb9 hb10 hb11 hb12 hb13 hb14 hb15 EA0 EA1 EA2 EA3 EB0 EB1 EB2 EB3 EC16 EC17 t h7 p qq, Cert.Spec.cellArr_apply])

include hb0 hb1 hb2 hb3 hb4 hb5 hb6 hb7 hb8 hb9 hb10 hb11 hb12 hb13 hb14 hb15 EA0 EA1 EA2 EA3 EB0 EB1 EB2 EB3 EC16 EC17 hfin17 in
/-- (I3) the second output array after the run is the hidden-state array of the arguments -/
theorem final17_gen : (dats m q 0 c).arrAt 17 cfg0.N = Cert.Spec.hidArr A0 A1 A2 A3 A4 A5 A6 A7 :=
  hfin17 _ (fun t h7 p qq => by
    rw [after0_17, inv2_hid m c A0 A1 A2 A3 A4 A6 A5 A7 hb0 hb1 hb2 hb3 hb4 hb5 hb6 hb7 hb8 hb9 hb10 hb11 hb12 hb13 hb14 hb15 EA0 EA1 EA2 EA3 EB0 EB1 EB2 EB3 EC16 EC17 t h7 p qq, Cert.Spec.hidArr_apply])

end Main

/-! ## The hypotheses discharged: the pieces, the payloads and the blocks -/

section Final

variable (m : (ℓ : Loc nD τ sig) → Buf (Elt Ideal) ℓ)
variable (q : Fin cfg0.W → PosShare TreeShare)

/-- what one step leaves is the accumulator's entry plus the step's two products -/
theorem acc_rhs_kstep (x0 x1 : FVec Ideal S1024x256 .bf16) (a : FVec Ideal S1024x512 .f32) (wl wr : FVec Ideal S256x512 .bf16)
    (p : Fin 1024) (qq : Fin 512) : acc_rhs x0 x1 a wl wr p qq = a (ix2 p qq) + kstep x0 x1 wl wr p qq := rfl

theorem soutA_0_at (c : Dev nD) (t : Fin cfg0.N) (h0 : t.val % 8 = 0) (h1 : ¬t.val % 8 = 7) (p : Fin 1024) (qq : Fin 512) :
    soutA_0 m c t h0 h1 (ix2 p qq) = 0 + kstep (xb0 m c t) (xb1 m c t) (xb2 m c t) (xb6 m c t) p qq :=
  (congrFun (soutA_0_eq m c t h0 h1) (ix2 p qq)).trans
    ((pay17_apply (xb0 m c t) (xb1 m c t) (k0_pay11 (F := Ideal)) (xb2 m c t) (xb6 m c t) p qq).trans
      ((acc_rhs_kstep _ _ _ _ _ p qq).trans (congrArg (· + _) (pay11_apply p qq))))

theorem soutA_1_at (c : Dev nD) (t : Fin cfg0.N) (h0 : t.val % 8 = 0) (h1 : ¬t.val % 8 = 7) (p : Fin 1024) (qq : Fin 512) :
    soutA_1 m c t h0 h1 (ix2 p qq) = 0 + kstep (xb0 m c t) (xb1 m c t) (xb3 m c t) (xb7 m c t) p qq :=
  (congrFun (soutA_1_eq m c t h0 h1) (ix2 p qq)).trans
    ((pay1_18_apply (xb0 m c t) (xb1 m c t) (k0_pay12 (F := Ideal)) (xb3 m c t) (xb7 m c t) p qq).trans
      ((acc_rhs_kstep _ _ _ _ _ p qq).trans (congrArg (· + _) (pay12_apply p qq))))

theorem soutA_2_at (c : Dev nD) (t : Fin cfg0.N) (h0 : t.val % 8 = 0) (h1 : ¬t.val % 8 = 7) (p : Fin 1024) (qq : Fin 512) :
    soutA_2 m c t h0 h1 (ix2 p qq) = 0 + kstep (xb0 m c t) (xb1 m c t) (xb4 m c t) (xb8 m c t) p qq :=
  (congrFun (soutA_2_eq m c t h0 h1) (ix2 p qq)).trans
    ((pay2_apply (xb0 m c t) (xb1 m c t) (k0_pay13 (F := Ideal)) (xb4 m c t) (xb8 m c t) p qq).trans
      ((acc_rhs_kstep _ _ _ _ _ p qq).trans (congrArg (· + _) (pay13_apply p qq))))

theorem soutA_3_at (c : Dev nD) (t : Fin cfg0.N) (h0 : t.val % 8 = 0) (h1 : ¬t.val % 8 = 7) (p : Fin 1024) (qq : Fin 512) :
    soutA_3 m c t h0 h1 (ix2 p qq) = 0 + kstep (xb0 m c t) (xb1 m c t) (xb5 m c t) (xb9 m c t) p qq :=
  (congrFun (soutA_3_eq m c t h0 h1) (ix2 p qq)).trans
    ((pay3_apply (xb0 m c t) (xb1 m c t) (k0_pay14 (F := Ideal)) (xb5 m c t) (xb9 m c t) p qq).trans
      ((acc_rhs_kstep _ _ _ _ _ p qq).trans (congrArg (· + _) (pay14_apply p qq))))

theorem soutB_0_at (c : Dev nD) (t : Fin cfg0.N) (h0 : ¬t.val % 8 = 0) (h1 : ¬t.val % 8 = 7) (xs : Vec Ideal S1024x512 .f32 × Vec Ideal S1024x512 .f32 × Vec Ideal S1024x512 .f32 × Vec Ideal S1024x512 .f32)
    (p : Fin 1024) (qq : Fin 512) :
    soutB_0 m c t h0 h1 xs (ix2 p qq) = xs.1 (ix2 p qq) + kstep (xb0 m c t) (xb1 m c t) (xb2 m c t) (xb6 m c t) p qq :=
  (congrFun (soutB_0_eq m c t h0 h1 xs) (ix2 p qq)).trans
    ((pay17_apply (xb0 m c t) (xb1 m c t) xs.1 (xb2 m c t) (xb6 m c t) p qq).trans
      (acc_rhs_kstep _ _ _ _ _ p qq))

theorem soutB_1_at (c : Dev nD) (t : Fin cfg0.N) (h0 : ¬t.val % 8 = 0) (h1 : ¬t.val % 8 = 7) (xs : Vec Ideal S1024x512 .f32 × Vec Ideal S1024x512 .f32 × Vec Ideal S1024x512 .f32 × Vec Ideal S1024x512 .f32)
    (p : Fin 1024) (qq : Fin 512) :
    soutB_1 m c t h0 h1 xs (ix2 p qq) = xs.2.1 (ix2 p qq) + kstep (xb0 m c t) (xb1 m c t) (xb3 m c t) (xb7 m c t) p qq :=
  (congrFun (soutB_1_eq m c t h0 h1 xs) (ix2 p qq)).trans
    ((pay1_18_apply (xb0 m c t) (xb1 m c t) xs.2.1 (xb3 m c t) (xb7 m c t) p qq).trans
      (acc_rhs_kstep _ _ _ _ _ p qq))

theorem soutB_2_at (c : Dev nD) (t : Fin cfg0.N) (h0 : ¬t.val % 8 = 0) (h1 : ¬t.val % 8 = 7) (xs : Vec Ideal S1024x512 .f32 × Vec Ideal S1024x512 .f32 × Vec Ideal S1024x512 .f32 × Vec Ideal S1024x512 .f32)
    (p : Fin 1024) (qq : Fin 512) :
    soutB_2 m c t h0 h1 xs (ix2 p qq) = xs.2.2.1 (ix2 p qq) + kstep (xb0 m c t) (xb1 m c t) (xb4 m c t) (xb8 m c t) p qq :=
  (congrFun (soutB_2_eq m c t h0 h1 xs) (ix2 p qq)).trans
    ((pay2_apply (xb0 m c t) (xb1 m c t) xs.2.2.1 (xb4 m c t) (xb8 m c t) p qq).trans
      (acc_rhs_kstep _ _ _ _ _ p qq))

theorem soutB_3_at (c : Dev nD) (t : Fin cfg0.N) (h0 : ¬t.val % 8 = 0) (h1 : ¬t.val % 8 = 7) (xs : Vec Ideal S1024x512 .f32 × Vec Ideal S1024x512 .f32 × Vec Ideal S1024x512 .f32 × Vec Ideal S1024x512 .f32)
    (p : Fin 1024) (qq : Fin 512) :
    soutB_3 m c t h0 h1 xs (ix2 p qq) = xs.2.2.2 (ix2 p qq) + kstep (xb0 m c t) (xb1 m c t) (xb5 m c t) (xb9 m c t) p qq :=
  (congrFun (soutB_3_eq m c t h0 h1 xs) (ix2 p qq)).trans
    ((pay3_apply (xb0 m c t) (xb1 m c t) xs.2.2.2 (xb5 m c t) (xb9 m c t) p qq).trans
      (acc_rhs_kstep _ _ _ _ _ p qq))

theorem outC_16_at (c : Dev nD) (t : Fin cfg0.N) (h0 : ¬t.val % 8 = 0) (h1 : t.val % 8 = 7) (xs : Vec Ideal S1024x512 .f32 × Vec Ideal S1024x512 .f32 × Vec Ideal S1024x512 .f32 × Vec Ideal S1024x512 .f32)
    (p : Fin 1024) (qq : Fin 512) :
    outC_16 m c t h0 h1 xs (ix2 p qq)
      = (Cert.Spec.sig ((accG 0 xs (ix2 p qq) + kstep (xb0 m c t) (xb1 m c t) (wlG m c 0 t) (wrG m c 0 t) p qq) + bG m c 0 t (ix1 qq)) * Cert.Spec.th ((accG 3 xs (ix2 p qq) + kstep (xb0 m c t) (xb1 m c t) (wlG m c 3 t) (wrG m c 3 t) p qq) + bG m c 3 t (ix1 qq))
          + Cert.Spec.sig ((accG 1 xs (ix2 p qq) + kstep (xb0 m c t) (xb1 m c t) (wlG m c 1 t) (wrG m c 1 t) p qq) + bG m c 1 t (ix1 qq)) * xb14 m c t (ix2 p qq))
        + Cert.Spec.sig ((accG 2 xs (ix2 p qq) + kstep (xb0 m c t) (xb1 m c t) (wlG m c 2 t) (wrG m c 2 t) p qq) + bG m c 2 t (ix1 qq)) * xb15 m c t (ix2 p qq) := by
  rw [outC_16_eq m c t h0 h1 xs, pay5_apply, pay7_apply, pay4_10_apply, pay8_apply, pay9_apply, pay17_apply, pay3_apply,
    pay1_18_apply, pay2_apply, acc_rhs_kstep, acc_rhs_kstep, acc_rhs_kstep, acc_rhs_kstep]
  rfl

theorem outC_17_at (c : Dev nD) (t : Fin cfg0.N) (h0 : ¬t.val % 8 = 0) (h1 : t.val % 8 = 7) (xs : Vec Ideal S1024x512 .f32 × Vec Ideal S1024x512 .f32 × Vec Ideal S1024x512 .f32 × Vec Ideal S1024x512 .f32)
    (p : Fin 1024) (qq : Fin 512) :
    outC_17 m c t h0 h1 xs (ix2 p qq) = Cert.Spec.th (outC_16 m c t h0 h1 xs (ix2 p qq)) := by
  rw [outC_17_eq m c t h0 h1 xs, pay6_apply, ← outC_16_eq m c t h0 h1 xs]

/-- (I3) The first output array after the run is the cell-state array of the argument arrays. -/
theorem final16 (c : Dev nD) :
    (dats m q 0 c).arrAt 16 cfg0.N
      = Cert.Spec.cellArr (A0 m c) (A1 m c) (A2 m c) (A3 m c) (A4 m c) (A5 m c) (A6 m c) (A7 m c) :=
  final16_gen m c q (A0 m c) (A1 m c) (A2 m c) (A3 m c) (A4 m c) (A6 m c) (A5 m c) (A7 m c)
    (blk0 m c) (blk1 m c) (blk2 m c) (blk3 m c) (blk4 m c) (blk5 m c) (blk6 m c) (blk7 m c) (blk8 m c) (blk9 m c)
    (blk10 m c) (blk11 m c) (blk12 m c) (blk13 m c) (blk14 m c) (blk15 m c)
    (soutA_0_at m c) (soutA_1_at m c) (soutA_2_at m c) (soutA_3_at m c)
    (soutB_0_at m c) (soutB_1_at m c) (soutB_2_at m c) (soutB_3_at m c) (outC_16_at m c) (outC_17_at m c)
    (fun G hG => final16_of (dats m q 0 c) G hG)

/-- (I3) The second output array after the run is the hidden-state array of the argument arrays. -/
theorem final17 (c : Dev nD) :
    (dats m q 0 c).arrAt 17 cfg0.N
      = Cert.Spec.hidArr (A0 m c) (A1 m c) (A2 m c) (A3 m c) (A4 m c) (A5 m c) (A6 m c) (A7 m c) :=
  final17_gen m c q (A0 m c) (A1 m c) (A2 m c) (A3 m c) (A4 m c) (A6 m c) (A5 m c) (A7 m c)
    (blk0 m c) (blk1 m c) (blk2 m c) (blk3 m c) (blk4 m c) (blk5 m c) (blk6 m c) (blk7 m c) (blk8 m c) (blk9 m c)
    (blk10 m c) (blk11 m c) (blk12 m c) (blk13 m c) (blk14 m c) (blk15 m c)
    (soutA_0_at m c) (soutA_1_at m c) (soutA_2_at m c) (soutA_3_at m c)
    (soutB_0_at m c) (soutB_1_at m c) (soutB_2_at m c) (soutB_3_at m c) (outC_16_at m c) (outC_17_at m c)
    (fun G hG => final17_of (dats m q 0 c) G hG)

end Final

end Cert.KernelIdeal.Hand

end
-- ==== Proof.KI.ValueRun.lean ====
/-
  The kernel's run with its two results named, at the ideal reading (floats are extended reals). The run's post gives each
  output window's array as the proof data compute it after the last grid point; those are the cell-state and hidden-state
  arrays of the eight arguments' launch contents (the accumulation over the eight reduction steps of 256 contraction
  positions each, then the gates). The arguments end as launched, as in the frame claim.
-/
import proofs.«164712_j12180527251605_2_alg».proof.Proof.KI.Frame
import proofs.«164712_j12180527251605_2_alg».proof.Proof.Spec
import proofs.«164712_j12180527251605_2_alg».proof.Proof.KI.Accum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The run with both results named, from what the two output arrays hold after the last point. -/
theorem value_run_of
    (h16 : ∀ c : Dev nD, (dats m shareOf 0 c).arrAt 16 cfg0.N = Cert.Spec.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (h17 : ∀ c : Dev nD, (dats m shareOf 0 c).arrAt 17 cfg0.N = Cert.Spec.hidArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) : θ_run (defs (F := Ideal)) (onTc (τ := τ) (main (F := Ideal))) ⟨m, fun _ => 0, ρ⟩ (fun r => ∀ c : Dev nD,
      r.2.mem ((c.tc : Thread nD τ).loc main_v9_0) = Cert.Spec.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v9_1) = Cert.Spec.hidArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨((h c).1 16).trans (h16 c), ((h c).1 17).trans (h17 c),
      ((h c).1 14).trans (((dats m shareOf 0 c).arrAt_in 14 rfl _).trans ((A_eq m shareOf c 14).trans (V_main_arg0 m c))),
      ((h c).2 main_arg1 (Pipeline.mem_restRefs_of main_arg1 (by decide) (by decide))).trans (V_main_arg1 m c),
      ((h c).1 15).trans (((dats m shareOf 0 c).arrAt_in 15 rfl _).trans ((A_eq m shareOf c 15).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

/-- The kernel's run with both results named: from any memory with zero counters it terminates with its first result the
    cell-state array and its second the hidden-state array of its arguments' launch contents, and the arguments unchanged. -/
theorem value_run : θ_run (defs (F := Ideal)) (onTc (τ := τ) (main (F := Ideal))) ⟨m, fun _ => 0, ρ⟩ (fun r => ∀ c : Dev nD,
      r.2.mem ((c.tc : Thread nD τ).loc main_v9_0) = Cert.Spec.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v9_1) = Cert.Spec.hidArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  value_run_of m ρ (fun c => final16 m shareOf c) (fun c => final17 m shareOf c)

end Cert.KernelIdeal.Hand

end
-- ==== Proof.K.Setup.lean ====
/-
  What every later module of this program's frame is stated over: the buffer contents when the region is
  entered (the launch memory after the nine host operations: four casts to bf16, the sum of the two bias
  vectors and its four slices), each window's block at a grid point, the two conditions the body branches
  on (the first and the last step of the reduction axis) in closed form over the 128 points, where the two
  output windows are idle, and the body's memrefs at a point.
-/
import proofs.«164712_j12180527251605_2_alg».proof.Proof.Gen.Kernel.Launch
import proofs.«164712_j12180527251605_2_alg».proof.Proof.Gen.Kernel.Skeleton
import proofs.«164712_j12180527251605_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffer contents when the region is entered: the launch memory after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the entry contents that leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over the entry contents that leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over the entry contents that leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over the entry contents that leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over the entry contents that leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over the entry contents that leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its block index has not moved), for any proof data over the entry contents that leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its block index has not moved), for any proof data over the entry contents that leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is not
    fetched its block index has not moved), for any proof data over the entry contents that leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (where it is not
    fetched its block index has not moved), for any proof data over the entry contents that leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (where it is not
    fetched its block index has not moved), for any proof data over the entry contents that leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (where it is not
    fetched its block index has not moved), for any proof data over the entry contents that leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not (where it is not
    fetched its block index has not moved), for any proof data over the entry contents that leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not (where it is not
    fetched its block index has not moved), for any proof data over the entry contents that leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not (where it is not
    fetched its block index has not moved), for any proof data over the entry contents that leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not (where it is not
    fetched its block index has not moved), for any proof data over the entry contents that leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition: the reduction coordinate is 0 (the accumulators are reset). -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second condition: the reduction coordinate is 7 (the gates are applied and the outputs stored). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
/-- Away from the last reduction step output 16 is idle and not written back; at it the window is live. -/
theorem idleAt0_16 : ∀ t : Fin cfg0.N, ¬cond0_1 (grid0.coords t) → cfg0.idle 16 (grid0.coords t) = true := by decide +kernel
theorem noFlush0_16 : ∀ t : Fin cfg0.N, ¬cond0_1 (grid0.coords t) → (cfg0.win 16).flush t = false := by decide +kernel
theorem liveAt0_16 : ∀ t : Fin cfg0.N, cond0_1 (grid0.coords t) → cfg0.idle 16 (grid0.coords t) = false := by decide +kernel
/-- Away from the last reduction step output 17 is idle and not written back; at it the window is live. -/
theorem idleAt0_17 : ∀ t : Fin cfg0.N, ¬cond0_1 (grid0.coords t) → cfg0.idle 17 (grid0.coords t) = true := by decide +kernel
theorem noFlush0_17 : ∀ t : Fin cfg0.N, ¬cond0_1 (grid0.coords t) → (cfg0.win 17).flush t = false := by decide +kernel
theorem liveAt0_17 : ∀ t : Fin cfg0.N, cond0_1 (grid0.coords t) → cfg0.idle 17 (grid0.coords t) = false := by decide +kernel

/-! ## The body's memrefs at a point -/

/-- One staging buffer of each output window, through which its contents are stated. -/
abbrev VO0_16 : View sig .tc .vmem S1024x512 .f32 := (Memref.whole cc0_stg16_0 : Memref sig .tc .vmem S1024x512 .f32).view
abbrev VO0_17 : View sig .tc .vmem S1024x512 .f32 := (Memref.whole cc0_stg17_0 : Memref sig .tc .vmem S1024x512 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x512 .f32 := win0_17.stage (cfg0.slots t 17)
abbrev hs0_17 (t : Fin cfg0.N) : (ms0_17 t).IsWhole := hstage0_17 ((cfg0.slots t 17).cast nbuf0_17)
/-- Accumulator 0: a whole scoped buffer of the kernel's own, carried between points. -/
abbrev scM0_0 : Memref sig .tc .vmem S1024x512 .f32 := Memref.whole cc0_scratch0
abbrev VS0_0 : View sig .tc .vmem S1024x512 .f32 := scM0_0.view
/-- Accumulator 1: a whole scoped buffer of the kernel's own, carried between points. -/
abbrev scM0_1 : Memref sig .tc .vmem S1024x512 .f32 := Memref.whole cc0_scratch1
abbrev VS0_1 : View sig .tc .vmem S1024x512 .f32 := scM0_1.view
/-- Accumulator 2: a whole scoped buffer of the kernel's own, carried between points. -/
abbrev scM0_2 : Memref sig .tc .vmem S1024x512 .f32 := Memref.whole cc0_scratch2
abbrev VS0_2 : View sig .tc .vmem S1024x512 .f32 := scM0_2.view
/-- Accumulator 3: a whole scoped buffer of the kernel's own, carried between points. -/
abbrev scM0_3 : Memref sig .tc .vmem S1024x512 .f32 := Memref.whole cc0_scratch3
abbrev VS0_3 : View sig .tc .vmem S1024x512 .f32 := scM0_3.view

/-- The class invariant with the four accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.K.RunA.lean ====
/-
  The kernel body run whole at the first reduction step (the accumulators are reset, then the step's products added): on whole staging memrefs, the sixteen inputs at
  their contents and handed back as they were, both outputs' buffers handed back untouched, the four accumulators
  at anything and left with the pieces the body stores (last store first). The pieces are found by the run itself.
-/
import proofs.«164712_j12180527251605_2_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's triple at the first reduction step (the accumulators are reset, then the step's products added). -/
noncomputable def kernelRun0_A (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (arg24 : Memref sig .tc .vmem S1024x512 .f32) (harg24 : arg24.IsWhole) (hc0 : cond0_0 i) (hc1 : ¬cond0_1 i)
    (x0 : Vec F S1024x256 .bf16) (x1 : Vec F S1024x256 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S512 .f32) (x11 : Vec F S512 .f32) (x12 : Vec F S512 .f32) (x13 : Vec F S512 .f32) (x14 : Vec F S1024x512 .f32) (x15 : Vec F S1024x512 .f32)  :
    Σ' (LS0 LS1 LS2 : List (View.Piece (Elt F) S1024x512 .f32)), { LS3 : List (View.Piece (Elt F) S1024x512 .f32) //
      ∀ (xi16 xi17 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare xi16 ∗ owns (c : Thread nD τ) arg20 fullShare xi17 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare xi16 ∗ owns (c : Thread nD τ) arg20 fullShare xi17 ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun xi16 xi17 E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [HS0]; · iexists _; iexact HS0
    isplitl [HS1]; · iexists _; iexact HS1
    isplitl [HS2]; · iexists _; iexact HS2
    iexists _; iexact HS3

end Cert.Kernel.Hand

end
-- ==== Proof.K.RunB.lean ====
/-
  The kernel body run whole at a middle reduction step (the step's products added to the accumulators): on whole staging memrefs, the sixteen inputs at
  their contents and handed back as they were, both outputs' buffers handed back untouched, the four accumulators
  at the contents the step before left and left with the pieces the body stores (last store first). The pieces are found by the run itself.
-/
import proofs.«164712_j12180527251605_2_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's triple at a middle reduction step (the step's products added to the accumulators). -/
noncomputable def kernelRun0_B (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (arg24 : Memref sig .tc .vmem S1024x512 .f32) (harg24 : arg24.IsWhole) (hc0 : ¬cond0_0 i) (hc1 : ¬cond0_1 i)
    (x0 : Vec F S1024x256 .bf16) (x1 : Vec F S1024x256 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S512 .f32) (x11 : Vec F S512 .f32) (x12 : Vec F S512 .f32) (x13 : Vec F S512 .f32) (x14 : Vec F S1024x512 .f32) (x15 : Vec F S1024x512 .f32) (xs0 xs1 xs2 xs3 : Vec F S1024x512 .f32) :
    Σ' (LS0 LS1 LS2 : List (View.Piece (Elt F) S1024x512 .f32)), { LS3 : List (View.Piece (Elt F) S1024x512 .f32) //
      ∀ (xi16 xi17 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare xi16 ∗ owns (c : Thread nD τ) arg20 fullShare xi17 ∗ owns (c : Thread nD τ) arg21 fullShare xs0 ∗ owns (c : Thread nD τ) arg22 fullShare xs1 ∗ owns (c : Thread nD τ) arg23 fullShare xs2 ∗ owns (c : Thread nD τ) arg24 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare xi16 ∗ owns (c : Thread nD τ) arg20 fullShare xi17 ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun xi16 xi17 E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hfs0; obtain rfl := harg22.eq_unread hfs1; obtain rfl := harg23.eq_unread hfs2; obtain rfl := harg24.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [HS0]; · iexists _; iexact HS0
    isplitl [HS1]; · iexists _; iexact HS1
    isplitl [HS2]; · iexists _; iexact HS2
    iexists _; iexact HS3

end Cert.Kernel.Hand

end
-- ==== Proof.K.RunC.lean ====
/-
  The kernel body run whole at the last reduction step (the products added, the gates applied, both outputs stored): on whole staging memrefs, the sixteen inputs at
  their contents and handed back as they were, both outputs' buffers at anything and left with the pieces the body stores, the four accumulators
  at the contents the step before left and left with the pieces the body stores (last store first). The pieces are found by the run itself.
-/
import proofs.«164712_j12180527251605_2_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's triple at the last reduction step (the products added, the gates applied, both outputs stored). -/
noncomputable def kernelRun0_C (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (arg24 : Memref sig .tc .vmem S1024x512 .f32) (harg24 : arg24.IsWhole) (hc0 : ¬cond0_0 i) (hc1 : cond0_1 i)
    (x0 : Vec F S1024x256 .bf16) (x1 : Vec F S1024x256 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S512 .f32) (x11 : Vec F S512 .f32) (x12 : Vec F S512 .f32) (x13 : Vec F S512 .f32) (x14 : Vec F S1024x512 .f32) (x15 : Vec F S1024x512 .f32) (xs0 xs1 xs2 xs3 : Vec F S1024x512 .f32) :
    Σ' (L16 L17 LS0 LS1 LS2 : List (View.Piece (Elt F) S1024x512 .f32)), { LS3 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ owns (c : Thread nD τ) arg23 fullShare xs2 ∗ owns (c : Thread nD τ) arg24 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f L17) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, fun E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg21.eq_unread hfs0; obtain rfl := harg22.eq_unread hfs1; obtain rfl := harg23.eq_unread hfs2; obtain rfl := harg24.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]; · iexists _; iexact H16
    isplitl [H17]; · iexists _; iexact H17
    isplitl [HS0]; · iexists _; iexact HS0
    isplitl [HS1]; · iexists _; iexact HS1
    isplitl [HS2]; · iexists _; iexact HS2
    iexists _; iexact HS3

end Cert.Kernel.Hand

end
-- ==== Proof.K.Data.lean ====
/-
  What the accumulators and the two outputs hold after the body at each grid point, and the proof data built on it.
  A point of the 4×4×8 grid is (i, d, k) with k the reduction step; consecutive points run k = 0..7 for one
  output tile. At k = 0 the body resets the four accumulators and adds the step's products; at 0 < k < 7 it adds
  the step's products to what the step before left; at k = 7 it adds, applies the gates in place and stores the
  cell and hidden tiles. The outputs are written back only at k = 7 and are idle elsewhere.
-/
import proofs.«164712_j12180527251605_2_alg».proof.Proof.K.RunA
import proofs.«164712_j12180527251605_2_alg».proof.Proof.K.RunB
import proofs.«164712_j12180527251605_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (q : Fin cfg0.W → PosShare TreeShare)

/-! ## The three runs at a grid point, on the point's memrefs and input blocks -/

/-- The run of the first reduction step at point `t`. -/
abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
/-- The run of a middle reduction step at point `t`, the accumulators at `xs`. -/
abbrev runB (c : Dev nD) (t : Fin cfg0.N) (h0 : ¬t.val % 8 = 0) (h1 : ¬t.val % 8 = 7) (xs : Vec F S1024x512 .f32 × Vec F S1024x512 .f32 × Vec F S1024x512 .f32 × Vec F S1024x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs.1 xs.2.1 xs.2.2.1 xs.2.2.2
/-- The run of the last reduction step at point `t`, the accumulators at `xs`. -/
abbrev runC (c : Dev nD) (t : Fin cfg0.N) (h0 : ¬t.val % 8 = 0) (h1 : t.val % 8 = 7) (xs : Vec F S1024x512 .f32 × Vec F S1024x512 .f32 × Vec F S1024x512 .f32 × Vec F S1024x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs.1 xs.2.1 xs.2.2.1 xs.2.2.2

/-! ## What each run leaves: its pieces cover the buffer, and read back over anything -/

theorem scoverA_0 (c : Dev nD) (t : Fin cfg0.N) (h0 : t.val % 8 = 0) (h1 : ¬t.val % 8 = 7) (y : S1024x512.Idx) :
    ∃ pc ∈ (runA m c t h0 h1).1, y ∈ pc.1.set :=
  View.cover_of_tiledL (runA m c t h0 h1).1 S1024x512.size (by sl_kernel_rfl) y
def soutA_0 (c : Dev nD) (t : Fin cfg0.N) (h0 : t.val % 8 = 0) (h1 : ¬t.val % 8 = 7) : Vec F S1024x512 .f32 :=
  VS0_0.read (Elt F) (VS0_0.writes (Elt F) VS0_0.junk (runA m c t h0 h1).1)
theorem scoverB_0 (c : Dev nD) (t : Fin cfg0.N) (h0 : ¬t.val % 8 = 0) (h1 : ¬t.val % 8 = 7) (xs : Vec F S1024x512 .f32 × Vec F S1024x512 .f32 × Vec F S1024x512 .f32 × Vec F S1024x512 .f32) (y : S1024x512.Idx) :
    ∃ pc ∈ (runB m c t h0 h1 xs).1, y ∈ pc.1.set :=
  View.cover_of_tiledL (runB m c t h0 h1 xs).1 S1024x512.size (by sl_kernel_rfl) y
def soutB_0 (c : Dev nD) (t : Fin cfg0.N) (h0 : ¬t.val % 8 = 0) (h1 : ¬t.val % 8 = 7) (xs : Vec F S1024x512 .f32 × Vec F S1024x512 .f32 × Vec F S1024x512 .f32 × Vec F S1024x512 .f32) : Vec F S1024x512 .f32 :=
  VS0_0.read (Elt F) (VS0_0.writes (Elt F) VS0_0.junk (runB m c t h0 h1 xs).1)
theorem scoverC_0 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).2.2.1, y ∈ pc.1.set :=
  View.cover_of_tiledL (runC m c t h0 h1 xs).2.2.1 S1024x512.size (by sl_kernel_rfl) y
def soutC_0 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VS0_0.read (Elt F) (VS0_0.writes (Elt F) VS0_0.junk (runC m c t h0 h1 xs).2.2.1)
theorem scoverA_1 (c : Dev nD) (t : Fin cfg0.N) (h0 : t.val % 8 = 0) (h1 : ¬t.val % 8 = 7) (y : S1024x512.Idx) :
    ∃ pc ∈ (runA m c t h0 h1).2.1, y ∈ pc.1.set :=
  View.cover_of_tiledL (runA m c t h0 h1).2.1 S1024x512.size (by sl_kernel_rfl) y
def soutA_1 (c : Dev nD) (t : Fin cfg0.N) (h0 : t.val % 8 = 0) (h1 : ¬t.val % 8 = 7) : Vec F S1024x512 .f32 :=
  VS0_1.read (Elt F) (VS0_1.writes (Elt F) VS0_1.junk (runA m c t h0 h1).2.1)
theorem scoverB_1 (c : Dev nD) (t : Fin cfg0.N) (h0 : ¬t.val % 8 = 0) (h1 : ¬t.val % 8 = 7) (xs : Vec F S1024x512 .f32 × Vec F S1024x512 .f32 × Vec F S1024x512 .f32 × Vec F S1024x512 .f32) (y : S1024x512.Idx) :
    ∃ pc ∈ (runB m c t h0 h1 xs).2.1, y ∈ pc.1.set :=
  View.cover_of_tiledL (runB m c t h0 h1 xs).2.1 S1024x512.size (by sl_kernel_rfl) y
def soutB_1 (c : Dev nD) (t : Fin cfg0.N) (h0 : ¬t.val % 8 = 0) (h1 : ¬t.val % 8 = 7) (xs : Vec F S1024x512 .f32 × Vec F S1024x512 .f32 × Vec F S1024x512 .f32 × Vec F S1024x512 .f32) : Vec F S1024x512 .f32 :=
  VS0_1.read (Elt F) (VS0_1.writes (Elt F) VS0_1.junk (runB m c t h0 h1 xs).2.1)
theorem scoverC_1 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).2.2.2.1, y ∈ pc.1.set :=
  View.cover_of_tiledL (runC m c t h0 h1 xs).2.2.2.1 S1024x512.size (by sl_kernel_rfl) y
def soutC_1 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VS0_1.read (Elt F) (VS0_1.writes (Elt F) VS0_1.junk (runC m c t h0 h1 xs).2.2.2.1)
theorem scoverA_2 (c : Dev nD) (t : Fin cfg0.N) (h0 : t.val % 8 = 0) (h1 : ¬t.val % 8 = 7) (y : S1024x512.Idx) :
    ∃ pc ∈ (runA m c t h0 h1).2.2.1, y ∈ pc.1.set :=
  View.cover_of_tiledL (runA m c t h0 h1).2.2.1 S1024x512.size (by sl_kernel_rfl) y
def soutA_2 (c : Dev nD) (t : Fin cfg0.N) (h0 : t.val % 8 = 0) (h1 : ¬t.val % 8 = 7) : Vec F S1024x512 .f32 :=
  VS0_2.read (Elt F) (VS0_2.writes (Elt F) VS0_2.junk (runA m c t h0 h1).2.2.1)
theorem scoverB_2 (c : Dev nD) (t : Fin cfg0.N) (h0 : ¬t.val % 8 = 0) (h1 : ¬t.val % 8 = 7) (xs : Vec F S1024x512 .f32 × Vec F S1024x512 .f32 × Vec F S1024x512 .f32 × Vec F S1024x512 .f32) (y : S1024x512.Idx) :
    ∃ pc ∈ (runB m c t h0 h1 xs).2.2.1, y ∈ pc.1.set :=
  View.cover_of_tiledL (runB m c t h0 h1 xs).2.2.1 S1024x512.size (by sl_kernel_rfl) y
def soutB_2 (c : Dev nD) (t : Fin cfg0.N) (h0 : ¬t.val % 8 = 0) (h1 : ¬t.val % 8 = 7) (xs : Vec F S1024x512 .f32 × Vec F S1024x512 .f32 × Vec F S1024x512 .f32 × Vec F S1024x512 .f32) : Vec F S1024x512 .f32 :=
  VS0_2.read (Elt F) (VS0_2.writes (Elt F) VS0_2.junk (runB m c t h0 h1 xs).2.2.1)
theorem scoverC_2 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).2.2.2.2.1, y ∈ pc.1.set :=
  View.cover_of_tiledL (runC m c t h0 h1 xs).2.2.2.2.1 S1024x512.size (by sl_kernel_rfl) y
def soutC_2 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VS0_2.read (Elt F) (VS0_2.writes (Elt F) VS0_2.junk (runC m c t h0 h1 xs).2.2.2.2.1)
theorem scoverA_3 (c : Dev nD) (t : Fin cfg0.N) (h0 : t.val % 8 = 0) (h1 : ¬t.val % 8 = 7) (y : S1024x512.Idx) :
    ∃ pc ∈ (runA m c t h0 h1).2.2.2.1, y ∈ pc.1.set :=
  View.cover_of_tiledL (runA m c t h0 h1).2.2.2.1 S1024x512.size (by sl_kernel_rfl) y
def soutA_3 (c : Dev nD) (t : Fin cfg0.N) (h0 : t.val % 8 = 0) (h1 : ¬t.val % 8 = 7) : Vec F S1024x512 .f32 :=
  VS0_3.read (Elt F) (VS0_3.writes (Elt F) VS0_3.junk (runA m c t h0 h1).2.2.2.1)
theorem scoverB_3 (c : Dev nD) (t : Fin cfg0.N) (h0 : ¬t.val % 8 = 0) (h1 : ¬t.val % 8 = 7) (xs : Vec F S1024x512 .f32 × Vec F S1024x512 .f32 × Vec F S1024x512 .f32 × Vec F S1024x512 .f32) (y : S1024x512.Idx) :
    ∃ pc ∈ (runB m c t h0 h1 xs).2.2.2.1, y ∈ pc.1.set :=
  View.cover_of_tiledL (runB m c t h0 h1 xs).2.2.2.1 S1024x512.size (by sl_kernel_rfl) y
def soutB_3 (c : Dev nD) (t : Fin cfg0.N) (h0 : ¬t.val % 8 = 0) (h1 : ¬t.val % 8 = 7) (xs : Vec F S1024x512 .f32 × Vec F S1024x512 .f32 × Vec F S1024x512 .f32 × Vec F S1024x512 .f32) : Vec F S1024x512 .f32 :=
  VS0_3.read (Elt F) (VS0_3.writes (Elt F) VS0_3.junk (runB m c t h0 h1 xs).2.2.2.1)
theorem scoverC_3 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).2.2.2.2.2.1, y ∈ pc.1.set :=
  View.cover_of_tiledL (runC m c t h0 h1 xs).2.2.2.2.2.1 S1024x512.size (by sl_kernel_rfl) y
def soutC_3 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VS0_3.read (Elt F) (VS0_3.writes (Elt F) VS0_3.junk (runC m c t h0 h1 xs).2.2.2.2.2.1)
theorem coverC_16 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).1, y ∈ pc.1.set :=
  View.cover_of_tiledL (runC m c t h0 h1 xs).1 S1024x512.size (by sl_kernel_rfl) y
def outC_16 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VO0_16.read (Elt F) (VO0_16.writes (Elt F) VO0_16.junk (runC m c t h0 h1 xs).1)
theorem coverC_17 (c : Dev nD) (t : Fin cfg0.N) (h0 : ¬t.val % 8 = 0) (h1 : t.val % 8 = 7) (xs : Vec F S1024x512 .f32 × Vec F S1024x512 .f32 × Vec F S1024x512 .f32 × Vec F S1024x512 .f32) (y : S1024x512.Idx) :
    ∃ pc ∈ (runC m c t h0 h1 xs).2.1, y ∈ pc.1.set :=
  View.cover_of_tiledL (runC m c t h0 h1 xs).2.1 S1024x512.size (by sl_kernel_rfl) y
def outC_17 (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 :=
  VO0_17.read (Elt F) (VO0_17.writes (Elt F) VO0_17.junk (runC m c t h0 h1 xs).2.1)

/-- What one point leaves: the two outputs' tiles (at a point that stores none, a placeholder nothing consults: the
    window is idle there and not written back), then the four accumulators. -/
def stepA (c : Dev nD) (t : Fin cfg0.N) (h0 : t.val % 8 = 0) (h1 : ¬t.val % 8 = 7) : Vec F S1024x512 .f32 × Vec F S1024x512 .f32 × Vec F S1024x512 .f32 × Vec F S1024x512 .f32 × Vec F S1024x512 .f32 × Vec F S1024x512 .f32 :=
  (k0_pay11 (F := F), k0_pay11 (F := F), soutA_0 m c t h0 h1, soutA_1 m c t h0 h1, soutA_2 m c t h0 h1, soutA_3 m c t h0 h1)
def stepB (c : Dev nD) (t : Fin cfg0.N) (h0 : ¬t.val % 8 = 0) (h1 : ¬t.val % 8 = 7) (xs : Vec F S1024x512 .f32 × Vec F S1024x512 .f32 × Vec F S1024x512 .f32 × Vec F S1024x512 .f32) : Vec F S1024x512 .f32 × Vec F S1024x512 .f32 × Vec F S1024x512 .f32 × Vec F S1024x512 .f32 × Vec F S1024x512 .f32 × Vec F S1024x512 .f32 :=
  (k0_pay11 (F := F), k0_pay11 (F := F), soutB_0 m c t h0 h1 xs, soutB_1 m c t h0 h1 xs, soutB_2 m c t h0 h1 xs, soutB_3 m c t h0 h1 xs)
def stepC (c : Dev nD) (t : Fin cfg0.N) (h0 : ¬t.val % 8 = 0) (h1 : t.val % 8 = 7) (xs : Vec F S1024x512 .f32 × Vec F S1024x512 .f32 × Vec F S1024x512 .f32 × Vec F S1024x512 .f32) : Vec F S1024x512 .f32 × Vec F S1024x512 .f32 × Vec F S1024x512 .f32 × Vec F S1024x512 .f32 × Vec F S1024x512 .f32 × Vec F S1024x512 .f32 :=
  (outC_16 m c t h0 h1 xs, outC_17 m c t h0 h1 xs, soutC_0 m c t h0 h1 xs, soutC_1 m c t h0 h1 xs, soutC_2 m c t h0 h1 xs, soutC_3 m c t h0 h1 xs)

/-! ## Point by point -/

/-- THE ACCUMULATION: what the outputs' staging buffers and the four accumulators hold after the body at
    position `n`, by recursion on the position: the case the closed forms select, the accumulators it reads at
    what position `n - 1` left. -/
def outsAt0 (c : Dev nD) : (n : ℕ) → n < cfg0.N → Vec F S1024x512 .f32 × Vec F S1024x512 .f32 × Vec F S1024x512 .f32 × Vec F S1024x512 .f32 × Vec F S1024x512 .f32 × Vec F S1024x512 .f32
  | 0, hn => stepA m c ⟨0, hn⟩ (Nat.zero_mod _) (by intro h; (try dsimp only at h); omega)
  | n + 1, hn =>
    if h0 : (n + 1) % 8 = 0 then
      if h1 : (n + 1) % 8 = 7 then False.elim (by omega)
      else stepA m c ⟨n + 1, hn⟩ h0 h1
    else
      if h1 : (n + 1) % 8 = 7 then stepC m c ⟨n + 1, hn⟩ h0 h1 (outsAt0 c n (Nat.lt_of_succ_lt hn)).2.2
      else stepB m c ⟨n + 1, hn⟩ h0 h1 (outsAt0 c n (Nat.lt_of_succ_lt hn)).2.2

theorem outsAt0_A (c : Dev nD) (t : Fin cfg0.N) (h0 : t.val % 8 = 0) (h1 : ¬t.val % 8 = 7) :
    outsAt0 m c t.val t.isLt = stepA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stepB m c t h0 h1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stepC m c t h0 h1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The accumulators after position `n`, each owned at what the recursion names. -/
def scrAt (c : Dev nD) (n : ℕ) (hn : n < cfg0.N) : sProp 𝕄 :=
  iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2))

/-- The region invariant before position `n`: before the first point the class's (every accumulator at anything);
    afterwards the accumulators at what the point before left, and the generator register at some state. -/
def PhiS (c : Dev nD) : (n : ℕ) → n ≤ cfg0.N → sProp 𝕄
  | 0, _ => Pipeline.ΦA spec0 c
  | n + 1, hn => iprop(scrAt m c n hn ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(scrAt m c n hn ∗ (∃ r, prngReg c r)) := rfl
theorem PhiS_pos (c : Dev nD) (n : ℕ) (h : n ≤ cfg0.N) (hz : n ≠ 0) :
    PhiS m c n h = iprop(scrAt m c (n - 1) (by omega) ∗ (∃ r, prngReg c r)) := by
  cases n with
  | zero => exact absurd rfl hz
  | succ n => rfl

/-! ## The proof data -/

/-- The proof data on core `c`: the arrays as the region finds them; after the body at point `t` each input's
    buffer at its block and the outputs' at the recursion's tiles; the invariant above; nothing owed; the input
    shares `q` (the weight arrays are each read through four windows). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨_ + 18, h⟩ => absurd h (Nat.not_lt.2 (Nat.le_add_left _ _))
  Φ t := PhiS m c t.val (Nat.le_of_lt_succ t.isLt)
  q := q
  owed _ := 0

theorem A_eq (c : Dev nD) (w : Fin cfg0.W) : (dats m q 0 c).A w = V m c (Pipeline.arrRef spec0 w) := by
  dsimp only [dats]
theorem q_eq (c : Dev nD) (w : Fin cfg0.W) : (dats m q 0 c).q w = q w := by
  dsimp only [dats]
theorem PhiS_castSucc (c : Dev nD) (t : Fin cfg0.N) :
    (dats m q 0 c).Φ t.castSucc = PhiS m c t.val (Nat.le_of_lt t.isLt) := by
  dsimp only [dats]; simp only [Fin.coe_castSucc]
theorem after0_0 (c : Dev nD) (t : Fin cfg0.N) : (dats m q 0 c).after 0 t = iblk m c 0 t := by dsimp only [dats]
theorem after0_1 (c : Dev nD) (t : Fin cfg0.N) : (dats m q 0 c).after 1 t = iblk m c 1 t := by dsimp only [dats]
theorem after0_2 (c : Dev nD) (t : Fin cfg0.N) : (dats m q 0 c).after 2 t = iblk m c 2 t := by dsimp only [dats]
theorem after0_3 (c : Dev nD) (t : Fin cfg0.N) : (dats m q 0 c).after 3 t = iblk m c 3 t := by dsimp only [dats]
theorem after0_4 (c : Dev nD) (t : Fin cfg0.N) : (dats m q 0 c).after 4 t = iblk m c 4 t := by dsimp only [dats]
theorem after0_5 (c : Dev nD) (t : Fin cfg0.N) : (dats m q 0 c).after 5 t = iblk m c 5 t := by dsimp only [dats]
theorem after0_6 (c : Dev nD) (t : Fin cfg0.N) : (dats m q 0 c).after 6 t = iblk m c 6 t := by dsimp only [dats]
theorem after0_7 (c : Dev nD) (t : Fin cfg0.N) : (dats m q 0 c).after 7 t = iblk m c 7 t := by dsimp only [dats]
theorem after0_8 (c : Dev nD) (t : Fin cfg0.N) : (dats m q 0 c).after 8 t = iblk m c 8 t := by dsimp only [dats]
theorem after0_9 (c : Dev nD) (t : Fin cfg0.N) : (dats m q 0 c).after 9 t = iblk m c 9 t := by dsimp only [dats]
theorem after0_10 (c : Dev nD) (t : Fin cfg0.N) : (dats m q 0 c).after 10 t = iblk m c 10 t := by dsimp only [dats]
theorem after0_11 (c : Dev nD) (t : Fin cfg0.N) : (dats m q 0 c).after 11 t = iblk m c 11 t := by dsimp only [dats]
theorem after0_12 (c : Dev nD) (t : Fin cfg0.N) : (dats m q 0 c).after 12 t = iblk m c 12 t := by dsimp only [dats]
theorem after0_13 (c : Dev nD) (t : Fin cfg0.N) : (dats m q 0 c).after 13 t = iblk m c 13 t := by dsimp only [dats]
theorem after0_14 (c : Dev nD) (t : Fin cfg0.N) : (dats m q 0 c).after 14 t = iblk m c 14 t := by dsimp only [dats]
theorem after0_15 (c : Dev nD) (t : Fin cfg0.N) : (dats m q 0 c).after 15 t = iblk m c 15 t := by dsimp only [dats]
theorem after0_16 (c : Dev nD) (t : Fin cfg0.N) : (dats m q 0 c).after 16 t = (outsAt0 m c t.val t.isLt).1 := by dsimp only [dats]
theorem after0_17 (c : Dev nD) (t : Fin cfg0.N) : (dats m q 0 c).after 17 t = (outsAt0 m c t.val t.isLt).2.1 := by dsimp only [dats]
theorem before0_0 (c : Dev nD) (t : Fin cfg0.N) (d) : (dats m q 0 c).before 0 t d = iblk m c 0 t :=
  before0_0_of m (dats m q 0 c) (A_eq m q c 0) (after0_0 m q c) t d
theorem before0_1 (c : Dev nD) (t : Fin cfg0.N) (d) : (dats m q 0 c).before 1 t d = iblk m c 1 t :=
  before0_1_of m (dats m q 0 c) (A_eq m q c 1) (after0_1 m q c) t d
theorem before0_2 (c : Dev nD) (t : Fin cfg0.N) (d) : (dats m q 0 c).before 2 t d = iblk m c 2 t :=
  before0_2_of m (dats m q 0 c) (A_eq m q c 2) (after0_2 m q c) t d
theorem before0_3 (c : Dev nD) (t : Fin cfg0.N) (d) : (dats m q 0 c).before 3 t d = iblk m c 3 t :=
  before0_3_of m (dats m q 0 c) (A_eq m q c 3) (after0_3 m q c) t d
theorem before0_4 (c : Dev nD) (t : Fin cfg0.N) (d) : (dats m q 0 c).before 4 t d = iblk m c 4 t :=
  before0_4_of m (dats m q 0 c) (A_eq m q c 4) (after0_4 m q c) t d
theorem before0_5 (c : Dev nD) (t : Fin cfg0.N) (d) : (dats m q 0 c).before 5 t d = iblk m c 5 t :=
  before0_5_of m (dats m q 0 c) (A_eq m q c 5) (after0_5 m q c) t d
theorem before0_6 (c : Dev nD) (t : Fin cfg0.N) (d) : (dats m q 0 c).before 6 t d = iblk m c 6 t :=
  before0_6_of m (dats m q 0 c) (A_eq m q c 6) (after0_6 m q c) t d
theorem before0_7 (c : Dev nD) (t : Fin cfg0.N) (d) : (dats m q 0 c).before 7 t d = iblk m c 7 t :=
  before0_7_of m (dats m q 0 c) (A_eq m q c 7) (after0_7 m q c) t d
theorem before0_8 (c : Dev nD) (t : Fin cfg0.N) (d) : (dats m q 0 c).before 8 t d = iblk m c 8 t :=
  before0_8_of m (dats m q 0 c) (A_eq m q c 8) (after0_8 m q c) t d
theorem before0_9 (c : Dev nD) (t : Fin cfg0.N) (d) : (dats m q 0 c).before 9 t d = iblk m c 9 t :=
  before0_9_of m (dats m q 0 c) (A_eq m q c 9) (after0_9 m q c) t d
theorem before0_10 (c : Dev nD) (t : Fin cfg0.N) (d) : (dats m q 0 c).before 10 t d = iblk m c 10 t :=
  before0_10_of m (dats m q 0 c) (A_eq m q c 10) (after0_10 m q c) t d
theorem before0_11 (c : Dev nD) (t : Fin cfg0.N) (d) : (dats m q 0 c).before 11 t d = iblk m c 11 t :=
  before0_11_of m (dats m q 0 c) (A_eq m q c 11) (after0_11 m q c) t d
theorem before0_12 (c : Dev nD) (t : Fin cfg0.N) (d) : (dats m q 0 c).before 12 t d = iblk m c 12 t :=
  before0_12_of m (dats m q 0 c) (A_eq m q c 12) (after0_12 m q c) t d
theorem before0_13 (c : Dev nD) (t : Fin cfg0.N) (d) : (dats m q 0 c).before 13 t d = iblk m c 13 t :=
  before0_13_of m (dats m q 0 c) (A_eq m q c 13) (after0_13 m q c) t d
theorem before0_14 (c : Dev nD) (t : Fin cfg0.N) (d) : (dats m q 0 c).before 14 t d = iblk m c 14 t :=
  before0_14_of m (dats m q 0 c) (A_eq m q c 14) (after0_14 m q c) t d
theorem before0_15 (c : Dev nD) (t : Fin cfg0.N) (d) : (dats m q 0 c).before 15 t d = iblk m c 15 t :=
  before0_15_of m (dats m q 0 c) (A_eq m q c 15) (after0_15 m q c) t d

end Cert.Kernel.Hand

end
-- ==== Proof.K.Body.lean ====
/-
  The body obligation: at every grid point, from the invariant and every window's current buffer at what it then
  holds, the kernel body runs to the invariant of the next point and every buffer at what the proof data say it
  leaves. The point's reduction step selects the run; the inputs hold their blocks; the accumulators are handed
  over at what the step before left (at anything before the very first point) and taken back at this step's
  contents; the two outputs' buffers come back untouched except at the last step, which stores them whole.
-/
import proofs.«164712_j12180527251605_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (q : Fin cfg0.W → PosShare TreeShare)

/-- What the body is called with at point `t`, the windows one by one, -/
def bodyPre (c : Dev nD) (t : Fin cfg0.N) : sProp 𝕄 :=
  iprop((dats m q 0 c).Φ t.castSucc ∗ (dats m q 0 c).owesAt () t.castSucc
    ∗ (∃ d, owns (c : Thread nD τ) (ms0_0 t) fullShare ((dats m q 0 c).before 0 t d))
    ∗ (∃ d, owns (c : Thread nD τ) (ms0_1 t) fullShare ((dats m q 0 c).before 1 t d))
    ∗ (∃ d, owns (c : Thread nD τ) (ms0_2 t) fullShare ((dats m q 0 c).before 2 t d))
    ∗ (∃ d, owns (c : Thread nD τ) (ms0_3 t) fullShare ((dats m q 0 c).before 3 t d))
    ∗ (∃ d, owns (c : Thread nD τ) (ms0_4 t) fullShare ((dats m q 0 c).before 4 t d))
    ∗ (∃ d, owns (c : Thread nD τ) (ms0_5 t) fullShare ((dats m q 0 c).before 5 t d))
    ∗ (∃ d, owns (c : Thread nD τ) (ms0_6 t) fullShare ((dats m q 0 c).before 6 t d))
    ∗ (∃ d, owns (c : Thread nD τ) (ms0_7 t) fullShare ((dats m q 0 c).before 7 t d))
    ∗ (∃ d, owns (c : Thread nD τ) (ms0_8 t) fullShare ((dats m q 0 c).before 8 t d))
    ∗ (∃ d, owns (c : Thread nD τ) (ms0_9 t) fullShare ((dats m q 0 c).before 9 t d))
    ∗ (∃ d, owns (c : Thread nD τ) (ms0_10 t) fullShare ((dats m q 0 c).before 10 t d))
    ∗ (∃ d, owns (c : Thread nD τ) (ms0_11 t) fullShare ((dats m q 0 c).before 11 t d))
    ∗ (∃ d, owns (c : Thread nD τ) (ms0_12 t) fullShare ((dats m q 0 c).before 12 t d))
    ∗ (∃ d, owns (c : Thread nD τ) (ms0_13 t) fullShare ((dats m q 0 c).before 13 t d))
    ∗ (∃ d, owns (c : Thread nD τ) (ms0_14 t) fullShare ((dats m q 0 c).before 14 t d))
    ∗ (∃ d, owns (c : Thread nD τ) (ms0_15 t) fullShare ((dats m q 0 c).before 15 t d))
    ∗ (∃ d, owns (c : Thread nD τ) (ms0_16 t) fullShare ((dats m q 0 c).before 16 t d))
    ∗ (∃ d, owns (c : Thread nD τ) (ms0_17 t) fullShare ((dats m q 0 c).before 17 t d)))

/-- and what it returns. -/
def bodyPost (c : Dev nD) (t : Fin cfg0.N) : sProp 𝕄 :=
  iprop((dats m q 0 c).Φ t.succ ∗ (dats m q 0 c).owesAt () t.succ
    ∗ (dats m q 0 c).leavesExact 0 t
    ∗ (dats m q 0 c).leavesExact 1 t
    ∗ (dats m q 0 c).leavesExact 2 t
    ∗ (dats m q 0 c).leavesExact 3 t
    ∗ (dats m q 0 c).leavesExact 4 t
    ∗ (dats m q 0 c).leavesExact 5 t
    ∗ (dats m q 0 c).leavesExact 6 t
    ∗ (dats m q 0 c).leavesExact 7 t
    ∗ (dats m q 0 c).leavesExact 8 t
    ∗ (dats m q 0 c).leavesExact 9 t
    ∗ (dats m q 0 c).leavesExact 10 t
    ∗ (dats m q 0 c).leavesExact 11 t
    ∗ (dats m q 0 c).leavesExact 12 t
    ∗ (dats m q 0 c).leavesExact 13 t
    ∗ (dats m q 0 c).leavesExact 14 t
    ∗ (dats m q 0 c).leavesExact 15 t
    ∗ (dats m q 0 c).leavesExact 16 t
    ∗ (dats m q 0 c).leavesExact 17 t)

set_option maxHeartbeats 8000000 in
/-- The body at any point. -/
theorem sound_body (c : Dev nD) (t : Fin cfg0.N) :
    bodyPre m q c t ⊢ wp frame (wpE (defs₀ (F := F)) Variants.none c none) Set.univ (bodyAt0 t) (fun _ => bodyPost m q c t) := by
  unfold bodyPre bodyPost bodyAt0
  simp only [before0_0, before0_1, before0_2, before0_3, before0_4, before0_5, before0_6, before0_7, before0_8, before0_9, before0_10, before0_11, before0_12, before0_13, before0_14, before0_15]
  rw [show (dats m q 0 c).owesAt () t.succ = (dats m q 0 c).owesAt () t.castSucc from rfl]
  rw [show (dats m q 0 c).Φ t.succ = PhiS m c (t.val + 1) t.isLt from rfl, PhiS_succ]
  have hN : t.val < 128 := lt_of_lt_of_eq t.isLt (show cfg0.N = 128 from N_0)
  rw [show (dats m q 0 c).leavesExact 0 t = owns (c : Thread nD τ) (ms0_0 t) fullShare ((dats m q 0 c).after 0 t) from by
    unfold Dat.leavesExact; rw [liveAt0_0 t], after0_0]
  rw [show (dats m q 0 c).leavesExact 1 t = owns (c : Thread nD τ) (ms0_1 t) fullShare ((dats m q 0 c).after 1 t) from by
    unfold Dat.leavesExact; rw [liveAt0_1 t], after0_1]
  rw [show (dats m q 0 c).leavesExact 2 t = owns (c : Thread nD τ) (ms0_2 t) fullShare ((dats m q 0 c).after 2 t) from by
    unfold Dat.leavesExact; rw [liveAt0_2 t], after0_2]
  rw [show (dats m q 0 c).leavesExact 3 t = owns (c : Thread nD τ) (ms0_3 t) fullShare ((dats m q 0 c).after 3 t) from by
    unfold Dat.leavesExact; rw [liveAt0_3 t], after0_3]
  rw [show (dats m q 0 c).leavesExact 4 t = owns (c : Thread nD τ) (ms0_4 t) fullShare ((dats m q 0 c).after 4 t) from by
    unfold Dat.leavesExact; rw [liveAt0_4 t], after0_4]
  rw [show (dats m q 0 c).leavesExact 5 t = owns (c : Thread nD τ) (ms0_5 t) fullShare ((dats m q 0 c).after 5 t) from by
    unfold Dat.leavesExact; rw [liveAt0_5 t], after0_5]
  rw [show (dats m q 0 c).leavesExact 6 t = owns (c : Thread nD τ) (ms0_6 t) fullShare ((dats m q 0 c).after 6 t) from by
    unfold Dat.leavesExact; rw [liveAt0_6 t], after0_6]
  rw [show (dats m q 0 c).leavesExact 7 t = owns (c : Thread nD τ) (ms0_7 t) fullShare ((dats m q 0 c).after 7 t) from by
    unfold Dat.leavesExact; rw [liveAt0_7 t], after0_7]
  rw [show (dats m q 0 c).leavesExact 8 t = owns (c : Thread nD τ) (ms0_8 t) fullShare ((dats m q 0 c).after 8 t) from by
    unfold Dat.leavesExact; rw [liveAt0_8 t], after0_8]
  rw [show (dats m q 0 c).leavesExact 9 t = owns (c : Thread nD τ) (ms0_9 t) fullShare ((dats m q 0 c).after 9 t) from by
    unfold Dat.leavesExact; rw [liveAt0_9 t], after0_9]
  rw [show (dats m q 0 c).leavesExact 10 t = owns (c : Thread nD τ) (ms0_10 t) fullShare ((dats m q 0 c).after 10 t) from by
    unfold Dat.leavesExact; rw [liveAt0_10 t], after0_10]
  rw [show (dats m q 0 c).leavesExact 11 t = owns (c : Thread nD τ) (ms0_11 t) fullShare ((dats m q 0 c).after 11 t) from by
    unfold Dat.leavesExact; rw [liveAt0_11 t], after0_11]
  rw [show (dats m q 0 c).leavesExact 12 t = owns (c : Thread nD τ) (ms0_12 t) fullShare ((dats m q 0 c).after 12 t) from by
    unfold Dat.leavesExact; rw [liveAt0_12 t], after0_12]
  rw [show (dats m q 0 c).leavesExact 13 t = owns (c : Thread nD τ) (ms0_13 t) fullShare ((dats m q 0 c).after 13 t) from by
    unfold Dat.leavesExact; rw [liveAt0_13 t], after0_13]
  rw [show (dats m q 0 c).leavesExact 14 t = owns (c : Thread nD τ) (ms0_14 t) fullShare ((dats m q 0 c).after 14 t) from by
    unfold Dat.leavesExact; rw [liveAt0_14 t], after0_14]
  rw [show (dats m q 0 c).leavesExact 15 t = owns (c : Thread nD τ) (ms0_15 t) fullShare ((dats m q 0 c).after 15 t) from by
    unfold Dat.leavesExact; rw [liveAt0_15 t], after0_15]
  unfold scrAt
  by_cases h0 : t.val % 8 = 0
  · have h1 : ¬t.val % 8 = 7 := by omega
    have hnc1 : ¬cond0_1 (grid0.coords t) := fun h => h1 ((hcond0_1 t).mp h)
    rw [Dat.leavesExact_idle (dats m q 0 c) 16 t (idleAt0_16 t hnc1) (noFlush0_16 t hnc1)]
    rw [Dat.leavesExact_idle (dats m q 0 c) 17 t (idleAt0_17 t hnc1) (noFlush0_17 t hnc1)]
    rw [outsAt0_A m c t h0 h1]
    unfold stepA soutA_0 soutA_1 soutA_2 soutA_3; (try dsimp only)
    by_cases hz : t.val = 0
    · rw [PhiS_castSucc m q c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      iexists _; iexact H17
    · rw [PhiS_castSucc m q c t, PhiS_pos m c _ _ hz]
      unfold scrAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, H12, H13, H14, H15, H16, H17, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      iexists _; iexact H17
  · have hz : t.val ≠ 0 := fun h => h0 (by rw [h])
    by_cases h1 : t.val % 8 = 7
    · have hc1 : cond0_1 (grid0.coords t) := (hcond0_1 t).mpr h1
      rw [show (dats m q 0 c).leavesExact 16 t = owns (c : Thread nD τ) (ms0_16 t) fullShare ((dats m q 0 c).after 16 t) from by
        unfold Dat.leavesExact; rw [liveAt0_16 t hc1], after0_16]
      rw [show (dats m q 0 c).leavesExact 17 t = owns (c : Thread nD τ) (ms0_17 t) fullShare ((dats m q 0 c).after 17 t) from by
        unfold Dat.leavesExact; rw [liveAt0_17 t hc1], after0_17]
      rw [outsAt0_C m c t h0 h1]
      unfold stepC outC_16 outC_17 soutC_0 soutC_1 soutC_2 soutC_3; (try dsimp only)
      rw [PhiS_castSucc m q c t, PhiS_pos m c _ _ hz]
      unfold scrAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runC m c t h0 h1 (outsAt0 m c (t.val - 1) (Nat.lt_of_le_of_lt (Nat.sub_le _ _) t.isLt)).2.2).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, ⟨%e16, H16⟩, ⟨%e17, H17⟩, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverC_0 m c t h0 h1 _)
          isplitl [HS1]
          · unfold owns; iexists _; isplitr
            swap; · iexact HS1
            ipureintro; exact View.read_writes_of_cover _ _ _ _ _ (scoverC_1 m c t h0 h1 _)
          isplitl [HS2]
          · unfold owns; iexists _; isplitr
            swap; · iexact HS2
            ipureintro; exact View.read_writes_of_cover _ _ _ _ _ (scoverC_2 m c t h0 h1 _)
          unfold owns; iexists _; isplitr
          swap; · iexact HS3
          ipureintro; exact View.read_writes_of_cover _ _ _ _ _ (scoverC_3 m c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (coverC_16 m c t h0 h1 _)
      unfold owns; iexists _; isplitr
      swap; · iexact H17
      ipureintro; exact View.read_writes_of_cover _ _ _ _ _ (coverC_17 m c t h0 h1 _)
    · have hnc1 : ¬cond0_1 (grid0.coords t) := fun h => h1 ((hcond0_1 t).mp h)
      rw [Dat.leavesExact_idle (dats m q 0 c) 16 t (idleAt0_16 t hnc1) (noFlush0_16 t hnc1)]
      rw [Dat.leavesExact_idle (dats m q 0 c) 17 t (idleAt0_17 t hnc1) (noFlush0_17 t hnc1)]
      rw [outsAt0_B m c t h0 h1]
      unfold stepB soutB_0 soutB_1 soutB_2 soutB_3; (try dsimp only)
      rw [PhiS_castSucc m q c t, PhiS_pos m c _ _ hz]
      unfold scrAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runB m c t h0 h1 (outsAt0 m c (t.val - 1) (Nat.lt_of_le_of_lt (Nat.sub_le _ _) t.isLt)).2.2).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverB_0 m c t h0 h1 _)
          isplitl [HS1]
          · unfold owns; iexists _; isplitr
            swap; · iexact HS1
            ipureintro; exact View.read_writes_of_cover _ _ _ _ _ (scoverB_1 m c t h0 h1 _)
          isplitl [HS2]
          · unfold owns; iexists _; isplitr
            swap; · iexact HS2
            ipureintro; exact View.read_writes_of_cover _ _ _ _ _ (scoverB_2 m c t h0 h1 _)
          unfold owns; iexists _; isplitr
          swap; · iexact HS3
          ipureintro; exact View.read_writes_of_cover _ _ _ _ _ (scoverB_3 m c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      iexists _; iexact H17

/-- The library's body obligation, at every point. -/
theorem body_obligation (c : Dev nD) : BodyObligation (dats (F := F) m q 0 c) (defs₀ (F := F)) Variants.none () Set.univ := fun t => by
  rw [bigSep_W0, bigSep_W0]
  exact sound_body m q c t

/-- What the launch hands the region is the invariant before the first point. -/
theorem hin (c : Dev nD) : Pipeline.ΦA spec0 c ⊢ (dats m q 0 c).Φ 0 := by
  rw [show (dats m q 0 c).Φ 0 = PhiS m c 0 (Nat.zero_le _) from rfl, PhiS_zero m c 0 _ rfl]
  try exact Idealize.SL.BI.Entails.refl _

/-- After the last point the invariant gives the class's back: the accumulators' contents are forgotten. -/
theorem hout (c : Dev nD) : (dats m q 0 c).Φ (Fin.last cfg0.N) ⊢ Pipeline.ΦA spec0 c := by
  rw [show (dats m q 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  unfold scrAt
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.Kernel.Hand

end
-- ==== Proof.K.Launch.lean ====
/-
  The launch of this program's one region, whose windows share arrays: the two bf16 weight arrays are each read
  through four input windows (one per gate), so no window holds its array whole. Each of those eight windows is
  given a quarter of its array's full share (`shareOf`); the buffers behind the arrays, whole at the entry contents,
  then make the windows' arrays at entry by splitting the two weight arrays' points-tos in four along the share
  (`arrays_of_bufs`). With that, the run from the launch memory follows from the body obligation (`run_of`), and
  from the run's post every argument of @main is found as launched (`frame_of`).
-/
import proofs.«164712_j12180527251605_2_alg».proof.Proof.K.Setup
import Idealize.ShloMosaic.Lib.Pipeline.Kit
import Idealize.ShloMosaic.Lib.Pipeline.Launch
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each window holds of its array: a quarter for the eight weight windows that share an array four
    ways, the full share otherwise. -/
def shareOf : Fin 18 → PosShare TreeShare := fun
  | 2 => fullShare.left.left | 3 => fullShare.left.right | 4 => fullShare.right.left | 5 => fullShare.right.right
  | 6 => fullShare.left.left | 7 => fullShare.left.right | 8 => fullShare.right.left | 9 => fullShare.right.right
  | _ => fullShare

/-- A whole points-to at the full share is four at its quarters. -/
theorem pointsTo_quarters {ℓ : Loc nD τ sig} (f : Buf (Elt F) ℓ) :
    (ℓ ↦{fullShare} f : sProp 𝕄)
      ⊢ iprop((ℓ ↦{fullShare.left.left} f) ∗ (ℓ ↦{fullShare.left.right} f) ∗ (ℓ ↦{fullShare.right.left} f) ∗ (ℓ ↦{fullShare.right.right} f)) := by
  iintro H
  ihave H := (pointsTo_share (PosShare.mem_left_op_right fullShare)).1 $$ H
  icases H with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  isplitl [HLL]; · iexact HLL
  isplitl [HLR]; · iexact HLR
  isplitl [HRL]; · iexact HRL
  iexact HRR

theorem arrRef_image : Finset.univ.image (Pipeline.arrRef spec0) = [main_v2, main_v3, main_v0, main_v1, main_v5, main_v6, main_v7, main_v8, main_arg0, main_arg2, main_v9_0, main_v9_1].toFinset := by decide

/-- Every window holds its array at `shareOf`: the outputs' full share is theirs there too. -/
theorem share_eq {c : Dev nD} (dat : Dat τ (Elt F) Unit ℕ (UR sig nD τ) ℕ cfg0 c) (hq : ∀ w, dat.q w = shareOf w) :
    ∀ w, dat.share w = shareOf w := fun
  | 0 => hq 0 | 1 => hq 1 | 2 => hq 2 | 3 => hq 3 | 4 => hq 4 | 5 => hq 5 | 6 => hq 6 | 7 => hq 7 | 8 => hq 8 | 9 => hq 9
  | 10 => hq 10 | 11 => hq 11 | 12 => hq 12 | 13 => hq 13 | 14 => hq 14 | 15 => hq 15 | 16 => rfl | 17 => rfl
  | ⟨_ + 18, h⟩ => absurd h (Nat.not_lt.2 (Nat.le_add_left _ _))

/-- The windows' arrays at entry, each whole at its window's share of the entry contents. -/
theorem arrays_entry {c : Dev nD} (dat : Dat τ (Elt F) Unit ℕ (UR sig nD τ) ℕ cfg0 c)
    (hA : ∀ w, dat.A w = V m c (Pipeline.arrRef spec0 w)) (hq : ∀ w, dat.q w = shareOf w) :
    dat.arrays (dat.arrAt · 0)
      = bigSep Finset.univ fun w : Fin 18 => ((((c : Thread nD τ).loc (Pipeline.arrRef spec0 w)) ↦{shareOf w} V m c (Pipeline.arrRef spec0 w)) : sProp 𝕄) := by
  unfold Dat.arrays
  exact bigSep_congr fun w _ => by
    rw [(arr_whole0 w).set_eq_univ, share_eq dat hq w]
    show (_ ↦{shareOf w} dat.A w) = _
    rw [hA w]

/-- The distinct buffers behind the windows' arrays, each whole at the full share at contents `W`, one by one. -/
theorem arrBufs_eq (c : Dev nD) (W : (b : Ref sig .tc) → Buf (Elt F) ((c : Thread nD τ).loc b)) :
    (Pipeline.arrBufs spec0 c W : sProp 𝕄)
      = iprop((((c : Thread nD τ).loc main_v2) ↦{fullShare} W main_v2) ∗ (((c : Thread nD τ).loc main_v3) ↦{fullShare} W main_v3)
          ∗ (((c : Thread nD τ).loc main_v0) ↦{fullShare} W main_v0) ∗ (((c : Thread nD τ).loc main_v1) ↦{fullShare} W main_v1)
          ∗ (((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8)
          ∗ (((c : Thread nD τ).loc main_arg0) ↦{fullShare} W main_arg0) ∗ (((c : Thread nD τ).loc main_arg2) ↦{fullShare} W main_arg2)
          ∗ (((c : Thread nD τ).loc main_v9_0) ↦{fullShare} W main_v9_0) ∗ (((c : Thread nD τ).loc main_v9_1) ↦{fullShare} W main_v9_1)) := by
  unfold Pipeline.arrBufs
  exact bigSep_eq_bigSepL_of_eq _ arrRef_image (by decide) _

/-- The buffers behind the arrays, each whole at the full share at the entry contents, make the windows' arrays at
    entry: the two weight arrays, read through four windows each, are split in quarters, one per window. -/
theorem arrays_of_bufs {c : Dev nD} (dat : Dat τ (Elt F) Unit ℕ (UR sig nD τ) ℕ cfg0 c)
    (hA : ∀ w, dat.A w = V m c (Pipeline.arrRef spec0 w)) (hq : ∀ w, dat.q w = shareOf w) :
    (Pipeline.arrBufs spec0 c (V m c) : sProp 𝕄) ⊢ dat.arrays (dat.arrAt · 0) := by
  rw [arrays_entry m dat hA hq, bigSep_W0, arrBufs_eq]
  iintro ⟨H0, H1, Hv0, Hv1, H10, H11, H12, H13, H14, H15, H16, H17⟩
  ihave Hv0 := pointsTo_quarters (F := F) _ $$ Hv0
  icases Hv0 with ⟨H2, H3, H4, H5⟩
  ihave Hv1 := pointsTo_quarters (F := F) _ $$ Hv1
  icases Hv1 with ⟨H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The run from the launch memory: the body obligation at every point, the proof data's arrays at the entry contents
    and each window's share of its array, nothing owed, and an invariant the class invariant yields before the first
    point and that yields it back after the last. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hA : ∀ c w, (dats 0 c).A w = V m c (Pipeline.arrRef spec0 w))
    (hq : ∀ c w, (dats 0 c).q w = shareOf w)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (Pipeline.FramePost cfgs dats 0 (V m)) := by
  classical
  exact Pipeline.θ_run_region_pf (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m (dats 0 c) (hA c) (hq c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2.2⟩)

/-- After the run every argument holds what it was launched with: arguments 0 and 2 are the arrays of two input
    windows, which no write-back touches; the other six bypass the region, and no host operation writes any of the eight. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 14).trans (((dats 0 c).arrAt_in 14 rfl _).trans ((hA c 14).trans (V_main_arg0 m c))),
      ((h c).2 main_arg1 (Pipeline.mem_restRefs_of main_arg1 (by decide) (by decide))).trans (V_main_arg1 m c),
      ((h c).1 15).trans (((dats 0 c).arrAt_in 15 rfl _).trans ((hA c 15).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

end Cert.Kernel.Hand

end
-- ==== Proof.K.Frame.lean ====
/-
  The kernel's run and its frame claim. Each of the eight weight windows is given a quarter of its array's share, the
  proof data are read at those shares, and the launch theorem for windows sharing arrays yields the run: the program
  terminates, every window's array holds what the proof data compute from the entry contents, and every buffer that
  bypasses the region is as the region found it. The eight arguments are among those (two as input arrays, six as
  bypassing buffers) and no host operation writes them, so they end as launched.
-/
import proofs.«164712_j12180527251605_2_alg».proof.Proof.K.Body
import proofs.«164712_j12180527251605_2_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run from the launch memory, each weight window holding a quarter of its array: the program terminates with
    every window's array at what the proof data compute and every bypassing buffer as the region found it. -/
theorem run_main : θ_run defs (onTc (τ := τ) (main (F := F))) (s₀ m ρ) (Pipeline.FramePost cfgs (dats m shareOf) 0 (V m)) :=
  run_of m ρ (dats m shareOf) (fun c => (body_obligation m shareOf c).loose) (A_eq m shareOf) (q_eq m shareOf) (fun _ _ => rfl)
    (hin m shareOf) (hout m shareOf)

/-- The program runs and leaves its eight arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m shareOf) (A_eq m shareOf) (run_main m ρ)

end Cert.Kernel.Hand

end
-- ==== Proof.lean ====
/- The proof of `Cert.Claim`.
   Both programs compute, for every row and unit, the gate cell: the pre-activation `g = lh · Wl + bl + rh · Wr + br` over
   2048 contraction positions, its four column blocks passed through the logistic function (three gates) and tanh (one), the
   cell state `σ(g_i) · tanh(g_u) + σ(g_lf) · lc + σ(g_rf) · rc` and the hidden state, its tanh. The reference takes each
   contraction as one sum over the 2048 positions and adds the biases between them; the kernel starts from zero, adds both
   products of 256 positions at each of eight steps, and adds the two biases' sum at the last. On the extended reals these
   are equal by commutativity and associativity of addition alone, a sum over 2048 positions being the sum of its eight
   tiles of 256; the logistic function is one function on both sides, and nothing need be finite. The frame claims say
   that each program runs and leaves its eight arguments as launched; the ideal reading rewrote no operation, so there
   is nothing to preserve. -/
import proofs.«164712_j12180527251605_2_alg».proof.Defs
import proofs.«164712_j12180527251605_2_alg».proof.Proof.Gen.Kernel
import proofs.«164712_j12180527251605_2_alg».proof.Proof.Gen.Kernel.Skeleton
import proofs.«164712_j12180527251605_2_alg».proof.Proof.Gen.Kernel.Launch
import proofs.«164712_j12180527251605_2_alg».proof.Proof.Gen.Kernel.Points
import proofs.«164712_j12180527251605_2_alg».proof.Proof.Gen.KernelIdeal
import proofs.«164712_j12180527251605_2_alg».proof.Proof.Gen.KernelIdeal.Skeleton
import proofs.«164712_j12180527251605_2_alg».proof.Proof.Gen.KernelIdeal.Launch
import proofs.«164712_j12180527251605_2_alg».proof.Proof.Gen.KernelIdeal.Points
import proofs.«164712_j12180527251605_2_alg».proof.Proof.Gen.ReferenceIdeal
import proofs.«164712_j12180527251605_2_alg».proof.Proof.Gen.Pre_finite_inputs
import proofs.«164712_j12180527251605_2_alg».proof.Proof.RefSpec
import proofs.«164712_j12180527251605_2_alg».proof.Proof.KI.ValueRun
import proofs.«164712_j12180527251605_2_alg».proof.Proof.K.Frame
import Idealize.ShloMosaic.Adequacy
import Idealize.ShloMosaic.Init

noncomputable section

namespace Cert.Proof

open Idealize.ShloMosaic Idealize.SL.Sem

/-- The kernel as printed runs and leaves its arguments unchanged. -/
theorem frame_Kernel : Cert.frame_Kernel := fun m ρ _ => Cert.Kernel.Hand.frame (F := Bits) m ρ

/-- The kernel at the ideal reading runs and leaves its arguments unchanged. -/
theorem frame_KernelIdeal : Cert.frame_KernelIdeal := fun m ρ _ => Cert.KernelIdeal.Hand.frame (F := Ideal) m ρ

/-- At the ideal reading, from memories agreeing on the eight arguments, the kernel's two results and the reference's are
    the cell-state and hidden-state arrays of the same arguments. -/
theorem algebraic : Cert.algebraic_KernelIdeal_ReferenceIdeal := by
  intro m ρ m' ρ' _ hagree
  refine ⟨_, _, Cert.KernelIdeal.Hand.value_run m ρ, ?_⟩
  refine (θ_run Cert.ReferenceIdeal.defs _ _).mono (fun _ h c => ⟨(h c).1.trans ?_, (h c).2.1.trans ?_, (h c).2.2⟩)
    (Cert.ReferenceIdeal.RefSpec.run_spec m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2]
  · rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_Kernel, frame_KernelIdeal, Cert.ReferenceIdeal.RefSpec.frame_ri, trivial, algebraic⟩

end Cert.Proof

end
